-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000 : Shape := ⟨1, ![1000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x3 .f32) (main_arg1 : FVec F S1000000x3 .f32) (main_arg2 : FVec F S1000000 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S1000000x3 : Shape := ⟨2, ![1000000, 3]⟩
abbrev S1000000 : Shape := ⟨1, ![1000000]⟩
abbrev S1000000x1 : Shape := ⟨2, ![1000000, 1]⟩
abbrev S_ : Shape := ⟨0, ![]⟩
abbrev S1015808 : Shape := ⟨1, ![1015808]⟩
abbrev S7936x128 : Shape := ⟨2, ![7936, 128]⟩
abbrev S1x7936x128 : Shape := ⟨3, ![1, 7936, 128]⟩
abbrev S7x7936x128 : Shape := ⟨3, ![7, 7936, 128]⟩
abbrev S8x7936x128 : Shape := ⟨3, ![8, 7936, 128]⟩
abbrev S7x256x128 : Shape := ⟨3, ![7, 256, 128]⟩
abbrev S8x256x128 : Shape := ⟨3, ![8, 256, 128]⟩
abbrev S1x256x128 : Shape := ⟨3, ![1, 256, 128]⟩
abbrev S256x128 : Shape := ⟨2, ![256, 128]⟩
abbrev S8126464 : Shape := ⟨1, ![8126464]⟩
abbrev S8126464x1 : Shape := ⟨2, ![8126464, 1]⟩
abbrev S8126464x4 : Shape := ⟨2, ![8126464, 4]⟩
abbrev S2097152x4 : Shape := ⟨2, ![2097152, 4]⟩

abbrev nBuf : Space → Nat
  | .hbm => 70
  | .vmem => 12
  | .smem => 0
  | _ => 0

abbrev bufTy : (tb : Table) → Fin (tcTables nBuf tb) → BufTy
  | .hbm, ⟨0, _⟩ => ⟨S1000000x3, .f32⟩
  | .hbm, ⟨1, _⟩ => ⟨S1000000x3, .f32⟩
  | .hbm, ⟨2, _⟩ => ⟨S1000000, .f32⟩
  | .hbm, ⟨3, _⟩ => ⟨S1000000x1, .f32⟩
  | .hbm, ⟨4, _⟩ => ⟨S1000000, .f32⟩
  | .hbm, ⟨5, _⟩ => ⟨S_, .i32⟩
  | .hbm, ⟨6, _⟩ => ⟨S_, .f32⟩
  | .hbm, ⟨7, _⟩ => ⟨S1015808, .f32⟩
  | .hbm, ⟨8, _⟩ => ⟨S7936x128, .f32⟩
  | .hbm, ⟨9, _⟩ => ⟨S1000000x1, .f32⟩
  | .hbm, ⟨10, _⟩ => ⟨S1000000, .f32⟩
  | .hbm, ⟨11, _⟩ => ⟨S_, .i32⟩
  | .hbm, ⟨12, _⟩ => ⟨S_, .f32⟩
  | .hbm, ⟨13, _⟩ => ⟨S1015808, .f32⟩
  | .hbm, ⟨14, _⟩ => ⟨S7936x128, .f32⟩
  | .hbm, ⟨15, _⟩ => ⟨S1000000x1, .f32⟩
  | .hbm, ⟨16, _⟩ => ⟨S1000000, .f32⟩
  | .hbm, ⟨17, _⟩ => ⟨S_, .i32⟩
  | .hbm, ⟨18, _⟩ => ⟨S_, .f32⟩
  | .hbm, ⟨19, _⟩ => ⟨S1015808, .f32⟩
  | .hbm, ⟨20, _⟩ => ⟨S7936x128, .f32⟩
  | .hbm, ⟨21, _⟩ => ⟨S1000000x1, .f32⟩
  | .hbm, ⟨22, _⟩ => ⟨S1000000, .f32⟩
  | .hbm, ⟨23, _⟩ => ⟨S_, .i32⟩
  | .hbm, ⟨24, _⟩ => ⟨S_, .f32⟩
  | .hbm, ⟨25, _⟩ => ⟨S1015808, .f32⟩
  | .hbm, ⟨26, _⟩ => ⟨S7936x128, .f32⟩
  | .hbm, ⟨27, _⟩ => ⟨S1000000x1, .f32⟩
  | .hbm, ⟨28, _⟩ => ⟨S1000000, .f32⟩
  | .hbm, ⟨29, _⟩ => ⟨S_, .i32⟩
  | .hbm, ⟨30, _⟩ => ⟨S_, .f32⟩
  | .hbm, ⟨31, _⟩ => ⟨S1015808, .f32⟩
  | .hbm, ⟨32, _⟩ => ⟨S7936x128, .f32⟩
  | .hbm, ⟨33, _⟩ => ⟨S1000000x1, .f32⟩
  | .hbm, ⟨34, _⟩ => ⟨S1000000, .f32⟩
  | .hbm, ⟨35, _⟩ => ⟨S_, .i32⟩
  | .hbm, ⟨36, _⟩ => ⟨S_, .f32⟩
  | .hbm, ⟨37, _⟩ => ⟨S1015808, .f32⟩
  | .hbm, ⟨38, _⟩ => ⟨S7936x128, .f32⟩
  | .hbm, ⟨39, _⟩ => ⟨S_, .i32⟩
  | .hbm, ⟨40, _⟩ => ⟨S_, .f32⟩
  | .hbm, ⟨41, _⟩ => ⟨S1015808, .f32⟩
  | .hbm, ⟨42, _⟩ => ⟨S7936x128, .f32⟩
  | .hbm, ⟨43, _⟩ => ⟨S1x7936x128, .f32⟩
  | .hbm, ⟨44, _⟩ => ⟨S1x7936x128, .f32⟩
  | .hbm, ⟨45, _⟩ => ⟨S1x7936x128, .f32⟩
  | .hbm, ⟨46, _⟩ => ⟨S1x7936x128, .f32⟩
  | .hbm, ⟨47, _⟩ => ⟨S1x7936x128, .f32⟩
  | .hbm, ⟨48, _⟩ => ⟨S1x7936x128, .f32⟩
  | .hbm, ⟨49, _⟩ => ⟨S1x7936x128, .f32⟩
  | .hbm, ⟨50, _⟩ => ⟨S7x7936x128, .f32⟩
  | .hbm, ⟨51, _⟩ => ⟨S8x7936x128, .i32⟩
  | .hbm, ⟨52, _⟩ => ⟨S8x7936x128, .f32⟩
  | .hbm, ⟨53, _⟩ => ⟨S8x7936x128, .f32⟩
  | .hbm, ⟨54, _⟩ => ⟨S8x7936x128, .f32⟩
  | .hbm, ⟨55, _⟩ => ⟨S8x7936x128, .f32⟩
  | .hbm, ⟨56, _⟩ => ⟨S8126464, .i32⟩
  | .hbm, ⟨57, _⟩ => ⟨S8126464, .f32⟩
  | .hbm, ⟨58, _⟩ => ⟨S8126464, .f32⟩
  | .hbm, ⟨59, _⟩ => ⟨S8126464, .f32⟩
  | .hbm, ⟨60, _⟩ => ⟨S8126464, .f32⟩
  | .hbm, ⟨61, _⟩ => ⟨S8126464x1, .f32⟩
  | .hbm, ⟨62, _⟩ => ⟨S8126464x1, .f32⟩
  | .hbm, ⟨63, _⟩ => ⟨S8126464x1, .f32⟩
  | .hbm, ⟨64, _⟩ => ⟨S8126464x1, .f32⟩
  | .hbm, ⟨65, _⟩ => ⟨S8126464x4, .f32⟩
  | .hbm, ⟨66, _⟩ => ⟨S_, .f32⟩
  | .hbm, ⟨67, _⟩ => ⟨S2097152x4, .f32⟩
  | .hbm, ⟨68, _⟩ => ⟨S8126464x1, .i32⟩
  | .hbm, ⟨69, _⟩ => ⟨S2097152x4, .f32⟩
  | .local _ .vmem, ⟨0, _⟩ => ⟨S7x256x128, .f32⟩
  | .local _ .vmem, ⟨1, _⟩ => ⟨S7x256x128, .f32⟩
  | .local _ .vmem, ⟨2, _⟩ => ⟨S8x256x128, .i32⟩
  | .local _ .vmem, ⟨3, _⟩ => ⟨S8x256x128, .i32⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call5_v0 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_call6_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_v34_3 : Ref sig .tc := ⟨.hbm, 54, rfl⟩
abbrev main_v34_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![31], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1000000x3_S1000000x1_0_0 : S1000000x3.Slices ![0, 0] S1000000x1
  shapeCasts_S1000000x1_S1000000 : S1000000x1.ShapeCasts S1000000
  pads_S1000000_S1015808_0158080 : S1000000.Pads (![0] : Fin 1 → Nat) ![15808] ![0] S1015808
  h_S_ : 0 < S_.numel
  shapeCasts_S1015808_S7936x128 : S1015808.ShapeCasts S7936x128
  slices_S1000000x3_S1000000x1_0_1 : S1000000x3.Slices ![0, 1] S1000000x1
  slices_S1000000x3_S1000000x1_0_2 : S1000000x3.Slices ![0, 2] S1000000x1
  bcast_S7936x128_S1x7936x128_1_2 : S7936x128.BroadcastsInDim S1x7936x128 (![1, 2] : Fin 2 → Fin S1x7936x128.rank)
  concatenates_S1x7936x128_S1x7936x128_S1x7936x128_S1x7936x128_S1x7936x128_S1x7936x128_S1x7936x128_S7x7936x128_d0 : Shape.Concatenates [S1x7936x128, S1x7936x128, S1x7936x128, S1x7936x128, S1x7936x128, S1x7936x128, S1x7936x128] S7x7936x128 0
  inb_S7x256x128_S1x256x128_0_0_0 : ∀ a, (![0, 0, 0] : Fin 3 → Nat) a + S1x256x128.size a ≤ S7x256x128.size a
  h_S1x256x128 : 0 < S1x256x128.numel
  shapeCasts_S1x256x128_S256x128 : S1x256x128.ShapeCasts S256x128
  inb_S7x256x128_S1x256x128_1_0_0 : ∀ a, (![1, 0, 0] : Fin 3 → Nat) a + S1x256x128.size a ≤ S7x256x128.size a
  inb_S7x256x128_S1x256x128_2_0_0 : ∀ a, (![2, 0, 0] : Fin 3 → Nat) a + S1x256x128.size a ≤ S7x256x128.size a
  inb_S7x256x128_S1x256x128_3_0_0 : ∀ a, (![3, 0, 0] : Fin 3 → Nat) a + S1x256x128.size a ≤ S7x256x128.size a
  inb_S7x256x128_S1x256x128_4_0_0 : ∀ a, (![4, 0, 0] : Fin 3 → Nat) a + S1x256x128.size a ≤ S7x256x128.size a
  inb_S7x256x128_S1x256x128_5_0_0 : ∀ a, (![5, 0, 0] : Fin 3 → Nat) a + S1x256x128.size a ≤ S7x256x128.size a
  inb_S7x256x128_S1x256x128_6_0_0 : ∀ a, (![6, 0, 0] : Fin 3 → Nat) a + S1x256x128.size a ≤ S7x256x128.size a
  inb_S8x256x128_S1x256x128_0_0_0 : ∀ a, (![0, 0, 0] : Fin 3 → Nat) a + S1x256x128.size a ≤ S8x256x128.size a
  shapeCasts_S256x128_S1x256x128 : S256x128.ShapeCasts S1x256x128
  inb_S8x256x128_S1x256x128_1_0_0 : ∀ a, (![1, 0, 0] : Fin 3 → Nat) a + S1x256x128.size a ≤ S8x256x128.size a
  inb_S8x256x128_S1x256x128_2_0_0 : ∀ a, (![2, 0, 0] : Fin 3 → Nat) a + S1x256x128.size a ≤ S8x256x128.size a
  inb_S8x256x128_S1x256x128_3_0_0 : ∀ a, (![3, 0, 0] : Fin 3 → Nat) a + S1x256x128.size a ≤ S8x256x128.size a
  inb_S8x256x128_S1x256x128_4_0_0 : ∀ a, (![4, 0, 0] : Fin 3 → Nat) a + S1x256x128.size a ≤ S8x256x128.size a
  inb_S8x256x128_S1x256x128_5_0_0 : ∀ a, (![5, 0, 0] : Fin 3 → Nat) a + S1x256x128.size a ≤ S8x256x128.size a
  inb_S8x256x128_S1x256x128_6_0_0 : ∀ a, (![6, 0, 0] : Fin 3 → Nat) a + S1x256x128.size a ≤ S8x256x128.size a
  inb_S8x256x128_S1x256x128_7_0_0 : ∀ a, (![7, 0, 0] : Fin 3 → Nat) a + S1x256x128.size a ≤ S8x256x128.size a
  shapeCasts_S8x7936x128_S8126464 : S8x7936x128.ShapeCasts S8126464
  bcast_S8126464_S8126464x1_0 : S8126464.BroadcastsInDim S8126464x1 (![0] : Fin 1 → Fin S8126464x1.rank)
  concatenates_S8126464x1_S8126464x1_S8126464x1_S8126464x1_S8126464x4_d1 : Shape.Concatenates [S8126464x1, S8126464x1, S8126464x1, S8126464x1] S8126464x4 1
  bcast_S_S2097152x4 : S_.BroadcastsInDim S2097152x4 (![] : Fin 0 → Fin S2097152x4.rank)
  scatter_S2097152x4_S8126464x1_S8126464x4_1_0_0_1_wf : ScatterDims.WF S2097152x4 S8126464x1 S8126464x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x256x128.size a ≤ S7x7936x128.size a
  hwx0_0 : ∀ i : grid0.Coords, EltTy.bits .f32 = 32 ∨ (Rect.block (s := S7x7936x128) S7x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x128.size a ≤ S8x7936x128.size a
  hwx0_1 : ∀ i : grid0.Coords, EltTy.bits .i32 = 32 ∨ (Rect.block (s := S8x7936x128) S8x256x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x128.size a ≤ S8x7936x128.size a
  hwx0_2 : ∀ i : grid0.Coords, EltTy.bits .f32 = 32 ∨ (Rect.block (s := S8x7936x128) S8x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x128.size a ≤ S8x7936x128.size a
  hwx0_3 : ∀ i : grid0.Coords, EltTy.bits .f32 = 32 ∨ (Rect.block (s := S8x7936x128) S8x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x128.size a ≤ S8x7936x128.size a
  hwx0_4 : ∀ i : grid0.Coords, EltTy.bits .f32 = 32 ∨ (Rect.block (s := S8x7936x128) S8x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x128.size a ≤ S8x7936x128.size a
  hwx0_5 : ∀ i : grid0.Coords, EltTy.bits .f32 = 32 ∨ (Rect.block (s := S8x7936x128) S8x256x128.size (cc0_transform_5 i) (hinb0_5 i)).WholeWords (EltTy.packing .f32)

variable [Facts₀]

def scatter_S2097152x4_S8126464x1_S8126464x4_1_0_0_1 : ScatterDims S2097152x4 S8126464x1 S8126464x4 where
  updateWindowDims := [1]
  insertedWindowDims := [0]
  scatterDimsToOperandDims := [0]
  indexVectorDim := 1
  wf := scatter_S2097152x4_S8126464x1_S8126464x4_1_0_0_1_wf

abbrev win0_0 : Pipeline.Window sig grid0 :=
  Pipeline.Window.ofSpec (Memref.whole main_v33) S7x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34_0) S8x256x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34_1) S8x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_2) S8x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34_3) S8x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_4) S8x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S1000000 : Shape := ⟨1, ![1000000]⟩
abbrev S3 : Shape := ⟨1, ![3]⟩
abbrev S8x3 : Shape := ⟨2, ![8, 3]⟩
abbrev S1x3 : Shape := ⟨2, ![1, 3]⟩
abbrev S_ : Shape := ⟨0, ![]⟩
abbrev S1000000x1x3 : Shape := ⟨3, ![1000000, 1, 3]⟩
abbrev S1x8x3 : Shape := ⟨3, ![1, 8, 3]⟩
abbrev S1000000x8x3 : Shape := ⟨3, ![1000000, 8, 3]⟩
abbrev S1000000x8x1 : Shape := ⟨3, ![1000000, 8, 1]⟩
abbrev S1000000x8 : Shape := ⟨2, ![1000000, 8]⟩
abbrev S8000000 : Shape := ⟨1, ![8000000]⟩
abbrev S1000000x1 : Shape := ⟨2, ![1000000, 1]⟩
abbrev S2097152 : Shape := ⟨1, ![2097152]⟩
abbrev S8000000x1 : Shape := ⟨2, ![8000000, 1]⟩
abbrev S8000000x3 : Shape := ⟨2, ![8000000, 3]⟩
abbrev S2097152x3 : Shape := ⟨2, ![2097152, 3]⟩
abbrev S2097152x1 : Shape := ⟨2, ![2097152, 1]⟩
abbrev S2097152x4 : Shape := ⟨2, ![2097152, 4]⟩

abbrev nBuf : Space → Nat
  | .hbm => 131
  | .vmem => 0
  | .smem => 0
  | _ => 0

abbrev hbmTy0_0 (i : Nat) : BufTy := match i % 128 with
  | 0 => ⟨S1000000x3, .f32⟩
  | 1 => ⟨S1000000x3, .f32⟩
  | 2 => ⟨S1000000, .f32⟩
  | 3 => ⟨S3, .f32⟩
  | 4 => ⟨S8x3, .i32⟩
  | 5 => ⟨S1x3, .f32⟩
  | 6 => ⟨S1000000x3, .f32⟩
  | 7 => ⟨S1000000x3, .f32⟩
  | 8 => ⟨S_, .f32⟩
  | 9 => ⟨S1000000x3, .f32⟩
  | 10 => ⟨S1000000x3, .f32⟩
  | 11 => ⟨S1000000x3, .f32⟩
  | 12 => ⟨S1000000x1x3, .f32⟩
  | 13 => ⟨S1x8x3, .i32⟩
  | 14 => ⟨S1x8x3, .f32⟩
  | 15 => ⟨S1000000x8x3, .f32⟩
  | 16 => ⟨S1000000x8x3, .f32⟩
  | 17 => ⟨S1000000x8x3, .f32⟩
  | 18 => ⟨S1000000x1x3, .f32⟩
  | 19 => ⟨S1000000x8x3, .f32⟩
  | 20 => ⟨S1000000x8x3, .f32⟩
  | 21 => ⟨S1000000x8x3, .i32⟩
  | 22 => ⟨S1000000x8x1, .i32⟩
  | 23 => ⟨S1000000x8, .i32⟩
  | 24 => ⟨S1000000x8x1, .i32⟩
  | 25 => ⟨S1000000x8, .i32⟩
  | 26 => ⟨S_, .i32⟩
  | 27 => ⟨S1000000x8, .i32⟩
  | 28 => ⟨S1000000x8, .i32⟩
  | 29 => ⟨S1000000x8, .i32⟩
  | 30 => ⟨S1000000x8x1, .i32⟩
  | 31 => ⟨S1000000x8, .i32⟩
  | 32 => ⟨S_, .i32⟩
  | 33 => ⟨S1000000x8, .i32⟩
  | 34 => ⟨S1000000x8, .i32⟩
  | 35 => ⟨S1000000x8, .i32⟩
  | 36 => ⟨S1000000x8x3, .f32⟩
  | 37 => ⟨S_, .f32⟩
  | 38 => ⟨S1000000x8x3, .f32⟩
  | 39 => ⟨S1000000x8x3, .f32⟩
  | 40 => ⟨S1000000x8x1, .f32⟩
  | 41 => ⟨S1000000x8, .f32⟩
  | 42 => ⟨S1000000x8x1, .f32⟩
  | 43 => ⟨S1000000x8, .f32⟩
  | 44 => ⟨S1000000x8, .f32⟩
  | 45 => ⟨S1000000x8x1, .f32⟩
  | 46 => ⟨S1000000x8, .f32⟩
  | 47 => ⟨S1000000x8, .f32⟩
  | 48 => ⟨S_, .i32⟩
  | 49 => ⟨S1000000x8, .i32⟩
  | 50 => ⟨S1000000x8, .i1⟩
  | 51 => ⟨S_, .i32⟩
  | 52 => ⟨S1000000x8, .i32⟩
  | 53 => ⟨S1000000x8, .i1⟩
  | 54 => ⟨S1000000x8, .i1⟩
  | 55 => ⟨S_, .f32⟩
  | 56 => ⟨S_, .f32⟩
  | 57 => ⟨S1000000x8, .f32⟩
  | 58 => ⟨S1000000x8, .f32⟩
  | 59 => ⟨S1000000x8x1, .f32⟩
  | 60 => ⟨S1000000x8, .f32⟩
  | 61 => ⟨S1000000x8, .f32⟩
  | 62 => ⟨S1000000x8, .f32⟩
  | 63 => ⟨S1000000x8x1, .f32⟩
  | 64 => ⟨S1000000x8, .f32⟩
  | 65 => ⟨S1000000x8, .f32⟩
  | 66 => ⟨S1000000x8x1, .f32⟩
  | 67 => ⟨S1000000x8, .f32⟩
  | 68 => ⟨S1000000x8, .f32⟩
  | 69 => ⟨S1000000x8x1, .f32⟩
  | 70 => ⟨S1000000x8, .f32⟩
  | 71 => ⟨S1000000x8, .f32⟩
  | 72 => ⟨S1000000x8, .f32⟩
  | 73 => ⟨S1000000x8x1, .f32⟩
  | 74 => ⟨S1000000x8, .f32⟩
  | 75 => ⟨S1000000x8, .f32⟩
  | 76 => ⟨S1000000x8x1, .f32⟩
  | 77 => ⟨S1000000x8, .f32⟩
  | 78 => ⟨S1000000x8, .f32⟩
  | 79 => ⟨S1000000x8x1, .f32⟩
  | 80 => ⟨S1000000x8, .f32⟩
  | 81 => ⟨S1000000x8, .f32⟩
  | 82 => ⟨S1000000x8, .f32⟩
  | 83 => ⟨S1000000x8x1, .f32⟩
  | 84 => ⟨S1000000x8, .f32⟩
  | 85 => ⟨S1000000x8, .f32⟩
  | 86 => ⟨S1000000x8x1, .f32⟩
  | 87 => ⟨S1000000x8, .f32⟩
  | 88 => ⟨S1000000x8, .f32⟩
  | 89 => ⟨S1000000x8x1, .f32⟩
  | 90 => ⟨S1000000x8x1, .f32⟩
  | 91 => ⟨S1000000x8x1, .f32⟩
  | 92 => ⟨S1000000x8x3, .f32⟩
  | 93 => ⟨S_, .f32⟩
  | 94 => ⟨S1000000x8x3, .f32⟩
  | 95 => ⟨S1000000x8x3, .f32⟩
  | 96 => ⟨S1000000x8x1, .i1⟩
  | 97 => ⟨S_, .f32⟩
  | 98 => ⟨S_, .f32⟩
  | 99 => ⟨S1000000x8x3, .i1⟩
  | 100 => ⟨S1000000x8x3, .f32⟩
  | 101 => ⟨S1000000x8x3, .f32⟩
  | 102 => ⟨S_, .i32⟩
  | 103 => ⟨S_, .i32⟩
  | 104 => ⟨S_, .i32⟩
  | 105 => ⟨S1000000x8, .i32⟩
  | 106 => ⟨S1000000x8, .i32⟩
  | 107 => ⟨S_, .i32⟩
  | 108 => ⟨S1000000x8, .i32⟩
  | 109 => ⟨S1000000x8, .i32⟩
  | 110 => ⟨S8000000, .i32⟩
  | 111 => ⟨S1000000x1, .f32⟩
  | 112 => ⟨S1000000x8, .f32⟩
  | 113 => ⟨S1000000x8, .f32⟩
  | 114 => ⟨S8000000, .f32⟩
  | 115 => ⟨S_, .f32⟩
  | 116 => ⟨S2097152, .f32⟩
  | 117 => ⟨S8000000x1, .i32⟩
  | 118 => ⟨S2097152, .f32⟩
  | 119 => ⟨S1000000x8x1, .f32⟩
  | 120 => ⟨S1000000x1x3, .f32⟩
  | 121 => ⟨S1000000x8x3, .f32⟩
  | 122 => ⟨S1000000x8x3, .f32⟩
  | 123 => ⟨S1000000x8x3, .f32⟩
  | 124 => ⟨S8000000x3, .f32⟩
  | 125 => ⟨S_, .f32⟩
  | 126 => ⟨S2097152x3, .f32⟩
  | 127 => ⟨S8000000x1, .i32⟩
  | _ => ⟨S1000000x3, .f32⟩

abbrev hbmTy0_1 (i : Nat) : BufTy := match i % 128 with
  | 0 => ⟨S2097152x3, .f32⟩
  | 1 => ⟨S2097152x1, .f32⟩
  | 2 => ⟨S2097152x4, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_8 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v82 : Ref sig .tc := ⟨.hbm, 101, rfl⟩
abbrev main_c_9 : Ref sig .tc := ⟨.hbm, 102, rfl⟩
abbrev main_c_10 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_12 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  bcast_S1000000x3_S1000000x1x3_0_2 : S1000000x3.BroadcastsInDim S1000000x1x3 (![0, 2] : Fin 2 → Fin S1000000x1x3.rank)
  bcast_S8x3_S1x8x3_1_2 : S8x3.BroadcastsInDim S1x8x3 (![1, 2] : Fin 2 → Fin S1x8x3.rank)
  bcast_S1000000x1x3_S1000000x8x3_0_1_2 : S1000000x1x3.BroadcastsInDim S1000000x8x3 (![0, 1, 2] : Fin 3 → Fin S1000000x8x3.rank)
  bcast_S1x8x3_S1000000x8x3_0_1_2 : S1x8x3.BroadcastsInDim S1000000x8x3 (![0, 1, 2] : Fin 3 → Fin S1000000x8x3.rank)
  slices_S1000000x8x3_S1000000x8x1_0_0_2 : S1000000x8x3.Slices ![0, 0, 2] S1000000x8x1
  shapeCasts_S1000000x8x1_S1000000x8 : S1000000x8x1.ShapeCasts S1000000x8
  slices_S1000000x8x3_S1000000x8x1_0_0_0 : S1000000x8x3.Slices ![0, 0, 0] S1000000x8x1
  bcast_S_S1000000x8 : S_.BroadcastsInDim S1000000x8 (![] : Fin 0 → Fin S1000000x8.rank)
  slices_S1000000x8x3_S1000000x8x1_0_0_1 : S1000000x8x3.Slices ![0, 0, 1] S1000000x8x1
  bcast_S_S1000000x8x3 : S_.BroadcastsInDim S1000000x8x3 (![] : Fin 0 → Fin S1000000x8x3.rank)
  bcast_S1000000x8_S1000000x8x1_0_1 : S1000000x8.BroadcastsInDim S1000000x8x1 (![0, 1] : Fin 2 → Fin S1000000x8x1.rank)
  concatenates_S1000000x8x1_S1000000x8x1_S1000000x8x1_S1000000x8x3_d2 : Shape.Concatenates [S1000000x8x1, S1000000x8x1, S1000000x8x1] S1000000x8x3 2
  bcast_S1000000x8x1_S1000000x8x3_0_1_2 : S1000000x8x1.BroadcastsInDim S1000000x8x3 (![0, 1, 2] : Fin 3 → Fin S1000000x8x3.rank)
  shapeCasts_S1000000x8_S8000000 : S1000000x8.ShapeCasts S8000000
  bcast_S1000000_S1000000x1_0 : S1000000.BroadcastsInDim S1000000x1 (![0] : Fin 1 → Fin S1000000x1.rank)
  bcast_S1000000x1_S1000000x8_0_1 : S1000000x1.BroadcastsInDim S1000000x8 (![0, 1] : Fin 2 → Fin S1000000x8.rank)
  bcast_S_S2097152 : S_.BroadcastsInDim S2097152 (![] : Fin 0 → Fin S2097152.rank)
  bcast_S8000000_S8000000x1_0 : S8000000.BroadcastsInDim S8000000x1 (![0] : Fin 1 → Fin S8000000x1.rank)
  shapeCasts_S1000000x8x3_S8000000x3 : S1000000x8x3.ShapeCasts S8000000x3
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  concatenates_S2097152x1_S2097152x3_S2097152x4_d1 : Shape.Concatenates [S2097152x1, S2097152x3] S2097152x4 1
  scatter_S2097152_S8000000x1_S8000000_n_0_0_1_wf : ScatterDims.WF S2097152 S8000000x1 S8000000 [] [0] [0] 1
  scatter_S2097152x3_S8000000x1_S8000000x3_1_0_0_1_wf : ScatterDims.WF S2097152x3 S8000000x1 S8000000x3 [1] [0] [0] 1

variable [Facts₀]

def scatter_S2097152_S8000000x1_S8000000_n_0_0_1 : ScatterDims S2097152 S8000000x1 S8000000 where
  updateWindowDims := []
  insertedWindowDims := [0]
  scatterDimsToOperandDims := [0]
  indexVectorDim := 1
  wf := scatter_S2097152_S8000000x1_S8000000_n_0_0_1_wf
def scatter_S2097152x3_S8000000x1_S8000000x3_1_0_0_1 : ScatterDims S2097152x3 S8000000x1 S8000000x3 where
  updateWindowDims := [1]
  insertedWindowDims := [0]
  scatterDimsToOperandDims := [0]
  indexVectorDim := 1
  wf := scatter_S2097152x3_S8000000x1_S8000000x3_1_0_0_1_wf

class Facts : Prop extends Facts₀ where

variable [Facts]
-- ==== Proof.KernelBase.lean ====
/-
  The launch side of the program's frame: @main is fifteen stretches of host operations (column slices of the
  positions and velocities, zero padding to 1015808 entries, reshapes to [7936, 128], and the seven channels stacked
  into one [7, 7936, 128] array), the one pipelined region over 31 grid points, and fourteen host operations after it
  (the five results flattened, the four float ones joined column-wise, and one scatter-add into a zero array).
  Here: the buffer contents when the region is entered (the host prefix folded over the launch memory), that the
  three argument arrays are written by no host operation before or after the region, each window's block at a grid
  point, and the frame claim's post read off a frame run.
-/
import proofs.«152410_j40132174414020_2_alg».proof.Proof.Gen.Kernel.Launch
import proofs.«152410_j40132174414020_2_alg».proof.Proof.Gen.Kernel.Skeleton
import proofs.«152410_j40132174414020_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

/-- Core `c`'s buffer contents when the region is entered: the host prefix folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩

theorem pre_fresh : (pre (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host prefix, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the three argument
    arrays (none is a window's array, so each is what the host lines after the region leave, which is the launch
    contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The staging memrefs at a point -/

/-- One staging buffer of each output window, through which its contents are stated. -/
abbrev VO0_1 : View sig .tc .vmem S8x256x128 .i32 := (Memref.whole cc0_stg1_0 : Memref sig .tc .vmem S8x256x128 .i32).view
abbrev VO0_2 : View sig .tc .vmem S8x256x128 .f32 := (Memref.whole cc0_stg2_0 : Memref sig .tc .vmem S8x256x128 .f32).view
abbrev VO0_3 : View sig .tc .vmem S8x256x128 .f32 := (Memref.whole cc0_stg3_0 : Memref sig .tc .vmem S8x256x128 .f32).view
abbrev VO0_4 : View sig .tc .vmem S8x256x128 .f32 := (Memref.whole cc0_stg4_0 : Memref sig .tc .vmem S8x256x128 .f32).view
abbrev VO0_5 : View sig .tc .vmem S8x256x128 .f32 := (Memref.whole cc0_stg5_0 : Memref sig .tc .vmem S8x256x128 .f32).view
/-- Each window's current staging memref at point `t`, spelled as the pipeline passes it, and its wholeness. -/
abbrev ms0_0 (t : Fin cfg0.N) : Memref sig .tc .vmem S7x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x128 .f32 := win0_5.stage (cfg0.slots t 5)
abbrev hs0_5 (t : Fin cfg0.N) : (ms0_5 t).IsWhole := hstage0_5 ((cfg0.slots t 5).cast nbuf0_5)

end Cert.Kernel.Hand

end
-- ==== Proof.KernelRun.lean ====
/-
  The kernel body run once, on whole staging buffers: the input buffer holds one [7, 256, 128] block (the seven
  channels of 32768 particles), each of the five output buffers starts at arbitrary contents. The body loads the seven
  channel slabs, and for each of the eight cell corners computes the corner's clipped cell number, its weight times
  the mass, and that times each velocity component, storing each as slab `corner` of the matching output buffer. Its
  loads from the output buffers are dead. What each output buffer ends with is the list of its eight slab stores,
  found by running the body.
-/
import proofs.«152410_j40132174414020_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging buffer, as pieces (last first), with the proof that from
    whole staging buffers — the input's at `x0`, the outputs' at anything — the body runs to the continuation
    holding the input as it was and each output with its pieces written. -/
noncomputable def kernelRun0 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) :
    Σ' (L1 : List (View.Piece (Elt F) S8x256x128 .i32)), Σ' (L2 : List (View.Piece (Elt F) S8x256x128 .f32)), Σ' (L3 : List (View.Piece (Elt F) S8x256x128 .f32)), Σ' (L4 : List (View.Piece (Elt F) S8x256x128 .f32)), { L5 : List (View.Piece (Elt F) S8x256x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__mpm_kernel i arg1 harg1 arg2 harg2 arg3 harg3 arg4 harg4 arg5 harg5 arg6 harg6) K } := by
  refine ⟨?_, ?_, ?_, ?_, ?_, fun E K => ?run⟩
  case run =>
    simp only [cc0__mpm_kernel_eq_skeleton]; unfold cc0__mpm_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Hand

end
-- ==== Proof.KernelFrame.lean ====
/-
  The frame of the program from the body's run: each output buffer's eight slab stores tile it, so what the buffer
  holds after the body is a function of the input block alone; with the arrays as the region finds them this is the
  proof data of the pipeline; the body meets its obligation at every grid point; and @main — host prefix, region,
  host lines after it — runs to the end with every window's array at what the pipeline wrote back, every other
  buffer as the host lines leave it, and the three argument arrays unchanged.
-/
import proofs.«152410_j40132174414020_2_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Output 1's pieces tile its buffer (eight slabs of [1, 256, 128] in [8, 256, 128]), so they cover it. -/
theorem cover0_1 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).1, y ∈ pc.1.set :=
  View.cover_of_tiledL (kernelRun0 c i arg1 harg1 arg2 harg2 arg3 harg3 arg4 harg4 arg5 harg5 arg6 harg6 x0).1 S1x256x128.size (by sl_kernel_rfl) y

/-- What the body leaves in output 1's staging buffer: its pieces read back. -/
def out0_1 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .i32 :=
  VO0_1.read (Elt F) (VO0_1.writes (Elt F) VO0_1.junk (kernelRun0 c i arg1 harg1 arg2 harg2 arg3 harg3 arg4 harg4 arg5 harg5 arg6 harg6 x0).1)

/-- Output 2's pieces tile its buffer (eight slabs of [1, 256, 128] in [8, 256, 128]), so they cover it. -/
theorem cover0_2 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.1, y ∈ pc.1.set :=
  View.cover_of_tiledL (kernelRun0 c i arg1 harg1 arg2 harg2 arg3 harg3 arg4 harg4 arg5 harg5 arg6 harg6 x0).2.1 S1x256x128.size (by sl_kernel_rfl) y

/-- What the body leaves in output 2's staging buffer: its pieces read back. -/
def out0_2 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_2.read (Elt F) (VO0_2.writes (Elt F) VO0_2.junk (kernelRun0 c i arg1 harg1 arg2 harg2 arg3 harg3 arg4 harg4 arg5 harg5 arg6 harg6 x0).2.1)

/-- Output 3's pieces tile its buffer (eight slabs of [1, 256, 128] in [8, 256, 128]), so they cover it. -/
theorem cover0_3 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.1, y ∈ pc.1.set :=
  View.cover_of_tiledL (kernelRun0 c i arg1 harg1 arg2 harg2 arg3 harg3 arg4 harg4 arg5 harg5 arg6 harg6 x0).2.2.1 S1x256x128.size (by sl_kernel_rfl) y

/-- What the body leaves in output 3's staging buffer: its pieces read back. -/
def out0_3 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_3.read (Elt F) (VO0_3.writes (Elt F) VO0_3.junk (kernelRun0 c i arg1 harg1 arg2 harg2 arg3 harg3 arg4 harg4 arg5 harg5 arg6 harg6 x0).2.2.1)

/-- Output 4's pieces tile its buffer (eight slabs of [1, 256, 128] in [8, 256, 128]), so they cover it. -/
theorem cover0_4 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.2.1, y ∈ pc.1.set :=
  View.cover_of_tiledL (kernelRun0 c i arg1 harg1 arg2 harg2 arg3 harg3 arg4 harg4 arg5 harg5 arg6 harg6 x0).2.2.2.1 S1x256x128.size (by sl_kernel_rfl) y

/-- What the body leaves in output 4's staging buffer: its pieces read back. -/
def out0_4 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_4.read (Elt F) (VO0_4.writes (Elt F) VO0_4.junk (kernelRun0 c i arg1 harg1 arg2 harg2 arg3 harg3 arg4 harg4 arg5 harg5 arg6 harg6 x0).2.2.2.1)

/-- Output 5's pieces tile its buffer (eight slabs of [1, 256, 128] in [8, 256, 128]), so they cover it. -/
theorem cover0_5 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.2.2.1, y ∈ pc.1.set :=
  View.cover_of_tiledL (kernelRun0 c i arg1 harg1 arg2 harg2 arg3 harg3 arg4 harg4 arg5 harg5 arg6 harg6 x0).2.2.2.2.1 S1x256x128.size (by sl_kernel_rfl) y

/-- What the body leaves in output 5's staging buffer: its pieces read back. -/
def out0_5 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_5.read (Elt F) (VO0_5.writes (Elt F) VO0_5.junk (kernelRun0 c i arg1 harg1 arg2 harg2 arg3 harg3 arg4 harg4 arg5 harg5 arg6 harg6 x0).2.2.2.2.1)

/-! ## The pipeline's proof data -/

/-- The proof data of the pipeline on core `c`: the arrays as the region finds them; after the body at point `t`
    the input's buffer at its block and each output's at what the body leaves from that block; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨2, _⟩ => out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨3, _⟩ => out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨4, _⟩ => out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_4 (c : Dev nD) (t : Fin cfg0.N) : (dats m 0 c).after 4 t = out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the input's buffer holds its block, so the run applies; each output's buffer, covered by
    its pieces, then holds what the proof data says; the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold out0_1 out0_2 out0_3 out0_4 out0_5
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk m c 0 t)).2.2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, ⟨%e1, H1⟩, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _ _ _ _ _ _)
  isplitl [H2]
  · unfold owns; iexists _; isplitr
    swap; · iexact H2
    ipureintro; exact View.read_writes_of_cover _ _ _ _ _ (cover0_2 c _ _ _ _ _ _ _ _ _ _ _ _ _ _)
  isplitl [H3]
  · unfold owns; iexists _; isplitr
    swap; · iexact H3
    ipureintro; exact View.read_writes_of_cover _ _ _ _ _ (cover0_3 c _ _ _ _ _ _ _ _ _ _ _ _ _ _)
  isplitl [H4]
  · unfold owns; iexists _; isplitr
    swap; · iexact H4
    ipureintro; exact View.read_writes_of_cover _ _ _ _ _ (cover0_4 c _ _ _ _ _ _ _ _ _ _ _ _ _ _)
  unfold owns; iexists _; isplitr
  swap; · iexact H5
  ipureintro; exact View.read_writes_of_cover _ _ _ _ _ (cover0_5 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, with every window's array
    at what the pipeline wrote back and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealBase.lean ====
/-
  The launch side of the program's frame: @main is fifteen stretches of host operations (column slices of the
  positions and velocities, zero padding to 1015808 entries, reshapes to [7936, 128], and the seven channels stacked
  into one [7, 7936, 128] array), the one pipelined region over 31 grid points, and fourteen host operations after it
  (the five results flattened, the four float ones joined column-wise, and one scatter-add into a zero array).
  Here: the buffer contents when the region is entered (the host prefix folded over the launch memory), that the
  three argument arrays are written by no host operation before or after the region, each window's block at a grid
  point, and the frame claim's post read off a frame run.
-/
import proofs.«152410_j40132174414020_2_alg».proof.Proof.Gen.KernelIdeal.Launch
import proofs.«152410_j40132174414020_2_alg».proof.Proof.Gen.KernelIdeal.Skeleton
import proofs.«152410_j40132174414020_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

/-- Core `c`'s buffer contents when the region is entered: the host prefix folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem pre_sub : (pre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩

theorem pre_fresh : (pre (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host prefix, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the three argument
    arrays (none is a window's array, so each is what the host lines after the region leave, which is the launch
    contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The staging memrefs at a point -/

/-- One staging buffer of each output window, through which its contents are stated. -/
abbrev VO0_1 : View sig .tc .vmem S8x256x128 .i32 := (Memref.whole cc0_stg1_0 : Memref sig .tc .vmem S8x256x128 .i32).view
abbrev VO0_2 : View sig .tc .vmem S8x256x128 .f32 := (Memref.whole cc0_stg2_0 : Memref sig .tc .vmem S8x256x128 .f32).view
abbrev VO0_3 : View sig .tc .vmem S8x256x128 .f32 := (Memref.whole cc0_stg3_0 : Memref sig .tc .vmem S8x256x128 .f32).view
abbrev VO0_4 : View sig .tc .vmem S8x256x128 .f32 := (Memref.whole cc0_stg4_0 : Memref sig .tc .vmem S8x256x128 .f32).view
abbrev VO0_5 : View sig .tc .vmem S8x256x128 .f32 := (Memref.whole cc0_stg5_0 : Memref sig .tc .vmem S8x256x128 .f32).view
/-- Each window's current staging memref at point `t`, spelled as the pipeline passes it, and its wholeness. -/
abbrev ms0_0 (t : Fin cfg0.N) : Memref sig .tc .vmem S7x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x128 .f32 := win0_5.stage (cfg0.slots t 5)
abbrev hs0_5 (t : Fin cfg0.N) : (ms0_5 t).IsWhole := hstage0_5 ((cfg0.slots t 5).cast nbuf0_5)

end Cert.KernelIdeal.Hand

end
-- ==== Proof.KernelIdealRun.lean ====
/-
  The kernel body run once, on whole staging buffers: the input buffer holds one [7, 256, 128] block (the seven
  channels of 32768 particles), each of the five output buffers starts at arbitrary contents. The body loads the seven
  channel slabs, and for each of the eight cell corners computes the corner's clipped cell number, its weight times
  the mass, and that times each velocity component, storing each as slab `corner` of the matching output buffer. Its
  loads from the output buffers are dead. What each output buffer ends with is the list of its eight slab stores,
  found by running the body.
-/
import proofs.«152410_j40132174414020_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging buffer, as pieces (last first), with the proof that from
    whole staging buffers — the input's at `x0`, the outputs' at anything — the body runs to the continuation
    holding the input as it was and each output with its pieces written. -/
noncomputable def kernelRun0 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) :
    Σ' (L1 : List (View.Piece (Elt F) S8x256x128 .i32)), Σ' (L2 : List (View.Piece (Elt F) S8x256x128 .f32)), Σ' (L3 : List (View.Piece (Elt F) S8x256x128 .f32)), Σ' (L4 : List (View.Piece (Elt F) S8x256x128 .f32)), { L5 : List (View.Piece (Elt F) S8x256x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__mpm_kernel i arg1 harg1 arg2 harg2 arg3 harg3 arg4 harg4 arg5 harg5 arg6 harg6) K } := by
  refine ⟨?_, ?_, ?_, ?_, ?_, fun E K => ?run⟩
  case run =>
    simp only [cc0__mpm_kernel_eq_skeleton]; unfold cc0__mpm_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Hand

end
-- ==== Proof.KernelIdealFrame.lean ====
/-
  The frame of the program from the body's run: each output buffer's eight slab stores tile it, so what the buffer
  holds after the body is a function of the input block alone; with the arrays as the region finds them this is the
  proof data of the pipeline; the body meets its obligation at every grid point; and @main — host prefix, region,
  host lines after it — runs to the end with every window's array at what the pipeline wrote back, every other
  buffer as the host lines leave it, and the three argument arrays unchanged.
-/
import proofs.«152410_j40132174414020_2_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Output 1's pieces tile its buffer (eight slabs of [1, 256, 128] in [8, 256, 128]), so they cover it. -/
theorem cover0_1 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).1, y ∈ pc.1.set :=
  View.cover_of_tiledL (kernelRun0 c i arg1 harg1 arg2 harg2 arg3 harg3 arg4 harg4 arg5 harg5 arg6 harg6 x0).1 S1x256x128.size (by sl_kernel_rfl) y

/-- What the body leaves in output 1's staging buffer: its pieces read back. -/
def out0_1 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .i32 :=
  VO0_1.read (Elt F) (VO0_1.writes (Elt F) VO0_1.junk (kernelRun0 c i arg1 harg1 arg2 harg2 arg3 harg3 arg4 harg4 arg5 harg5 arg6 harg6 x0).1)

/-- Output 2's pieces tile its buffer (eight slabs of [1, 256, 128] in [8, 256, 128]), so they cover it. -/
theorem cover0_2 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.1, y ∈ pc.1.set :=
  View.cover_of_tiledL (kernelRun0 c i arg1 harg1 arg2 harg2 arg3 harg3 arg4 harg4 arg5 harg5 arg6 harg6 x0).2.1 S1x256x128.size (by sl_kernel_rfl) y

/-- What the body leaves in output 2's staging buffer: its pieces read back. -/
def out0_2 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_2.read (Elt F) (VO0_2.writes (Elt F) VO0_2.junk (kernelRun0 c i arg1 harg1 arg2 harg2 arg3 harg3 arg4 harg4 arg5 harg5 arg6 harg6 x0).2.1)

/-- Output 3's pieces tile its buffer (eight slabs of [1, 256, 128] in [8, 256, 128]), so they cover it. -/
theorem cover0_3 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.1, y ∈ pc.1.set :=
  View.cover_of_tiledL (kernelRun0 c i arg1 harg1 arg2 harg2 arg3 harg3 arg4 harg4 arg5 harg5 arg6 harg6 x0).2.2.1 S1x256x128.size (by sl_kernel_rfl) y

/-- What the body leaves in output 3's staging buffer: its pieces read back. -/
def out0_3 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_3.read (Elt F) (VO0_3.writes (Elt F) VO0_3.junk (kernelRun0 c i arg1 harg1 arg2 harg2 arg3 harg3 arg4 harg4 arg5 harg5 arg6 harg6 x0).2.2.1)

/-- Output 4's pieces tile its buffer (eight slabs of [1, 256, 128] in [8, 256, 128]), so they cover it. -/
theorem cover0_4 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.2.1, y ∈ pc.1.set :=
  View.cover_of_tiledL (kernelRun0 c i arg1 harg1 arg2 harg2 arg3 harg3 arg4 harg4 arg5 harg5 arg6 harg6 x0).2.2.2.1 S1x256x128.size (by sl_kernel_rfl) y

/-- What the body leaves in output 4's staging buffer: its pieces read back. -/
def out0_4 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_4.read (Elt F) (VO0_4.writes (Elt F) VO0_4.junk (kernelRun0 c i arg1 harg1 arg2 harg2 arg3 harg3 arg4 harg4 arg5 harg5 arg6 harg6 x0).2.2.2.1)

/-- Output 5's pieces tile its buffer (eight slabs of [1, 256, 128] in [8, 256, 128]), so they cover it. -/
theorem cover0_5 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) (y : S8x256x128.Idx) :
    ∃ pc ∈ (kernelRun0 c i arg1 harg1 arg2 harg2 arg3 harg3 arg4 harg4 arg5 harg5 arg6 harg6 x0).2.2.2.2.1, y ∈ pc.1.set :=
  View.cover_of_tiledL (kernelRun0 c i arg1 harg1 arg2 harg2 arg3 harg3 arg4 harg4 arg5 harg5 arg6 harg6 x0).2.2.2.2.1 S1x256x128.size (by sl_kernel_rfl) y

/-- What the body leaves in output 5's staging buffer: its pieces read back. -/
def out0_5 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole)
    (x0 : Vec F S7x256x128 .f32) : Vec F S8x256x128 .f32 :=
  VO0_5.read (Elt F) (VO0_5.writes (Elt F) VO0_5.junk (kernelRun0 c i arg1 harg1 arg2 harg2 arg3 harg3 arg4 harg4 arg5 harg5 arg6 harg6 x0).2.2.2.2.1)

/-! ## The pipeline's proof data -/

/-- The proof data of the pipeline on core `c`: the arrays as the region finds them; after the body at point `t`
    the input's buffer at its block and each output's at what the body leaves from that block; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨2, _⟩ => out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨3, _⟩ => out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨4, _⟩ => out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_4 (c : Dev nD) (t : Fin cfg0.N) : (dats m 0 c).after 4 t = out0_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the input's buffer holds its block, so the run applies; each output's buffer, covered by
    its pieces, then holds what the proof data says; the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold out0_1 out0_2 out0_3 out0_4 out0_5
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk m c 0 t)).2.2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, ⟨%e1, H1⟩, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _ _ _ _ _ _)
  isplitl [H2]
  · unfold owns; iexists _; isplitr
    swap; · iexact H2
    ipureintro; exact View.read_writes_of_cover _ _ _ _ _ (cover0_2 c _ _ _ _ _ _ _ _ _ _ _ _ _ _)
  isplitl [H3]
  · unfold owns; iexists _; isplitr
    swap; · iexact H3
    ipureintro; exact View.read_writes_of_cover _ _ _ _ _ (cover0_3 c _ _ _ _ _ _ _ _ _ _ _ _ _ _)
  isplitl [H4]
  · unfold owns; iexists _; isplitr
    swap; · iexact H4
    ipureintro; exact View.read_writes_of_cover _ _ _ _ _ (cover0_4 c _ _ _ _ _ _ _ _ _ _ _ _ _ _)
  unfold owns; iexists _; isplitr
  swap; · iexact H5
  ipureintro; exact View.read_writes_of_cover _ _ _ _ _ (cover0_5 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, with every window's array
    at what the pipeline wrote back and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.LibCornerMajor.lean ====
/-
  A sum laid out corner-major against the same sum laid out particle-major.

  Eight corners and P padded particles: position t = c·P + n of the corner-major layout carries the term g c n
  (c = t / P, n = t % P), position s = 8·n + c of the particle-major layout of the first N particles carries the same
  term (c = s % 8, n = s / 8). When the terms of the padding particles N ≤ n < P are all zero the two total sums agree:
  each is the double sum of g over the 8 corners and the first N particles. In any additive commutative monoid, so with
  no finiteness or cancellation asked: it holds for the extended reals as it stands.
-/
import Mathlib.Algebra.BigOperators.Fin
import Mathlib.Algebra.BigOperators.Intervals
import proofs.«152410_j40132174414020_2_alg».proof.Proof.LibGroupedSum

namespace Cert.Lib.CornerMajor

open Cert.LibGroupedSum

/-- The corner-major sum over 8·P positions is the double sum over the corners and the P padded particles. -/
theorem sum_cornerMajor {α : Type*} [AddCommMonoid α] {P : ℕ} (g : ℕ → ℕ → α) :
    ∑ t ∈ Finset.range (P * 8), g (t / P) (t % P) = ∑ c ∈ Finset.range 8, ∑ n ∈ Finset.range P, g c n := by
  rw [sum_range_mul_groups P (fun t => g (t / P) (t % P)) 8]
  refine Finset.sum_congr rfl fun c _ => ?_
  rw [← Fin.sum_univ_eq_sum_range (fun n => g c n) P]
  refine Finset.sum_congr rfl fun n _ => ?_
  have hP : 0 < P := Nat.lt_of_le_of_lt (Nat.zero_le _) n.isLt
  show g ((P * c + n.val) / P) ((P * c + n.val) % P) = g c n.val
  rw [Nat.mul_add_div hP, Nat.mul_add_mod, Nat.div_eq_of_lt n.isLt, Nat.mod_eq_of_lt n.isLt, Nat.add_zero]

/-- The particle-major sum over N·8 positions is the double sum over the first N particles and the corners. -/
theorem sum_particleMajor {α : Type*} [AddCommMonoid α] {N : ℕ} (g : ℕ → ℕ → α) :
    ∑ s ∈ Finset.range (8 * N), g (s % 8) (s / 8) = ∑ n ∈ Finset.range N, ∑ c ∈ Finset.range 8, g c n := by
  rw [sum_range_mul_groups 8 (fun s => g (s % 8) (s / 8)) N]
  refine Finset.sum_congr rfl fun n _ => ?_
  rw [← Fin.sum_univ_eq_sum_range (fun c => g c n) 8]
  refine Finset.sum_congr rfl fun c _ => ?_
  show g ((8 * n + c.val) % 8) ((8 * n + c.val) / 8) = g c.val n
  rw [Nat.mul_add_mod, Nat.mul_add_div (by decide : 0 < 8), Nat.div_eq_of_lt c.isLt, Nat.mod_eq_of_lt c.isLt,
    Nat.add_zero]

/-- Corner-major against particle-major: with the padding particles' terms zero, the sum of g over the 8·P corner-major
    positions is the sum of g over the 8·N particle-major positions. -/
theorem sum_cornerMajor_eq_particleMajor {α : Type*} [AddCommMonoid α] {N P T₁ T₂ : ℕ} (hNP : N ≤ P)
    (h₁ : T₁ = P * 8) (h₂ : T₂ = 8 * N) (g : ℕ → ℕ → α)
    (hpad : ∀ c n, c < 8 → N ≤ n → n < P → g c n = 0) :
    ∑ t : Fin T₁, g (t.val / P) (t.val % P) = ∑ s : Fin T₂, g (s.val % 8) (s.val / 8) := by
  subst h₁ h₂
  rw [Fin.sum_univ_eq_sum_range (fun t => g (t / P) (t % P)) (P * 8),
    Fin.sum_univ_eq_sum_range (fun s => g (s % 8) (s / 8)) (8 * N), sum_cornerMajor, sum_particleMajor,
    Finset.sum_comm (s := Finset.range N) (t := Finset.range 8)]
  refine Finset.sum_congr rfl fun c hc => ?_
  refine (Finset.sum_subset (Finset.range_subset_range.2 hNP) fun n hn hn' => ?_).symm
  exact hpad c n (Finset.mem_range.1 hc) (Nat.le_of_not_lt fun h => hn' (Finset.mem_range.2 h)) (Finset.mem_range.1 hn)

end Cert.Lib.CornerMajor
-- ==== Proof.Spec.lean ====
/-
  The particle-to-grid transfer, as one function of the three argument arrays.

  A particle at position p (three coordinates) sits, in cell units, at p · 64; the cell it lies in has corner
  ⌊p · 64⌋, and the eight corners of that cell are ⌊p · 64⌋ + o for o in {0,1}³. Corner c = 4·o₀ + 2·o₁ + o₂ has the
  integer coordinates g = trunc(⌊p · 64⌋ + o), the cell number g₂ + 128·g₀ + 16384·g₁ (32-bit arithmetic), and the
  weight ∏_d (1 − |p_d · 64 − (⌊p_d · 64⌋ + o_d)|), replaced by 0 when the cell number is outside [0, 2097152); the
  cell number is then clipped into that range. The particle adds weight · mass, and weight · mass · velocity per
  component, to the clipped cell. The result at (cell, k) is the sum of those contributions over all (particle,
  corner) pairs landing on the cell: k = 0 the mass, k = 1, 2, 3 the momentum components.

  Everything is over the extended reals, with the program's own scalar operations at the ideal instance, so that each
  side's arithmetic is this text read at an index. Particles are indexed by natural numbers, a particle past the
  1000000th having position, velocity and mass 0: such a particle contributes 0 to every cell (its mass is 0), which
  is what lets a zero-padded layout be summed as well.
-/
import Idealize.ShloMosaic.PureOps.Ideal
import Idealize.ShloMosaic.PureOps.Ideal.Laws
import Idealize.ShloMosaic.Lib.ValueIdx
import proofs.«152410_j40132174414020_2_alg».proof.Proof.LibCornerMajor

noncomputable section

namespace Cert.Mpm

open Idealize.ShloMosaic Idealize.ShloMosaic.ValueIdx

/-- An extended real, as the ideal instance reads an f32. -/
abbrev R := Ideal .f32

/-- The position in cell units: p · 64. -/
def rel (p : R) : R := FloatOps.mulf p (FloatOps.ofBits .f32 0x42800000#32)
/-- A corner's coordinate: ⌊p · 64⌋ + o. -/
def gpos (p o : R) : R := FloatOps.addf (FloatOps.floor (rel p)) o
/-- The signed distance to the corner, in cell units. -/
def dst (p o : R) : R := FloatOps.subf (rel p) (gpos p o)
/-- The linear weight along one axis: 1 − |distance|. -/
def wgt (p o : R) : R := FloatOps.subf (FloatOps.ofBits .f32 0x3F800000#32) (FloatOps.absf (dst p o))
/-- The corner's integer coordinate. -/
def gint (p o : R) : BitVec 32 := FloatOps.fptosi 32 (gpos p o)
/-- The corner's cell number: g₂ + 128·g₀ + 16384·g₁. -/
def hsh (p0 p1 p2 o0 o1 o2 : R) : BitVec 32 :=
  IntOp.addi (IntOp.addi (gint p2 o2) (IntOp.muli (gint p0 o0) 128#32)) (IntOp.muli (gint p1 o1) 16384#32)
/-- Whether a cell number is inside the grid. -/
def inGrid (h : BitVec 32) : BitVec 1 := IntOp.andi (IntOp.cmpi .sge h 0#32) (IntOp.cmpi .slt h 2097152#32)
/-- The corner's weight: the product of the three linear weights, 0 outside the grid. -/
def shp (p0 p1 p2 o0 o1 o2 : R) : R :=
  Scalar.select (inGrid (hsh p0 p1 p2 o0 o1 o2)) (FloatOps.mulf (FloatOps.mulf (wgt p0 o0) (wgt p1 o1)) (wgt p2 o2))
    (FloatOps.ofBits .f32 0x00000000#32)
/-- The cell the corner's contribution lands on: the cell number clipped into the grid. -/
def cell (p0 p1 p2 o0 o1 o2 : R) : BitVec 32 := IntOp.minsi 2097151#32 (IntOp.maxsi 0#32 (hsh p0 p1 p2 o0 o1 o2))
/-- The mass the corner receives. -/
def smass (p0 p1 p2 o0 o1 o2 mass : R) : R := FloatOps.mulf (shp p0 p1 p2 o0 o1 o2) mass
/-- One momentum component the corner receives. -/
def mom (p0 p1 p2 o0 o1 o2 mass v : R) : R := FloatOps.mulf (smass p0 p1 p2 o0 o1 o2 mass) v

/-- Corner c's offset along axis d, as the float literal 0.0 or 1.0: the bit of c of weight 4, 2, 1 for d = 0, 1, 2. -/
def offs (c : ℕ) (d : Fin 3) : R :=
  FloatOps.ofBits .f32 (if (c / (![4, 2, 1] d : ℕ)) % 2 = 1 then 0x3F800000#32 else 0x00000000#32)

/-- Component d of particle n of a [1000000, 3] array; 0 past the last particle. -/
def chan3 (a : FVec Ideal ⟨2, ![1000000, 3]⟩ .f32) (d : Fin 3) (n : ℕ) : R :=
  if h : n < 1000000 then a (ix2 ⟨n, h⟩ d) else 0
/-- Entry n of a [1000000] array; 0 past the last particle. -/
def chan1 (a : FVec Ideal ⟨1, ![1000000]⟩ .f32) (n : ℕ) : R :=
  if h : n < 1000000 then a (ix1 ⟨n, h⟩) else 0

variable (a0 a1 : FVec Ideal ⟨2, ![1000000, 3]⟩ .f32) (a2 : FVec Ideal ⟨1, ![1000000]⟩ .f32)

/-- The cell that corner c of particle n lands on. -/
def rowCell (c n : ℕ) : BitVec 32 :=
  cell (chan3 a0 0 n) (chan3 a0 1 n) (chan3 a0 2 n) (offs c 0) (offs c 1) (offs c 2)
/-- The mass corner c of particle n receives. -/
def rowMass (c n : ℕ) : R :=
  smass (chan3 a0 0 n) (chan3 a0 1 n) (chan3 a0 2 n) (offs c 0) (offs c 1) (offs c 2) (chan1 a2 n)
/-- The four quantities corner c of particle n receives: the mass, then the three momentum components. -/
def rowPay (c n : ℕ) (k : Fin 4) : R :=
  match k with
  | 0 => rowMass a0 a2 c n
  | 1 => FloatOps.mulf (rowMass a0 a2 c n) (chan3 a1 0 n)
  | 2 => FloatOps.mulf (rowMass a0 a2 c n) (chan3 a1 1 n)
  | 3 => FloatOps.mulf (rowMass a0 a2 c n) (chan3 a1 2 n)
/-- What corner c of particle n adds to component k of cell m: its quantity if it lands there, else 0. -/
def term (m : Fin 2097152) (k : Fin 4) (c n : ℕ) : R :=
  if (rowCell a0 c n).toInt = (m.val : Int) then rowPay a0 a1 a2 c n k else 0

/-- Component k of cell m: the sum over the 8000000 (particle, corner) pairs, pair s = 8 · particle + corner. -/
def Gat (m : Fin 2097152) (k : Fin 4) : R :=
  ∑ s : Fin 8000000, term a0 a1 a2 m k (s.val % 8) (s.val / 8)

/-- The whole result array [2097152, 4]. -/
def G : FVec Ideal ⟨2, ![2097152, 4]⟩ .f32 := fun i => Gat a0 a1 a2 ⟨(i 0).val, (i 0).isLt⟩ ⟨(i 1).val, (i 1).isLt⟩

theorem G_ix2 (m : Fin 2097152) (k : Fin 4) : G a0 a1 a2 (ix2 m k) = Gat a0 a1 a2 m k := rfl

/-- A particle past the last one has mass 0, so every corner of it receives mass 0 · weight = 0, and momentum 0. -/
theorem rowPay_pad (c n : ℕ) (hn : 1000000 ≤ n) (k : Fin 4) : rowPay a0 a1 a2 c n k = 0 := by
  have hm : rowMass a0 a2 c n = 0 := by
    unfold rowMass smass chan1
    rw [dif_neg (by omega)]
    exact mul_zero _
  match k with
  | 0 => exact hm
  | 1 => show FloatOps.mulf (rowMass a0 a2 c n) _ = 0; rw [hm]; exact zero_mul _
  | 2 => show FloatOps.mulf (rowMass a0 a2 c n) _ = 0; rw [hm]; exact zero_mul _
  | 3 => show FloatOps.mulf (rowMass a0 a2 c n) _ = 0; rw [hm]; exact zero_mul _

theorem term_pad (m : Fin 2097152) (k : Fin 4) (c n : ℕ) (hn : 1000000 ≤ n) : term a0 a1 a2 m k c n = 0 := by
  unfold term
  rw [rowPay_pad a0 a1 a2 c n hn k]
  exact ite_self _

/-- The same sum over a zero-padded, corner-major layout: 8 slabs of 1015808 particles, pair t = 1015808 · corner +
    particle. The padding adds zeros, and the order of a sum does not matter. -/
theorem Gat_eq_cornerMajor (m : Fin 2097152) (k : Fin 4) :
    ∑ t : Fin 8126464, term a0 a1 a2 m k (t.val / 1015808) (t.val % 1015808) = Gat a0 a1 a2 m k :=
  Cert.Lib.CornerMajor.sum_cornerMajor_eq_particleMajor (N := 1000000) (P := 1015808) (by norm_num) (by norm_num) (by norm_num)
    (fun c n => term a0 a1 a2 m k c n) (fun c n _ hn _ => term_pad a0 a1 a2 m k c n hn)

end Cert.Mpm

end
-- ==== Proof.KernelIdealValue.lean ====
/-
  What the kernel body leaves in each output buffer, as a function of the buffer's index and the input block.

  The input block is [7, 256, 128]: slab j is channel j (positions 0–2, velocities 3–5, mass 6) of 32768 particles laid
  out as 256 rows of 128 lanes. For corner k in 0..7 the body computes, lane by lane, the corner's clipped cell number,
  weight · mass, and weight · mass · velocity per component, and stores each as slab k of the matching [8, 256, 128]
  output buffer. So output buffer w at (k, r, l) is the specification's scalar function for corner k of the seven
  channel values at (r, l): every operation of the body is pointwise, and the only re-layout is the unit axis dropped
  after a load and added before a store.
-/
import proofs.«152410_j40132174414020_2_alg».proof.Proof.KernelIdealFrame
import proofs.«152410_j40132174414020_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- A slab rectangle of a [n, 256, 128] buffer placed at slab k: its index (u, r, l) is the buffer's (k, r, l). -/
theorem slab_idx {n : Nat} (k : Nat) (hk : k < n)
    (inb : ∀ a, (![k, 0, 0] : Fin 3 → Nat) a + (![1, 256, 128] : Fin 3 → Nat) a ≤ (⟨3, ![n, 256, 128]⟩ : Shape).size a)
    (u : Fin 1) (r : Fin 256) (l : Fin 128) :
    (Rect.unit (s := ⟨3, ![n, 256, 128]⟩) ![k, 0, 0] ![1, 256, 128] inb).toLoadRect.idx (ix3 u r l) = ix3 ⟨k, hk⟩ r l := by
  funext a; apply Fin.ext
  match a with
  | ⟨0, _⟩ => show k + 1 * u.val = k; omega
  | ⟨1, _⟩ => show 0 + 1 * r.val = r.val; omega
  | ⟨2, _⟩ => show 0 + 1 * l.val = l.val; omega

/-- The load of slab 0 of the input block, with its unit axis dropped, read at (r, l). -/
theorem load_slab_0 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![0, 0, 0] ![1, 256, 128] inb_S7x256x128_S1x256x128_0_0_0).toLoadRect (harg1.unread x0)) shapeCasts_S1x256x128_S256x128 (ix2 r l)
      = x0 (ix3 (0 : Fin 7) r l) := by
  rw [shapeCast_1ab_ab_apply, View.readAt_eq_ld]
  show arg1.view.read (Elt Ideal) (harg1.unread x0) _ = _
  rw [harg1.read_unread x0]
  exact congrArg x0 (slab_idx 0 (by norm_num) _ 0 r l)

/-- The load of slab 1 of the input block, with its unit axis dropped, read at (r, l). -/
theorem load_slab_1 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![1, 0, 0] ![1, 256, 128] inb_S7x256x128_S1x256x128_1_0_0).toLoadRect (harg1.unread x0)) shapeCasts_S1x256x128_S256x128 (ix2 r l)
      = x0 (ix3 (1 : Fin 7) r l) := by
  rw [shapeCast_1ab_ab_apply, View.readAt_eq_ld]
  show arg1.view.read (Elt Ideal) (harg1.unread x0) _ = _
  rw [harg1.read_unread x0]
  exact congrArg x0 (slab_idx 1 (by norm_num) _ 0 r l)

/-- The load of slab 2 of the input block, with its unit axis dropped, read at (r, l). -/
theorem load_slab_2 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![2, 0, 0] ![1, 256, 128] inb_S7x256x128_S1x256x128_2_0_0).toLoadRect (harg1.unread x0)) shapeCasts_S1x256x128_S256x128 (ix2 r l)
      = x0 (ix3 (2 : Fin 7) r l) := by
  rw [shapeCast_1ab_ab_apply, View.readAt_eq_ld]
  show arg1.view.read (Elt Ideal) (harg1.unread x0) _ = _
  rw [harg1.read_unread x0]
  exact congrArg x0 (slab_idx 2 (by norm_num) _ 0 r l)

/-- The load of slab 3 of the input block, with its unit axis dropped, read at (r, l). -/
theorem load_slab_3 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![3, 0, 0] ![1, 256, 128] inb_S7x256x128_S1x256x128_3_0_0).toLoadRect (harg1.unread x0)) shapeCasts_S1x256x128_S256x128 (ix2 r l)
      = x0 (ix3 (3 : Fin 7) r l) := by
  rw [shapeCast_1ab_ab_apply, View.readAt_eq_ld]
  show arg1.view.read (Elt Ideal) (harg1.unread x0) _ = _
  rw [harg1.read_unread x0]
  exact congrArg x0 (slab_idx 3 (by norm_num) _ 0 r l)

/-- The load of slab 4 of the input block, with its unit axis dropped, read at (r, l). -/
theorem load_slab_4 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![4, 0, 0] ![1, 256, 128] inb_S7x256x128_S1x256x128_4_0_0).toLoadRect (harg1.unread x0)) shapeCasts_S1x256x128_S256x128 (ix2 r l)
      = x0 (ix3 (4 : Fin 7) r l) := by
  rw [shapeCast_1ab_ab_apply, View.readAt_eq_ld]
  show arg1.view.read (Elt Ideal) (harg1.unread x0) _ = _
  rw [harg1.read_unread x0]
  exact congrArg x0 (slab_idx 4 (by norm_num) _ 0 r l)

/-- The load of slab 5 of the input block, with its unit axis dropped, read at (r, l). -/
theorem load_slab_5 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![5, 0, 0] ![1, 256, 128] inb_S7x256x128_S1x256x128_5_0_0).toLoadRect (harg1.unread x0)) shapeCasts_S1x256x128_S256x128 (ix2 r l)
      = x0 (ix3 (5 : Fin 7) r l) := by
  rw [shapeCast_1ab_ab_apply, View.readAt_eq_ld]
  show arg1.view.read (Elt Ideal) (harg1.unread x0) _ = _
  rw [harg1.read_unread x0]
  exact congrArg x0 (slab_idx 5 (by norm_num) _ 0 r l)

/-- The load of slab 6 of the input block, with its unit axis dropped, read at (r, l). -/
theorem load_slab_6 (arg1 : Memref sig .tc .vmem S7x256x128 .f32) (harg1 : arg1.IsWhole) (x0 : Vec Ideal S7x256x128 .f32) (r : Fin 256) (l : Fin 128) :
    shapeCast S256x128 (View.readAt (Elt Ideal) arg1.view (Rect.unit (s := S7x256x128) ![6, 0, 0] ![1, 256, 128] inb_S7x256x128_S1x256x128_6_0_0).toLoadRect (harg1.unread x0)) shapeCasts_S1x256x128_S256x128 (ix2 r l)
      = x0 (ix3 (6 : Fin 7) r l) := by
  rw [shapeCast_1ab_ab_apply, View.readAt_eq_ld]
  show arg1.view.read (Elt Ideal) (harg1.unread x0) _ = _
  rw [harg1.read_unread x0]
  exact congrArg x0 (slab_idx 6 (by norm_num) _ 0 r l)

/-- Row and lane of an index of an [8, 256, 128] buffer, as literal-size coordinates. -/
abbrev rowOf (y : S8x256x128.Idx) : Fin 256 := ⟨(y 1).val, (y 1).isLt⟩
abbrev laneOf (y : S8x256x128.Idx) : Fin 128 := ⟨(y 2).val, (y 2).isLt⟩

theorem slab_emb (k : Nat)
    (inb : ∀ a, (![k, 0, 0] : Fin 3 → Nat) a + (![1, 256, 128] : Fin 3 → Nat) a ≤ S8x256x128.size a)
    (u : Fin 1) (r : Fin 256) (l : Fin 128) :
    (((Rect.unit (s := S8x256x128) ![k, 0, 0] ![1, 256, 128] inb).emb (ix3 u r l)) 0).val = k
    ∧ rowOf ((Rect.unit (s := S8x256x128) ![k, 0, 0] ![1, 256, 128] inb).emb (ix3 u r l)) = r
    ∧ laneOf ((Rect.unit (s := S8x256x128) ![k, 0, 0] ![1, 256, 128] inb).emb (ix3 u r l)) = l := by
  refine ⟨?_, Fin.ext ?_, Fin.ext ?_⟩
  · show k + 1 * u.val = k; omega
  · show 0 + 1 * r.val = r.val; omega
  · show 0 + 1 * l.val = l.val; omega

/-- The clipped cell number as a function of the output buffer's index: slab = corner, row r, lane l. -/
def G1 (x0 : Vec Ideal S7x256x128 .f32) : S8x256x128.Idx → BitVec 32 := fun y =>
  Cert.Mpm.cell (x0 (ix3 (0 : Fin 7) (rowOf y) (laneOf y))) (x0 (ix3 (1 : Fin 7) (rowOf y) (laneOf y))) (x0 (ix3 (2 : Fin 7) (rowOf y) (laneOf y)))
    (Cert.Mpm.offs (y 0).val 0) (Cert.Mpm.offs (y 0).val 1) (Cert.Mpm.offs (y 0).val 2)
/-- The mass a corner receives, likewise. -/
def G2 (x0 : Vec Ideal S7x256x128 .f32) : S8x256x128.Idx → Cert.Mpm.R := fun y =>
  Cert.Mpm.smass (x0 (ix3 (0 : Fin 7) (rowOf y) (laneOf y))) (x0 (ix3 (1 : Fin 7) (rowOf y) (laneOf y))) (x0 (ix3 (2 : Fin 7) (rowOf y) (laneOf y)))
    (Cert.Mpm.offs (y 0).val 0) (Cert.Mpm.offs (y 0).val 1) (Cert.Mpm.offs (y 0).val 2) (x0 (ix3 (6 : Fin 7) (rowOf y) (laneOf y)))
/-- Momentum component 0 a corner receives, likewise. -/
def G3 (x0 : Vec Ideal S7x256x128 .f32) : S8x256x128.Idx → Cert.Mpm.R := fun y =>
  (FloatOps.mulf (F := Ideal) (φ := .f32) (G2 x0 y) (x0 (ix3 (3 : Fin 7) (rowOf y) (laneOf y))) : Cert.Mpm.R)
/-- Momentum component 1 a corner receives, likewise. -/
def G4 (x0 : Vec Ideal S7x256x128 .f32) : S8x256x128.Idx → Cert.Mpm.R := fun y =>
  (FloatOps.mulf (F := Ideal) (φ := .f32) (G2 x0 y) (x0 (ix3 (4 : Fin 7) (rowOf y) (laneOf y))) : Cert.Mpm.R)
/-- Momentum component 2 a corner receives, likewise. -/
def G5 (x0 : Vec Ideal S7x256x128 .f32) : S8x256x128.Idx → Cert.Mpm.R := fun y =>
  (FloatOps.mulf (F := Ideal) (φ := .f32) (G2 x0 y) (x0 (ix3 (5 : Fin 7) (rowOf y) (laneOf y))) : Cert.Mpm.R)

theorem G1_slab (x0 : Vec Ideal S7x256x128 .f32) (k : Nat) (inb) (u : Fin 1) (r : Fin 256) (l : Fin 128) :
    G1 x0 ((Rect.unit (s := S8x256x128) ![k, 0, 0] ![1, 256, 128] inb).emb (ix3 u r l)) =
      Cert.Mpm.cell (x0 (ix3 (0 : Fin 7) r l)) (x0 (ix3 (1 : Fin 7) r l)) (x0 (ix3 (2 : Fin 7) r l)) (Cert.Mpm.offs k 0) (Cert.Mpm.offs k 1) (Cert.Mpm.offs k 2) := by
  obtain ⟨e0, e1, e2⟩ := slab_emb k inb u r l
  unfold G1; rw [e0, e1, e2]
theorem G2_slab (x0 : Vec Ideal S7x256x128 .f32) (k : Nat) (inb) (u : Fin 1) (r : Fin 256) (l : Fin 128) :
    G2 x0 ((Rect.unit (s := S8x256x128) ![k, 0, 0] ![1, 256, 128] inb).emb (ix3 u r l)) =
      Cert.Mpm.smass (x0 (ix3 (0 : Fin 7) r l)) (x0 (ix3 (1 : Fin 7) r l)) (x0 (ix3 (2 : Fin 7) r l)) (Cert.Mpm.offs k 0) (Cert.Mpm.offs k 1) (Cert.Mpm.offs k 2) (x0 (ix3 (6 : Fin 7) r l)) := by
  obtain ⟨e0, e1, e2⟩ := slab_emb k inb u r l
  unfold G2; rw [e0, e1, e2]
theorem G3_slab (x0 : Vec Ideal S7x256x128 .f32) (k : Nat) (inb) (u : Fin 1) (r : Fin 256) (l : Fin 128) :
    G3 x0 ((Rect.unit (s := S8x256x128) ![k, 0, 0] ![1, 256, 128] inb).emb (ix3 u r l)) =
      FloatOps.mulf (F := Ideal) (φ := .f32) (Cert.Mpm.smass (x0 (ix3 (0 : Fin 7) r l)) (x0 (ix3 (1 : Fin 7) r l)) (x0 (ix3 (2 : Fin 7) r l)) (Cert.Mpm.offs k 0) (Cert.Mpm.offs k 1) (Cert.Mpm.offs k 2) (x0 (ix3 (6 : Fin 7) r l))) (x0 (ix3 (3 : Fin 7) r l)) := by
  obtain ⟨e0, e1, e2⟩ := slab_emb k inb u r l
  unfold G3; rw [G2_slab x0 k inb u r l, e1, e2]
theorem G4_slab (x0 : Vec Ideal S7x256x128 .f32) (k : Nat) (inb) (u : Fin 1) (r : Fin 256) (l : Fin 128) :
    G4 x0 ((Rect.unit (s := S8x256x128) ![k, 0, 0] ![1, 256, 128] inb).emb (ix3 u r l)) =
      FloatOps.mulf (F := Ideal) (φ := .f32) (Cert.Mpm.smass (x0 (ix3 (0 : Fin 7) r l)) (x0 (ix3 (1 : Fin 7) r l)) (x0 (ix3 (2 : Fin 7) r l)) (Cert.Mpm.offs k 0) (Cert.Mpm.offs k 1) (Cert.Mpm.offs k 2) (x0 (ix3 (6 : Fin 7) r l))) (x0 (ix3 (4 : Fin 7) r l)) := by
  obtain ⟨e0, e1, e2⟩ := slab_emb k inb u r l
  unfold G4; rw [G2_slab x0 k inb u r l, e1, e2]
theorem G5_slab (x0 : Vec Ideal S7x256x128 .f32) (k : Nat) (inb) (u : Fin 1) (r : Fin 256) (l : Fin 128) :
    G5 x0 ((Rect.unit (s := S8x256x128) ![k, 0, 0] ![1, 256, 128] inb).emb (ix3 u r l)) =
      FloatOps.mulf (F := Ideal) (φ := .f32) (Cert.Mpm.smass (x0 (ix3 (0 : Fin 7) r l)) (x0 (ix3 (1 : Fin 7) r l)) (x0 (ix3 (2 : Fin 7) r l)) (Cert.Mpm.offs k 0) (Cert.Mpm.offs k 1) (Cert.Mpm.offs k 2) (x0 (ix3 (6 : Fin 7) r l))) (x0 (ix3 (5 : Fin 7) r l)) := by
  obtain ⟨e0, e1, e2⟩ := slab_emb k inb u r l
  unfold G5; rw [G2_slab x0 k inb u r l, e1, e2]

/-- Each corner's offsets along the three axes, as the literals 0.0 and 1.0. -/
theorem offs_0_0 : Cert.Mpm.offs 0 0 = FloatOps.ofBits .f32 0x00000000#32 := rfl
theorem offs_0_1 : Cert.Mpm.offs 0 1 = FloatOps.ofBits .f32 0x00000000#32 := rfl
theorem offs_0_2 : Cert.Mpm.offs 0 2 = FloatOps.ofBits .f32 0x00000000#32 := rfl
theorem offs_1_0 : Cert.Mpm.offs 1 0 = FloatOps.ofBits .f32 0x00000000#32 := rfl
theorem offs_1_1 : Cert.Mpm.offs 1 1 = FloatOps.ofBits .f32 0x00000000#32 := rfl
theorem offs_1_2 : Cert.Mpm.offs 1 2 = FloatOps.ofBits .f32 0x3F800000#32 := rfl
theorem offs_2_0 : Cert.Mpm.offs 2 0 = FloatOps.ofBits .f32 0x00000000#32 := rfl
theorem offs_2_1 : Cert.Mpm.offs 2 1 = FloatOps.ofBits .f32 0x3F800000#32 := rfl
theorem offs_2_2 : Cert.Mpm.offs 2 2 = FloatOps.ofBits .f32 0x00000000#32 := rfl
theorem offs_3_0 : Cert.Mpm.offs 3 0 = FloatOps.ofBits .f32 0x00000000#32 := rfl
theorem offs_3_1 : Cert.Mpm.offs 3 1 = FloatOps.ofBits .f32 0x3F800000#32 := rfl
theorem offs_3_2 : Cert.Mpm.offs 3 2 = FloatOps.ofBits .f32 0x3F800000#32 := rfl
theorem offs_4_0 : Cert.Mpm.offs 4 0 = FloatOps.ofBits .f32 0x3F800000#32 := rfl
theorem offs_4_1 : Cert.Mpm.offs 4 1 = FloatOps.ofBits .f32 0x00000000#32 := rfl
theorem offs_4_2 : Cert.Mpm.offs 4 2 = FloatOps.ofBits .f32 0x00000000#32 := rfl
theorem offs_5_0 : Cert.Mpm.offs 5 0 = FloatOps.ofBits .f32 0x3F800000#32 := rfl
theorem offs_5_1 : Cert.Mpm.offs 5 1 = FloatOps.ofBits .f32 0x00000000#32 := rfl
theorem offs_5_2 : Cert.Mpm.offs 5 2 = FloatOps.ofBits .f32 0x3F800000#32 := rfl
theorem offs_6_0 : Cert.Mpm.offs 6 0 = FloatOps.ofBits .f32 0x3F800000#32 := rfl
theorem offs_6_1 : Cert.Mpm.offs 6 1 = FloatOps.ofBits .f32 0x3F800000#32 := rfl
theorem offs_6_2 : Cert.Mpm.offs 6 2 = FloatOps.ofBits .f32 0x00000000#32 := rfl
theorem offs_7_0 : Cert.Mpm.offs 7 0 = FloatOps.ofBits .f32 0x3F800000#32 := rfl
theorem offs_7_1 : Cert.Mpm.offs 7 1 = FloatOps.ofBits .f32 0x3F800000#32 := rfl
theorem offs_7_2 : Cert.Mpm.offs 7 2 = FloatOps.ofBits .f32 0x3F800000#32 := rfl

set_option maxHeartbeats 1600000 in
/-- Every piece of output 1 is the block of the index function its slab rectangle names: the body's arithmetic for
    that corner, read at (row, lane), is the specification's scalar function of the seven channel values there. -/
theorem pieces1 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    ∀ p ∈ (kernelRun0 (F := Ideal) c i arg1 harg1 arg2 harg2 arg3 harg3 arg4 harg4 arg5 harg5 arg6 harg6 x0).1, ∀ x : p.1.shape.Idx, p.2 x = G1 x0 (p.1.emb x) := by
  unfold kernelRun0
  dsimp only
  intro p hp
  simp only [List.mem_cons, List.mem_nil_iff, or_false] at hp
  rcases hp with rfl | rfl | rfl | rfl | rfl | rfl | rfl | rfl
  all_goals (
    intro x
    obtain ⟨u, r, l, rfl⟩ : ∃ (u : Fin 1) (r : Fin 256) (l : Fin 128), x = ix3 u r l := ⟨x 0, x 1, x 2, eq_ix3 x⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    rw [G1_slab, shapeCast_ab_1ab_apply]
    simp only [mulf, addf, subf, floor, absf, fptosi, muli, addi, cmpi, andi, select, maxsi, minsi, broadcast]
    simp only [Cert.Mpm.cell, Cert.Mpm.hsh, Cert.Mpm.gint, Cert.Mpm.gpos, Cert.Mpm.rel, Cert.Mpm.smass, Cert.Mpm.shp, Cert.Mpm.inGrid, Cert.Mpm.wgt, Cert.Mpm.dst, offs_0_0, offs_0_1, offs_0_2, offs_1_0, offs_1_1, offs_1_2, offs_2_0, offs_2_1, offs_2_2, offs_3_0, offs_3_1, offs_3_2, offs_4_0, offs_4_1, offs_4_2, offs_5_0, offs_5_1, offs_5_2, offs_6_0, offs_6_1, offs_6_2, offs_7_0, offs_7_1, offs_7_2]
    rw [load_slab_0, load_slab_1, load_slab_2])

/-- So output 1's staging buffer after the body is that function of the input block. -/
theorem out0_1_eq (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    out0_1 (F := Ideal) c i arg1 harg1 arg2 harg2 arg3 harg3 arg4 harg4 arg5 harg5 arg6 harg6 x0 = G1 x0 := by
  unfold out0_1
  rw [View.read_writes_eq_canon _ _ _ (cover0_1 c i arg1 harg1 arg2 harg2 arg3 harg3 arg4 harg4 arg5 harg5 arg6 harg6 x0)]
  funext y
  exact View.canon_apply_of_pieces (G1 x0) _ (pieces1 c i arg1 harg1 arg2 harg2 arg3 harg3 arg4 harg4 arg5 harg5 arg6 harg6 x0) y (cover0_1 c i arg1 harg1 arg2 harg2 arg3 harg3 arg4 harg4 arg5 harg5 arg6 harg6 x0 y)

set_option maxHeartbeats 1600000 in
/-- Every piece of output 2 is the block of the index function its slab rectangle names: the body's arithmetic for
    that corner, read at (row, lane), is the specification's scalar function of the seven channel values there. -/
theorem pieces2 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    ∀ p ∈ (kernelRun0 (F := Ideal) c i arg1 harg1 arg2 harg2 arg3 harg3 arg4 harg4 arg5 harg5 arg6 harg6 x0).2.1, ∀ x : p.1.shape.Idx, p.2 x = G2 x0 (p.1.emb x) := by
  unfold kernelRun0
  dsimp only
  intro p hp
  simp only [List.mem_cons, List.mem_nil_iff, or_false] at hp
  rcases hp with rfl | rfl | rfl | rfl | rfl | rfl | rfl | rfl
  all_goals (
    intro x
    obtain ⟨u, r, l, rfl⟩ : ∃ (u : Fin 1) (r : Fin 256) (l : Fin 128), x = ix3 u r l := ⟨x 0, x 1, x 2, eq_ix3 x⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    rw [G2_slab, shapeCast_ab_1ab_apply]
    simp only [mulf, addf, subf, floor, absf, fptosi, muli, addi, cmpi, andi, select, maxsi, minsi, broadcast]
    simp only [Cert.Mpm.cell, Cert.Mpm.hsh, Cert.Mpm.gint, Cert.Mpm.gpos, Cert.Mpm.rel, Cert.Mpm.smass, Cert.Mpm.shp, Cert.Mpm.inGrid, Cert.Mpm.wgt, Cert.Mpm.dst, offs_0_0, offs_0_1, offs_0_2, offs_1_0, offs_1_1, offs_1_2, offs_2_0, offs_2_1, offs_2_2, offs_3_0, offs_3_1, offs_3_2, offs_4_0, offs_4_1, offs_4_2, offs_5_0, offs_5_1, offs_5_2, offs_6_0, offs_6_1, offs_6_2, offs_7_0, offs_7_1, offs_7_2]
    rw [load_slab_0, load_slab_1, load_slab_2, load_slab_6])

/-- So output 2's staging buffer after the body is that function of the input block. -/
theorem out0_2_eq (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    out0_2 (F := Ideal) c i arg1 harg1 arg2 harg2 arg3 harg3 arg4 harg4 arg5 harg5 arg6 harg6 x0 = G2 x0 := by
  unfold out0_2
  rw [View.read_writes_eq_canon _ _ _ (cover0_2 c i arg1 harg1 arg2 harg2 arg3 harg3 arg4 harg4 arg5 harg5 arg6 harg6 x0)]
  funext y
  exact View.canon_apply_of_pieces (G2 x0) _ (pieces2 c i arg1 harg1 arg2 harg2 arg3 harg3 arg4 harg4 arg5 harg5 arg6 harg6 x0) y (cover0_2 c i arg1 harg1 arg2 harg2 arg3 harg3 arg4 harg4 arg5 harg5 arg6 harg6 x0 y)

set_option maxHeartbeats 1600000 in
/-- Every piece of output 3 is the block of the index function its slab rectangle names: the body's arithmetic for
    that corner, read at (row, lane), is the specification's scalar function of the seven channel values there. -/
theorem pieces3 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    ∀ p ∈ (kernelRun0 (F := Ideal) c i arg1 harg1 arg2 harg2 arg3 harg3 arg4 harg4 arg5 harg5 arg6 harg6 x0).2.2.1, ∀ x : p.1.shape.Idx, p.2 x = G3 x0 (p.1.emb x) := by
  unfold kernelRun0
  dsimp only
  intro p hp
  simp only [List.mem_cons, List.mem_nil_iff, or_false] at hp
  rcases hp with rfl | rfl | rfl | rfl | rfl | rfl | rfl | rfl
  all_goals (
    intro x
    obtain ⟨u, r, l, rfl⟩ : ∃ (u : Fin 1) (r : Fin 256) (l : Fin 128), x = ix3 u r l := ⟨x 0, x 1, x 2, eq_ix3 x⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    rw [G3_slab, shapeCast_ab_1ab_apply]
    simp only [mulf, addf, subf, floor, absf, fptosi, muli, addi, cmpi, andi, select, maxsi, minsi, broadcast]
    simp only [Cert.Mpm.cell, Cert.Mpm.hsh, Cert.Mpm.gint, Cert.Mpm.gpos, Cert.Mpm.rel, Cert.Mpm.smass, Cert.Mpm.shp, Cert.Mpm.inGrid, Cert.Mpm.wgt, Cert.Mpm.dst, offs_0_0, offs_0_1, offs_0_2, offs_1_0, offs_1_1, offs_1_2, offs_2_0, offs_2_1, offs_2_2, offs_3_0, offs_3_1, offs_3_2, offs_4_0, offs_4_1, offs_4_2, offs_5_0, offs_5_1, offs_5_2, offs_6_0, offs_6_1, offs_6_2, offs_7_0, offs_7_1, offs_7_2]
    rw [load_slab_0, load_slab_1, load_slab_2, load_slab_6, load_slab_3])

/-- So output 3's staging buffer after the body is that function of the input block. -/
theorem out0_3_eq (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    out0_3 (F := Ideal) c i arg1 harg1 arg2 harg2 arg3 harg3 arg4 harg4 arg5 harg5 arg6 harg6 x0 = G3 x0 := by
  unfold out0_3
  rw [View.read_writes_eq_canon _ _ _ (cover0_3 c i arg1 harg1 arg2 harg2 arg3 harg3 arg4 harg4 arg5 harg5 arg6 harg6 x0)]
  funext y
  exact View.canon_apply_of_pieces (G3 x0) _ (pieces3 c i arg1 harg1 arg2 harg2 arg3 harg3 arg4 harg4 arg5 harg5 arg6 harg6 x0) y (cover0_3 c i arg1 harg1 arg2 harg2 arg3 harg3 arg4 harg4 arg5 harg5 arg6 harg6 x0 y)

set_option maxHeartbeats 1600000 in
/-- Every piece of output 4 is the block of the index function its slab rectangle names: the body's arithmetic for
    that corner, read at (row, lane), is the specification's scalar function of the seven channel values there. -/
theorem pieces4 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    ∀ p ∈ (kernelRun0 (F := Ideal) c i arg1 harg1 arg2 harg2 arg3 harg3 arg4 harg4 arg5 harg5 arg6 harg6 x0).2.2.2.1, ∀ x : p.1.shape.Idx, p.2 x = G4 x0 (p.1.emb x) := by
  unfold kernelRun0
  dsimp only
  intro p hp
  simp only [List.mem_cons, List.mem_nil_iff, or_false] at hp
  rcases hp with rfl | rfl | rfl | rfl | rfl | rfl | rfl | rfl
  all_goals (
    intro x
    obtain ⟨u, r, l, rfl⟩ : ∃ (u : Fin 1) (r : Fin 256) (l : Fin 128), x = ix3 u r l := ⟨x 0, x 1, x 2, eq_ix3 x⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    rw [G4_slab, shapeCast_ab_1ab_apply]
    simp only [mulf, addf, subf, floor, absf, fptosi, muli, addi, cmpi, andi, select, maxsi, minsi, broadcast]
    simp only [Cert.Mpm.cell, Cert.Mpm.hsh, Cert.Mpm.gint, Cert.Mpm.gpos, Cert.Mpm.rel, Cert.Mpm.smass, Cert.Mpm.shp, Cert.Mpm.inGrid, Cert.Mpm.wgt, Cert.Mpm.dst, offs_0_0, offs_0_1, offs_0_2, offs_1_0, offs_1_1, offs_1_2, offs_2_0, offs_2_1, offs_2_2, offs_3_0, offs_3_1, offs_3_2, offs_4_0, offs_4_1, offs_4_2, offs_5_0, offs_5_1, offs_5_2, offs_6_0, offs_6_1, offs_6_2, offs_7_0, offs_7_1, offs_7_2]
    rw [load_slab_0, load_slab_1, load_slab_2, load_slab_6, load_slab_4])

/-- So output 4's staging buffer after the body is that function of the input block. -/
theorem out0_4_eq (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    out0_4 (F := Ideal) c i arg1 harg1 arg2 harg2 arg3 harg3 arg4 harg4 arg5 harg5 arg6 harg6 x0 = G4 x0 := by
  unfold out0_4
  rw [View.read_writes_eq_canon _ _ _ (cover0_4 c i arg1 harg1 arg2 harg2 arg3 harg3 arg4 harg4 arg5 harg5 arg6 harg6 x0)]
  funext y
  exact View.canon_apply_of_pieces (G4 x0) _ (pieces4 c i arg1 harg1 arg2 harg2 arg3 harg3 arg4 harg4 arg5 harg5 arg6 harg6 x0) y (cover0_4 c i arg1 harg1 arg2 harg2 arg3 harg3 arg4 harg4 arg5 harg5 arg6 harg6 x0 y)

set_option maxHeartbeats 1600000 in
/-- Every piece of output 5 is the block of the index function its slab rectangle names: the body's arithmetic for
    that corner, read at (row, lane), is the specification's scalar function of the seven channel values there. -/
theorem pieces5 (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    ∀ p ∈ (kernelRun0 (F := Ideal) c i arg1 harg1 arg2 harg2 arg3 harg3 arg4 harg4 arg5 harg5 arg6 harg6 x0).2.2.2.2.1, ∀ x : p.1.shape.Idx, p.2 x = G5 x0 (p.1.emb x) := by
  unfold kernelRun0
  dsimp only
  intro p hp
  simp only [List.mem_cons, List.mem_nil_iff, or_false] at hp
  rcases hp with rfl | rfl | rfl | rfl | rfl | rfl | rfl | rfl
  all_goals (
    intro x
    obtain ⟨u, r, l, rfl⟩ : ∃ (u : Fin 1) (r : Fin 256) (l : Fin 128), x = ix3 u r l := ⟨x 0, x 1, x 2, eq_ix3 x⟩
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    rw [G5_slab, shapeCast_ab_1ab_apply]
    simp only [mulf, addf, subf, floor, absf, fptosi, muli, addi, cmpi, andi, select, maxsi, minsi, broadcast]
    simp only [Cert.Mpm.cell, Cert.Mpm.hsh, Cert.Mpm.gint, Cert.Mpm.gpos, Cert.Mpm.rel, Cert.Mpm.smass, Cert.Mpm.shp, Cert.Mpm.inGrid, Cert.Mpm.wgt, Cert.Mpm.dst, offs_0_0, offs_0_1, offs_0_2, offs_1_0, offs_1_1, offs_1_2, offs_2_0, offs_2_1, offs_2_2, offs_3_0, offs_3_1, offs_3_2, offs_4_0, offs_4_1, offs_4_2, offs_5_0, offs_5_1, offs_5_2, offs_6_0, offs_6_1, offs_6_2, offs_7_0, offs_7_1, offs_7_2]
    rw [load_slab_0, load_slab_1, load_slab_2, load_slab_6, load_slab_5])

/-- So output 5's staging buffer after the body is that function of the input block. -/
theorem out0_5_eq (c : Dev nD) (i : grid0.Coords) (arg1 : Memref sig .tc .vmem S7x256x128 .f32) (harg1 : arg1.IsWhole) (arg2 : Memref sig .tc .vmem S8x256x128 .i32) (harg2 : arg2.IsWhole) (arg3 : Memref sig .tc .vmem S8x256x128 .f32) (harg3 : arg3.IsWhole) (arg4 : Memref sig .tc .vmem S8x256x128 .f32) (harg4 : arg4.IsWhole) (arg5 : Memref sig .tc .vmem S8x256x128 .f32) (harg5 : arg5.IsWhole) (arg6 : Memref sig .tc .vmem S8x256x128 .f32) (harg6 : arg6.IsWhole) (x0 : Vec Ideal S7x256x128 .f32) :
    out0_5 (F := Ideal) c i arg1 harg1 arg2 harg2 arg3 harg3 arg4 harg4 arg5 harg5 arg6 harg6 x0 = G5 x0 := by
  unfold out0_5
  rw [View.read_writes_eq_canon _ _ _ (cover0_5 c i arg1 harg1 arg2 harg2 arg3 harg3 arg4 harg4 arg5 harg5 arg6 harg6 x0)]
  funext y
  exact View.canon_apply_of_pieces (G5 x0) _ (pieces5 c i arg1 harg1 arg2 harg2 arg3 harg3 arg4 harg4 arg5 harg5 arg6 harg6 x0) y (cover0_5 c i arg1 harg1 arg2 harg2 arg3 harg3 arg4 harg4 arg5 harg5 arg6 harg6 x0 y)

end Cert.KernelIdeal.Hand

end
-- ==== Proof.KernelIdealArrays.lean ====
/-
  From grid points to whole arrays. The grid has 31 points; at point t the input window is rows 256·t … 256·t + 255 of
  the stacked [7, 7936, 128] array (all seven channel slabs), and each output window is the same rows of its
  [8, 7936, 128] array (all eight corner slabs). What the body leaves in an output buffer at point t is a function of
  the input block alone, lane by lane, so what point t writes back is block t of ONE function of the stacked array:
  at (corner k, row R, lane l) the specification's scalar function for corner k of the seven channel values at (R, l).
  Every row lies in exactly one point's block (R / 256), every point writes back, so after the run each output array
  is that function everywhere.
-/
import proofs.«152410_j40132174414020_2_alg».proof.Proof.KernelIdealValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- Row and lane of an index of an [8, 7936, 128] array, as literal-size coordinates. -/
abbrev RowOf (i : S8x7936x128.Idx) : Fin 7936 := ⟨(i 1).val, (i 1).isLt⟩
abbrev LaneOf (i : S8x7936x128.Idx) : Fin 128 := ⟨(i 2).val, (i 2).isLt⟩

/-- The clipped cell numbers as one function of the stacked input array. -/
def H1 (X : S7x7936x128.Idx → Cert.Mpm.R) : S8x7936x128.Idx → BitVec 32 := fun i =>
  Cert.Mpm.cell (X (ix3 (0 : Fin 7) (RowOf i) (LaneOf i))) (X (ix3 (1 : Fin 7) (RowOf i) (LaneOf i))) (X (ix3 (2 : Fin 7) (RowOf i) (LaneOf i)))
    (Cert.Mpm.offs (i 0).val 0) (Cert.Mpm.offs (i 0).val 1) (Cert.Mpm.offs (i 0).val 2)
/-- The masses the corners receive, likewise. -/
def H2 (X : S7x7936x128.Idx → Cert.Mpm.R) : S8x7936x128.Idx → Cert.Mpm.R := fun i =>
  Cert.Mpm.smass (X (ix3 (0 : Fin 7) (RowOf i) (LaneOf i))) (X (ix3 (1 : Fin 7) (RowOf i) (LaneOf i))) (X (ix3 (2 : Fin 7) (RowOf i) (LaneOf i)))
    (Cert.Mpm.offs (i 0).val 0) (Cert.Mpm.offs (i 0).val 1) (Cert.Mpm.offs (i 0).val 2) (X (ix3 (6 : Fin 7) (RowOf i) (LaneOf i)))
/-- Momentum component 0, likewise. -/
def H3 (X : S7x7936x128.Idx → Cert.Mpm.R) : S8x7936x128.Idx → Cert.Mpm.R := fun i =>
  (FloatOps.mulf (F := Ideal) (φ := .f32) (H2 X i) (X (ix3 (3 : Fin 7) (RowOf i) (LaneOf i))) : Cert.Mpm.R)
/-- Momentum component 1, likewise. -/
def H4 (X : S7x7936x128.Idx → Cert.Mpm.R) : S8x7936x128.Idx → Cert.Mpm.R := fun i =>
  (FloatOps.mulf (F := Ideal) (φ := .f32) (H2 X i) (X (ix3 (4 : Fin 7) (RowOf i) (LaneOf i))) : Cert.Mpm.R)
/-- Momentum component 2, likewise. -/
def H5 (X : S7x7936x128.Idx → Cert.Mpm.R) : S8x7936x128.Idx → Cert.Mpm.R := fun i =>
  (FloatOps.mulf (F := Ideal) (φ := .f32) (H2 X i) (X (ix3 (5 : Fin 7) (RowOf i) (LaneOf i))) : Cert.Mpm.R)

/-- Output 1's block function of a block B is the whole-array function of X at the block's rows, when B is rows
    256·t … 256·t + 255 of X. -/
theorem core1 (X : S7x7936x128.Idx → Cert.Mpm.R) (B : S7x256x128.Idx → Cert.Mpm.R) (t : ℕ) (ht : t < 31)
    (hB : ∀ (j : Fin 7) (r : Fin 256) (l : Fin 128), B (ix3 j r l) = X (ix3 j (⟨256 * t + r.val, by omega⟩ : Fin 7936) l))
    (k : Fin 8) (r : Fin 256) (l : Fin 128) :
    G1 B (ix3 k r l) = H1 X (ix3 k (⟨256 * t + r.val, by omega⟩ : Fin 7936) l) := by
  show Cert.Mpm.cell (B (ix3 (0 : Fin 7) r l)) (B (ix3 (1 : Fin 7) r l)) (B (ix3 (2 : Fin 7) r l)) (Cert.Mpm.offs k.val 0) (Cert.Mpm.offs k.val 1) (Cert.Mpm.offs k.val 2)
     = Cert.Mpm.cell (X (ix3 (0 : Fin 7) (⟨256 * t + r.val, by omega⟩ : Fin 7936) l)) (X (ix3 (1 : Fin 7) (⟨256 * t + r.val, by omega⟩ : Fin 7936) l)) (X (ix3 (2 : Fin 7) (⟨256 * t + r.val, by omega⟩ : Fin 7936) l)) (Cert.Mpm.offs k.val 0) (Cert.Mpm.offs k.val 1) (Cert.Mpm.offs k.val 2)
  rw [hB (0 : Fin 7) r l, hB (1 : Fin 7) r l, hB (2 : Fin 7) r l]

/-- Output 2's block function of a block B is the whole-array function of X at the block's rows, when B is rows
    256·t … 256·t + 255 of X. -/
theorem core2 (X : S7x7936x128.Idx → Cert.Mpm.R) (B : S7x256x128.Idx → Cert.Mpm.R) (t : ℕ) (ht : t < 31)
    (hB : ∀ (j : Fin 7) (r : Fin 256) (l : Fin 128), B (ix3 j r l) = X (ix3 j (⟨256 * t + r.val, by omega⟩ : Fin 7936) l))
    (k : Fin 8) (r : Fin 256) (l : Fin 128) :
    G2 B (ix3 k r l) = H2 X (ix3 k (⟨256 * t + r.val, by omega⟩ : Fin 7936) l) := by
  show Cert.Mpm.smass (B (ix3 (0 : Fin 7) r l)) (B (ix3 (1 : Fin 7) r l)) (B (ix3 (2 : Fin 7) r l)) (Cert.Mpm.offs k.val 0) (Cert.Mpm.offs k.val 1) (Cert.Mpm.offs k.val 2) (B (ix3 (6 : Fin 7) r l))
     = Cert.Mpm.smass (X (ix3 (0 : Fin 7) (⟨256 * t + r.val, by omega⟩ : Fin 7936) l)) (X (ix3 (1 : Fin 7) (⟨256 * t + r.val, by omega⟩ : Fin 7936) l)) (X (ix3 (2 : Fin 7) (⟨256 * t + r.val, by omega⟩ : Fin 7936) l)) (Cert.Mpm.offs k.val 0) (Cert.Mpm.offs k.val 1) (Cert.Mpm.offs k.val 2) (X (ix3 (6 : Fin 7) (⟨256 * t + r.val, by omega⟩ : Fin 7936) l))
  rw [hB (0 : Fin 7) r l, hB (1 : Fin 7) r l, hB (2 : Fin 7) r l, hB (6 : Fin 7) r l]

/-- Output 3's block function of a block B is the whole-array function of X at the block's rows, when B is rows
    256·t … 256·t + 255 of X. -/
theorem core3 (X : S7x7936x128.Idx → Cert.Mpm.R) (B : S7x256x128.Idx → Cert.Mpm.R) (t : ℕ) (ht : t < 31)
    (hB : ∀ (j : Fin 7) (r : Fin 256) (l : Fin 128), B (ix3 j r l) = X (ix3 j (⟨256 * t + r.val, by omega⟩ : Fin 7936) l))
    (k : Fin 8) (r : Fin 256) (l : Fin 128) :
    G3 B (ix3 k r l) = H3 X (ix3 k (⟨256 * t + r.val, by omega⟩ : Fin 7936) l) := by
  show FloatOps.mulf (F := Ideal) (φ := .f32) (Cert.Mpm.smass (B (ix3 (0 : Fin 7) r l)) (B (ix3 (1 : Fin 7) r l)) (B (ix3 (2 : Fin 7) r l)) (Cert.Mpm.offs k.val 0) (Cert.Mpm.offs k.val 1) (Cert.Mpm.offs k.val 2) (B (ix3 (6 : Fin 7) r l))) (B (ix3 (3 : Fin 7) r l))
     = FloatOps.mulf (F := Ideal) (φ := .f32) (Cert.Mpm.smass (X (ix3 (0 : Fin 7) (⟨256 * t + r.val, by omega⟩ : Fin 7936) l)) (X (ix3 (1 : Fin 7) (⟨256 * t + r.val, by omega⟩ : Fin 7936) l)) (X (ix3 (2 : Fin 7) (⟨256 * t + r.val, by omega⟩ : Fin 7936) l)) (Cert.Mpm.offs k.val 0) (Cert.Mpm.offs k.val 1) (Cert.Mpm.offs k.val 2) (X (ix3 (6 : Fin 7) (⟨256 * t + r.val, by omega⟩ : Fin 7936) l))) (X (ix3 (3 : Fin 7) (⟨256 * t + r.val, by omega⟩ : Fin 7936) l))
  rw [hB (0 : Fin 7) r l, hB (1 : Fin 7) r l, hB (2 : Fin 7) r l, hB (6 : Fin 7) r l, hB (3 : Fin 7) r l]

/-- Output 4's block function of a block B is the whole-array function of X at the block's rows, when B is rows
    256·t … 256·t + 255 of X. -/
theorem core4 (X : S7x7936x128.Idx → Cert.Mpm.R) (B : S7x256x128.Idx → Cert.Mpm.R) (t : ℕ) (ht : t < 31)
    (hB : ∀ (j : Fin 7) (r : Fin 256) (l : Fin 128), B (ix3 j r l) = X (ix3 j (⟨256 * t + r.val, by omega⟩ : Fin 7936) l))
    (k : Fin 8) (r : Fin 256) (l : Fin 128) :
    G4 B (ix3 k r l) = H4 X (ix3 k (⟨256 * t + r.val, by omega⟩ : Fin 7936) l) := by
  show FloatOps.mulf (F := Ideal) (φ := .f32) (Cert.Mpm.smass (B (ix3 (0 : Fin 7) r l)) (B (ix3 (1 : Fin 7) r l)) (B (ix3 (2 : Fin 7) r l)) (Cert.Mpm.offs k.val 0) (Cert.Mpm.offs k.val 1) (Cert.Mpm.offs k.val 2) (B (ix3 (6 : Fin 7) r l))) (B (ix3 (4 : Fin 7) r l))
     = FloatOps.mulf (F := Ideal) (φ := .f32) (Cert.Mpm.smass (X (ix3 (0 : Fin 7) (⟨256 * t + r.val, by omega⟩ : Fin 7936) l)) (X (ix3 (1 : Fin 7) (⟨256 * t + r.val, by omega⟩ : Fin 7936) l)) (X (ix3 (2 : Fin 7) (⟨256 * t + r.val, by omega⟩ : Fin 7936) l)) (Cert.Mpm.offs k.val 0) (Cert.Mpm.offs k.val 1) (Cert.Mpm.offs k.val 2) (X (ix3 (6 : Fin 7) (⟨256 * t + r.val, by omega⟩ : Fin 7936) l))) (X (ix3 (4 : Fin 7) (⟨256 * t + r.val, by omega⟩ : Fin 7936) l))
  rw [hB (0 : Fin 7) r l, hB (1 : Fin 7) r l, hB (2 : Fin 7) r l, hB (6 : Fin 7) r l, hB (4 : Fin 7) r l]

/-- Output 5's block function of a block B is the whole-array function of X at the block's rows, when B is rows
    256·t … 256·t + 255 of X. -/
theorem core5 (X : S7x7936x128.Idx → Cert.Mpm.R) (B : S7x256x128.Idx → Cert.Mpm.R) (t : ℕ) (ht : t < 31)
    (hB : ∀ (j : Fin 7) (r : Fin 256) (l : Fin 128), B (ix3 j r l) = X (ix3 j (⟨256 * t + r.val, by omega⟩ : Fin 7936) l))
    (k : Fin 8) (r : Fin 256) (l : Fin 128) :
    G5 B (ix3 k r l) = H5 X (ix3 k (⟨256 * t + r.val, by omega⟩ : Fin 7936) l) := by
  show FloatOps.mulf (F := Ideal) (φ := .f32) (Cert.Mpm.smass (B (ix3 (0 : Fin 7) r l)) (B (ix3 (1 : Fin 7) r l)) (B (ix3 (2 : Fin 7) r l)) (Cert.Mpm.offs k.val 0) (Cert.Mpm.offs k.val 1) (Cert.Mpm.offs k.val 2) (B (ix3 (6 : Fin 7) r l))) (B (ix3 (5 : Fin 7) r l))
     = FloatOps.mulf (F := Ideal) (φ := .f32) (Cert.Mpm.smass (X (ix3 (0 : Fin 7) (⟨256 * t + r.val, by omega⟩ : Fin 7936) l)) (X (ix3 (1 : Fin 7) (⟨256 * t + r.val, by omega⟩ : Fin 7936) l)) (X (ix3 (2 : Fin 7) (⟨256 * t + r.val, by omega⟩ : Fin 7936) l)) (Cert.Mpm.offs k.val 0) (Cert.Mpm.offs k.val 1) (Cert.Mpm.offs k.val 2) (X (ix3 (6 : Fin 7) (⟨256 * t + r.val, by omega⟩ : Fin 7936) l))) (X (ix3 (5 : Fin 7) (⟨256 * t + r.val, by omega⟩ : Fin 7936) l))
  rw [hB (0 : Fin 7) r l, hB (1 : Fin 7) r l, hB (2 : Fin 7) r l, hB (6 : Fin 7) r l, hB (5 : Fin 7) r l]

/-- The printed index maps, decided over the grid: every window's block index at point t is (0, t, 0). -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0) :=
  (by decide +kernel : ∀ t : Fin grid0.N, _)

/-- The input block at point t is rows 256·t … 256·t + 255 of the stacked array, every slab and lane. -/
theorem iblk_apply (c : Dev nD) (t : Fin cfg0.N) (j : Fin 7) (r : Fin 256) (l : Fin 128) :
    (iblk m c 0 t : Vec Ideal S7x256x128 .f32) (ix3 j r l)
      = (V m c main_v33 : S7x7936x128.Idx → Cert.Mpm.R) (ix3 j (⟨256 * t.val + r.val, by have := lt_of_lt_of_eq t.isLt N_0; omega⟩ : Fin 7936) l) := by
  obtain ⟨⟨e0, e1, e2⟩, -⟩ := idx_facts t
  unfold iblk
  rw [View.read_apply]
  show V m c main_v33 _ = V m c main_v33 _
  refine congrArg (V m c main_v33) ?_
  funext a; apply Fin.ext
  match a with
  | ⟨0, _⟩ => show win0_0.index t (0 : Fin 3) * 7 + 1 * j.val = j.val; rw [e0]; omega
  | ⟨1, _⟩ => show win0_0.index t (1 : Fin 3) * 256 + 1 * r.val = 256 * t.val + r.val; rw [e1]; omega
  | ⟨2, _⟩ => show win0_0.index t (2 : Fin 3) * 128 + 1 * l.val = l.val; rw [e2]; omega

/-! ## Output window 1 -/

/-- What point t writes back is block t of the whole-array function. -/
theorem flushed1_eq (c : Dev nD) (t : Fin cfg0.N) (hf : (cfg0.win 1).flush t = true) :
    (dats m 0 c).flushed 1 t = ((cfg0.win 1).blk t).view.read (Elt Ideal) (H1 (V m c main_v33)) := by
  have hN : t.val < 31 := lt_of_lt_of_eq t.isLt N_0
  obtain ⟨-, ⟨e0, e1, e2⟩, -, -, -, -⟩ := idx_facts t
  show (cfg0.win 1).cut (grid0.coords t) ((dats m 0 c).after 1 t) = _
  rw [after0_1, out0_1_eq]
  funext j
  obtain ⟨k, r, l, rfl⟩ : ∃ (k : Fin 8) (r : Fin 256) (l : Fin 128), j = ix3 k r l := ⟨j 0, j 1, j 2, eq_ix3 j⟩
  rw [View.read_apply]
  have hE : ((cfg0.win 1).blk t).view.emb (ix3 k r l) = ix3 k (⟨256 * t.val + r.val, by omega⟩ : Fin 7936) l := by
    funext a; apply Fin.ext
    match a with
    | ⟨0, _⟩ => show win0_1.index t (0 : Fin 3) * 8 + 1 * k.val = k.val; rw [e0]; omega
    | ⟨1, _⟩ => show win0_1.index t (1 : Fin 3) * 256 + 1 * r.val = 256 * t.val + r.val; rw [e1]; omega
    | ⟨2, _⟩ => show win0_1.index t (2 : Fin 3) * 128 + 1 * l.val = l.val; rw [e2]; omega
  rw [hE]
  show G1 (iblk m c 0 t) ((cfg0.win 1).xinj (grid0.coords t) (ix3 k r l)) = _
  have hx : (cfg0.win 1).xinj (grid0.coords t) (ix3 k r l) = ix3 k r l := funext fun a => Fin.ext rfl
  rw [hx]
  refine (core1 (V m c main_v33) (iblk m c 0 t) t.val hN (iblk_apply m c t) k r l).trans ?_
  generalize H1 (V m c main_v33) (ix3 k (⟨256 * t.val + r.val, by omega⟩ : Fin 7936) l) = Y
  rfl

/-- An index is in point t's block iff each coordinate is in the block's range on its axis. -/
theorem mem_blk1 (t : Fin cfg0.N) (i : S8x7936x128.Idx) :
    i ∈ ((cfg0.win 1).blk t).view.set ↔ ∀ a : Fin 3, win0_1.index t a * S8x256x128.size a ≤ (i a).val ∧ (i a).val < win0_1.index t a * S8x256x128.size a + S8x256x128.size a := by
  show i ∈ ((View.whole main_v34_0).slice (win0_1.rect t)).set ↔ _
  rw [View.set_slice_whole, Rect.mem_set_unit]
  exact Iff.rfl

/-- Every index lies in the block of the point its row names. -/
theorem cover1 (i : S8x7936x128.Idx) : ∃ t : Fin cfg0.N, (cfg0.win 1).flush t = true ∧ i ∈ ((cfg0.win 1).blk t).view.set := by
  have h0 : (i 0).val < 8 := (i 0).isLt
  have h1 : (i 1).val < 7936 := (i 1).isLt
  have h2 : (i 2).val < 128 := (i 2).isLt
  have hN : cfg0.N = 31 := N_0
  refine ⟨⟨(i 1).val / 256, by rw [hN]; omega⟩, flush0_1 _, ?_⟩
  obtain ⟨-, ⟨e0, e1, e2⟩, -, -, -, -⟩ := idx_facts ⟨(i 1).val / 256, by rw [hN]; omega⟩
  rw [mem_blk1]
  intro a
  match a with
  | ⟨0, _⟩ => show win0_1.index _ (0 : Fin 3) * 8 ≤ (i 0).val ∧ (i 0).val < win0_1.index _ (0 : Fin 3) * 8 + 8; rw [e0]; omega
  | ⟨1, _⟩ => show win0_1.index _ (1 : Fin 3) * 256 ≤ (i 1).val ∧ (i 1).val < win0_1.index _ (1 : Fin 3) * 256 + 256; rw [e1]; show (i 1).val / 256 * 256 ≤ (i 1).val ∧ (i 1).val < (i 1).val / 256 * 256 + 256; omega
  | ⟨2, _⟩ => show win0_1.index _ (2 : Fin 3) * 128 ≤ (i 2).val ∧ (i 2).val < win0_1.index _ (2 : Fin 3) * 128 + 128; rw [e2]; omega

/-- The array after the run. -/
theorem final1 (c : Dev nD) : (dats m 0 c).arrAt 1 cfg0.N = H1 (V m c main_v33) :=
  (dats m 0 c).arrAt_eq_of_cover 1 (H1 (V m c main_v33)) (flushed1_eq m c) cover1

/-! ## Output window 2 -/

/-- What point t writes back is block t of the whole-array function. -/
theorem flushed2_eq (c : Dev nD) (t : Fin cfg0.N) (hf : (cfg0.win 2).flush t = true) :
    (dats m 0 c).flushed 2 t = ((cfg0.win 2).blk t).view.read (Elt Ideal) (H2 (V m c main_v33)) := by
  have hN : t.val < 31 := lt_of_lt_of_eq t.isLt N_0
  obtain ⟨-, -, ⟨e0, e1, e2⟩, -, -, -⟩ := idx_facts t
  show (cfg0.win 2).cut (grid0.coords t) ((dats m 0 c).after 2 t) = _
  rw [after0_2, out0_2_eq]
  funext j
  obtain ⟨k, r, l, rfl⟩ : ∃ (k : Fin 8) (r : Fin 256) (l : Fin 128), j = ix3 k r l := ⟨j 0, j 1, j 2, eq_ix3 j⟩
  rw [View.read_apply]
  have hE : ((cfg0.win 2).blk t).view.emb (ix3 k r l) = ix3 k (⟨256 * t.val + r.val, by omega⟩ : Fin 7936) l := by
    funext a; apply Fin.ext
    match a with
    | ⟨0, _⟩ => show win0_2.index t (0 : Fin 3) * 8 + 1 * k.val = k.val; rw [e0]; omega
    | ⟨1, _⟩ => show win0_2.index t (1 : Fin 3) * 256 + 1 * r.val = 256 * t.val + r.val; rw [e1]; omega
    | ⟨2, _⟩ => show win0_2.index t (2 : Fin 3) * 128 + 1 * l.val = l.val; rw [e2]; omega
  rw [hE]
  show G2 (iblk m c 0 t) ((cfg0.win 2).xinj (grid0.coords t) (ix3 k r l)) = _
  have hx : (cfg0.win 2).xinj (grid0.coords t) (ix3 k r l) = ix3 k r l := funext fun a => Fin.ext rfl
  rw [hx]
  refine (core2 (V m c main_v33) (iblk m c 0 t) t.val hN (iblk_apply m c t) k r l).trans ?_
  generalize H2 (V m c main_v33) (ix3 k (⟨256 * t.val + r.val, by omega⟩ : Fin 7936) l) = Y
  rfl

/-- An index is in point t's block iff each coordinate is in the block's range on its axis. -/
theorem mem_blk2 (t : Fin cfg0.N) (i : S8x7936x128.Idx) :
    i ∈ ((cfg0.win 2).blk t).view.set ↔ ∀ a : Fin 3, win0_2.index t a * S8x256x128.size a ≤ (i a).val ∧ (i a).val < win0_2.index t a * S8x256x128.size a + S8x256x128.size a := by
  show i ∈ ((View.whole main_v34_1).slice (win0_2.rect t)).set ↔ _
  rw [View.set_slice_whole, Rect.mem_set_unit]
  exact Iff.rfl

/-- Every index lies in the block of the point its row names. -/
theorem cover2 (i : S8x7936x128.Idx) : ∃ t : Fin cfg0.N, (cfg0.win 2).flush t = true ∧ i ∈ ((cfg0.win 2).blk t).view.set := by
  have h0 : (i 0).val < 8 := (i 0).isLt
  have h1 : (i 1).val < 7936 := (i 1).isLt
  have h2 : (i 2).val < 128 := (i 2).isLt
  have hN : cfg0.N = 31 := N_0
  refine ⟨⟨(i 1).val / 256, by rw [hN]; omega⟩, flush0_2 _, ?_⟩
  obtain ⟨-, -, ⟨e0, e1, e2⟩, -, -, -⟩ := idx_facts ⟨(i 1).val / 256, by rw [hN]; omega⟩
  rw [mem_blk2]
  intro a
  match a with
  | ⟨0, _⟩ => show win0_2.index _ (0 : Fin 3) * 8 ≤ (i 0).val ∧ (i 0).val < win0_2.index _ (0 : Fin 3) * 8 + 8; rw [e0]; omega
  | ⟨1, _⟩ => show win0_2.index _ (1 : Fin 3) * 256 ≤ (i 1).val ∧ (i 1).val < win0_2.index _ (1 : Fin 3) * 256 + 256; rw [e1]; show (i 1).val / 256 * 256 ≤ (i 1).val ∧ (i 1).val < (i 1).val / 256 * 256 + 256; omega
  | ⟨2, _⟩ => show win0_2.index _ (2 : Fin 3) * 128 ≤ (i 2).val ∧ (i 2).val < win0_2.index _ (2 : Fin 3) * 128 + 128; rw [e2]; omega

/-- The array after the run. -/
theorem final2 (c : Dev nD) : (dats m 0 c).arrAt 2 cfg0.N = H2 (V m c main_v33) :=
  (dats m 0 c).arrAt_eq_of_cover 2 (H2 (V m c main_v33)) (flushed2_eq m c) cover2

/-! ## Output window 3 -/

/-- What point t writes back is block t of the whole-array function. -/
theorem flushed3_eq (c : Dev nD) (t : Fin cfg0.N) (hf : (cfg0.win 3).flush t = true) :
    (dats m 0 c).flushed 3 t = ((cfg0.win 3).blk t).view.read (Elt Ideal) (H3 (V m c main_v33)) := by
  have hN : t.val < 31 := lt_of_lt_of_eq t.isLt N_0
  obtain ⟨-, -, -, ⟨e0, e1, e2⟩, -, -⟩ := idx_facts t
  show (cfg0.win 3).cut (grid0.coords t) ((dats m 0 c).after 3 t) = _
  rw [after0_3, out0_3_eq]
  funext j
  obtain ⟨k, r, l, rfl⟩ : ∃ (k : Fin 8) (r : Fin 256) (l : Fin 128), j = ix3 k r l := ⟨j 0, j 1, j 2, eq_ix3 j⟩
  rw [View.read_apply]
  have hE : ((cfg0.win 3).blk t).view.emb (ix3 k r l) = ix3 k (⟨256 * t.val + r.val, by omega⟩ : Fin 7936) l := by
    funext a; apply Fin.ext
    match a with
    | ⟨0, _⟩ => show win0_3.index t (0 : Fin 3) * 8 + 1 * k.val = k.val; rw [e0]; omega
    | ⟨1, _⟩ => show win0_3.index t (1 : Fin 3) * 256 + 1 * r.val = 256 * t.val + r.val; rw [e1]; omega
    | ⟨2, _⟩ => show win0_3.index t (2 : Fin 3) * 128 + 1 * l.val = l.val; rw [e2]; omega
  rw [hE]
  show G3 (iblk m c 0 t) ((cfg0.win 3).xinj (grid0.coords t) (ix3 k r l)) = _
  have hx : (cfg0.win 3).xinj (grid0.coords t) (ix3 k r l) = ix3 k r l := funext fun a => Fin.ext rfl
  rw [hx]
  refine (core3 (V m c main_v33) (iblk m c 0 t) t.val hN (iblk_apply m c t) k r l).trans ?_
  generalize H3 (V m c main_v33) (ix3 k (⟨256 * t.val + r.val, by omega⟩ : Fin 7936) l) = Y
  rfl

/-- An index is in point t's block iff each coordinate is in the block's range on its axis. -/
theorem mem_blk3 (t : Fin cfg0.N) (i : S8x7936x128.Idx) :
    i ∈ ((cfg0.win 3).blk t).view.set ↔ ∀ a : Fin 3, win0_3.index t a * S8x256x128.size a ≤ (i a).val ∧ (i a).val < win0_3.index t a * S8x256x128.size a + S8x256x128.size a := by
  show i ∈ ((View.whole main_v34_2).slice (win0_3.rect t)).set ↔ _
  rw [View.set_slice_whole, Rect.mem_set_unit]
  exact Iff.rfl

/-- Every index lies in the block of the point its row names. -/
theorem cover3 (i : S8x7936x128.Idx) : ∃ t : Fin cfg0.N, (cfg0.win 3).flush t = true ∧ i ∈ ((cfg0.win 3).blk t).view.set := by
  have h0 : (i 0).val < 8 := (i 0).isLt
  have h1 : (i 1).val < 7936 := (i 1).isLt
  have h2 : (i 2).val < 128 := (i 2).isLt
  have hN : cfg0.N = 31 := N_0
  refine ⟨⟨(i 1).val / 256, by rw [hN]; omega⟩, flush0_3 _, ?_⟩
  obtain ⟨-, -, -, ⟨e0, e1, e2⟩, -, -⟩ := idx_facts ⟨(i 1).val / 256, by rw [hN]; omega⟩
  rw [mem_blk3]
  intro a
  match a with
  | ⟨0, _⟩ => show win0_3.index _ (0 : Fin 3) * 8 ≤ (i 0).val ∧ (i 0).val < win0_3.index _ (0 : Fin 3) * 8 + 8; rw [e0]; omega
  | ⟨1, _⟩ => show win0_3.index _ (1 : Fin 3) * 256 ≤ (i 1).val ∧ (i 1).val < win0_3.index _ (1 : Fin 3) * 256 + 256; rw [e1]; show (i 1).val / 256 * 256 ≤ (i 1).val ∧ (i 1).val < (i 1).val / 256 * 256 + 256; omega
  | ⟨2, _⟩ => show win0_3.index _ (2 : Fin 3) * 128 ≤ (i 2).val ∧ (i 2).val < win0_3.index _ (2 : Fin 3) * 128 + 128; rw [e2]; omega

/-- The array after the run. -/
theorem final3 (c : Dev nD) : (dats m 0 c).arrAt 3 cfg0.N = H3 (V m c main_v33) :=
  (dats m 0 c).arrAt_eq_of_cover 3 (H3 (V m c main_v33)) (flushed3_eq m c) cover3

/-! ## Output window 4 -/

/-- What point t writes back is block t of the whole-array function. -/
theorem flushed4_eq (c : Dev nD) (t : Fin cfg0.N) (hf : (cfg0.win 4).flush t = true) :
    (dats m 0 c).flushed 4 t = ((cfg0.win 4).blk t).view.read (Elt Ideal) (H4 (V m c main_v33)) := by
  have hN : t.val < 31 := lt_of_lt_of_eq t.isLt N_0
  obtain ⟨-, -, -, -, ⟨e0, e1, e2⟩, -⟩ := idx_facts t
  show (cfg0.win 4).cut (grid0.coords t) ((dats m 0 c).after 4 t) = _
  rw [after0_4, out0_4_eq]
  funext j
  obtain ⟨k, r, l, rfl⟩ : ∃ (k : Fin 8) (r : Fin 256) (l : Fin 128), j = ix3 k r l := ⟨j 0, j 1, j 2, eq_ix3 j⟩
  rw [View.read_apply]
  have hE : ((cfg0.win 4).blk t).view.emb (ix3 k r l) = ix3 k (⟨256 * t.val + r.val, by omega⟩ : Fin 7936) l := by
    funext a; apply Fin.ext
    match a with
    | ⟨0, _⟩ => show win0_4.index t (0 : Fin 3) * 8 + 1 * k.val = k.val; rw [e0]; omega
    | ⟨1, _⟩ => show win0_4.index t (1 : Fin 3) * 256 + 1 * r.val = 256 * t.val + r.val; rw [e1]; omega
    | ⟨2, _⟩ => show win0_4.index t (2 : Fin 3) * 128 + 1 * l.val = l.val; rw [e2]; omega
  rw [hE]
  show G4 (iblk m c 0 t) ((cfg0.win 4).xinj (grid0.coords t) (ix3 k r l)) = _
  have hx : (cfg0.win 4).xinj (grid0.coords t) (ix3 k r l) = ix3 k r l := funext fun a => Fin.ext rfl
  rw [hx]
  refine (core4 (V m c main_v33) (iblk m c 0 t) t.val hN (iblk_apply m c t) k r l).trans ?_
  generalize H4 (V m c main_v33) (ix3 k (⟨256 * t.val + r.val, by omega⟩ : Fin 7936) l) = Y
  rfl

/-- An index is in point t's block iff each coordinate is in the block's range on its axis. -/
theorem mem_blk4 (t : Fin cfg0.N) (i : S8x7936x128.Idx) :
    i ∈ ((cfg0.win 4).blk t).view.set ↔ ∀ a : Fin 3, win0_4.index t a * S8x256x128.size a ≤ (i a).val ∧ (i a).val < win0_4.index t a * S8x256x128.size a + S8x256x128.size a := by
  show i ∈ ((View.whole main_v34_3).slice (win0_4.rect t)).set ↔ _
  rw [View.set_slice_whole, Rect.mem_set_unit]
  exact Iff.rfl

/-- Every index lies in the block of the point its row names. -/
theorem cover4 (i : S8x7936x128.Idx) : ∃ t : Fin cfg0.N, (cfg0.win 4).flush t = true ∧ i ∈ ((cfg0.win 4).blk t).view.set := by
  have h0 : (i 0).val < 8 := (i 0).isLt
  have h1 : (i 1).val < 7936 := (i 1).isLt
  have h2 : (i 2).val < 128 := (i 2).isLt
  have hN : cfg0.N = 31 := N_0
  refine ⟨⟨(i 1).val / 256, by rw [hN]; omega⟩, flush0_4 _, ?_⟩
  obtain ⟨-, -, -, -, ⟨e0, e1, e2⟩, -⟩ := idx_facts ⟨(i 1).val / 256, by rw [hN]; omega⟩
  rw [mem_blk4]
  intro a
  match a with
  | ⟨0, _⟩ => show win0_4.index _ (0 : Fin 3) * 8 ≤ (i 0).val ∧ (i 0).val < win0_4.index _ (0 : Fin 3) * 8 + 8; rw [e0]; omega
  | ⟨1, _⟩ => show win0_4.index _ (1 : Fin 3) * 256 ≤ (i 1).val ∧ (i 1).val < win0_4.index _ (1 : Fin 3) * 256 + 256; rw [e1]; show (i 1).val / 256 * 256 ≤ (i 1).val ∧ (i 1).val < (i 1).val / 256 * 256 + 256; omega
  | ⟨2, _⟩ => show win0_4.index _ (2 : Fin 3) * 128 ≤ (i 2).val ∧ (i 2).val < win0_4.index _ (2 : Fin 3) * 128 + 128; rw [e2]; omega

/-- The array after the run. -/
theorem final4 (c : Dev nD) : (dats m 0 c).arrAt 4 cfg0.N = H4 (V m c main_v33) :=
  (dats m 0 c).arrAt_eq_of_cover 4 (H4 (V m c main_v33)) (flushed4_eq m c) cover4

/-! ## Output window 5 -/

/-- What point t writes back is block t of the whole-array function. -/
theorem flushed5_eq (c : Dev nD) (t : Fin cfg0.N) (hf : (cfg0.win 5).flush t = true) :
    (dats m 0 c).flushed 5 t = ((cfg0.win 5).blk t).view.read (Elt Ideal) (H5 (V m c main_v33)) := by
  have hN : t.val < 31 := lt_of_lt_of_eq t.isLt N_0
  obtain ⟨-, -, -, -, -, ⟨e0, e1, e2⟩⟩ := idx_facts t
  show (cfg0.win 5).cut (grid0.coords t) ((dats m 0 c).after 5 t) = _
  rw [after0_5, out0_5_eq]
  funext j
  obtain ⟨k, r, l, rfl⟩ : ∃ (k : Fin 8) (r : Fin 256) (l : Fin 128), j = ix3 k r l := ⟨j 0, j 1, j 2, eq_ix3 j⟩
  rw [View.read_apply]
  have hE : ((cfg0.win 5).blk t).view.emb (ix3 k r l) = ix3 k (⟨256 * t.val + r.val, by omega⟩ : Fin 7936) l := by
    funext a; apply Fin.ext
    match a with
    | ⟨0, _⟩ => show win0_5.index t (0 : Fin 3) * 8 + 1 * k.val = k.val; rw [e0]; omega
    | ⟨1, _⟩ => show win0_5.index t (1 : Fin 3) * 256 + 1 * r.val = 256 * t.val + r.val; rw [e1]; omega
    | ⟨2, _⟩ => show win0_5.index t (2 : Fin 3) * 128 + 1 * l.val = l.val; rw [e2]; omega
  rw [hE]
  show G5 (iblk m c 0 t) ((cfg0.win 5).xinj (grid0.coords t) (ix3 k r l)) = _
  have hx : (cfg0.win 5).xinj (grid0.coords t) (ix3 k r l) = ix3 k r l := funext fun a => Fin.ext rfl
  rw [hx]
  refine (core5 (V m c main_v33) (iblk m c 0 t) t.val hN (iblk_apply m c t) k r l).trans ?_
  generalize H5 (V m c main_v33) (ix3 k (⟨256 * t.val + r.val, by omega⟩ : Fin 7936) l) = Y
  rfl

/-- An index is in point t's block iff each coordinate is in the block's range on its axis. -/
theorem mem_blk5 (t : Fin cfg0.N) (i : S8x7936x128.Idx) :
    i ∈ ((cfg0.win 5).blk t).view.set ↔ ∀ a : Fin 3, win0_5.index t a * S8x256x128.size a ≤ (i a).val ∧ (i a).val < win0_5.index t a * S8x256x128.size a + S8x256x128.size a := by
  show i ∈ ((View.whole main_v34_4).slice (win0_5.rect t)).set ↔ _
  rw [View.set_slice_whole, Rect.mem_set_unit]
  exact Iff.rfl

/-- Every index lies in the block of the point its row names. -/
theorem cover5 (i : S8x7936x128.Idx) : ∃ t : Fin cfg0.N, (cfg0.win 5).flush t = true ∧ i ∈ ((cfg0.win 5).blk t).view.set := by
  have h0 : (i 0).val < 8 := (i 0).isLt
  have h1 : (i 1).val < 7936 := (i 1).isLt
  have h2 : (i 2).val < 128 := (i 2).isLt
  have hN : cfg0.N = 31 := N_0
  refine ⟨⟨(i 1).val / 256, by rw [hN]; omega⟩, flush0_5 _, ?_⟩
  obtain ⟨-, -, -, -, -, ⟨e0, e1, e2⟩⟩ := idx_facts ⟨(i 1).val / 256, by rw [hN]; omega⟩
  rw [mem_blk5]
  intro a
  match a with
  | ⟨0, _⟩ => show win0_5.index _ (0 : Fin 3) * 8 ≤ (i 0).val ∧ (i 0).val < win0_5.index _ (0 : Fin 3) * 8 + 8; rw [e0]; omega
  | ⟨1, _⟩ => show win0_5.index _ (1 : Fin 3) * 256 ≤ (i 1).val ∧ (i 1).val < win0_5.index _ (1 : Fin 3) * 256 + 256; rw [e1]; show (i 1).val / 256 * 256 ≤ (i 1).val ∧ (i 1).val < (i 1).val / 256 * 256 + 256; omega
  | ⟨2, _⟩ => show win0_5.index _ (2 : Fin 3) * 128 ≤ (i 2).val ∧ (i 2).val < win0_5.index _ (2 : Fin 3) * 128 + 128; rw [e2]; omega

/-- The array after the run. -/
theorem final5 (c : Dev nD) : (dats m 0 c).arrAt 5 cfg0.N = H5 (V m c main_v33) :=
  (dats m 0 c).arrAt_eq_of_cover 5 (H5 (V m c main_v33)) (flushed5_eq m c) cover5

end Cert.KernelIdeal.Hand

end
-- ==== Proof.KernelIdealInput.lean ====
/-
  The stacked input array of the pipelined region, read at an index.

  Before its one pipelined region the program builds a [7, 7936, 128] array out of its three arguments. Each of the
  three columns of the positions [1000000, 3], each of the three columns of the velocities [1000000, 3], and the
  masses [1000000] is made a vector of 1000000 entries, padded at the end with 15808 copies of the integer 0 converted
  to a float (which is 0) to 1015808 = 7936 · 128 entries, laid out row-major as 7936 rows of 128, given a leading unit
  axis, and the seven slabs are joined along that axis. So entry (j, R, l) of the array is channel j of particle
  n = 128 · R + l — a position component for j = 0, 1, 2, a velocity component for j = 3, 4, 5, the mass for j = 6 —
  and 0 for the padding particles n ≥ 1000000.

  Here: each operation of that chain read at an index (the slice and flattening of a column, the padding, the
  row-major layout, the unit axis), the join of seven slabs read at an index, and the array's contents when the
  region is entered as that function of the three argument arrays.
-/
import proofs.«152410_j40132174414020_2_alg».proof.Proof.KernelIdealBase
import proofs.«152410_j40132174414020_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Input

open Cert.KernelIdeal Cert.KernelIdeal.Gen Cert.KernelIdeal.Hand
open Idealize.ShloMosaic Idealize.ShloMosaic.ValueIdx Idealize.ShloMosaic.TcCoe

/-! ## A host operation over seven literal operands -/

section N7
variable {τ : Topo} {sig : RefSig} {Val : EltTy → Type}
variable {x0 x1 x2 x3 x4 x5 x6 y : Ref sig .tc}

/-- The result of an operation over a literal family of seven operands, with each operand's contents at its own
    reference (so that the operands' own results can be rewritten in turn). -/
theorem nary7_result'
    (f : ((k : Fin 7) → ((![x0, x1, x2, x3, x4, x5, x6] : Fin 7 → Ref sig .tc) k).ty.Contents Val) → y.ty.Contents Val) (hxs hy)
    (G : Valuation τ sig Val) :
    (StableHlo.nary (τ := τ) ![x0, x1, x2, x3, x4, x5, x6] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) := by
  rw [StableHlo.nary_result]; congr 1; funext k; fin_cases k <;> rfl

end N7

/-! ## One channel's slab, read at an index -/

/-- The padding value: the integer 0 converted to a float is 0. -/
theorem padValue_apply (i : (⟨0, ![]⟩ : Shape).Idx) :
    (sitofp .f32 (constantI ⟨0, ![]⟩ 32 0#32) : FVec Ideal ⟨0, ![]⟩ .f32) i = 0 := by
  show (((0#32 : BitVec 32).toInt : ℝ) : EReal) = 0
  simp

/-- A vector of 1000000 entries padded at the end to 1015808, laid out as 7936 rows of 128, with a leading unit
    axis: entry (0, R, l) is entry 128·R + l of the vector, and the padding value past the vector's end. -/
theorem slab_apply (x : (⟨1, ![1000000]⟩ : Shape).Idx → EReal) (v : (⟨0, ![]⟩ : Shape).Idx → EReal) (hv : ∀ i, v i = 0)
    (hp : (⟨1, ![1000000]⟩ : Shape).Pads (![0] : Fin 1 → Nat) ![15808] ![0] ⟨1, ![1015808]⟩)
    (hu : 0 < (⟨0, ![]⟩ : Shape).numel)
    (hc : (⟨1, ![1015808]⟩ : Shape).ShapeCasts ⟨2, ![7936, 128]⟩)
    (hb : (⟨2, ![7936, 128]⟩ : Shape).BroadcastsInDim ⟨3, ![1, 7936, 128]⟩ (![1, 2] : Fin 2 → Fin 3))
    (R : Fin 7936) (l : Fin 128) :
    broadcastInDim (⟨3, ![1, 7936, 128]⟩ : Shape) (![1, 2] : Fin 2 → Fin 3) hb
        (shapeCast (⟨2, ![7936, 128]⟩ : Shape) (pad (⟨1, ![1015808]⟩ : Shape) (![0] : Fin 1 → Nat) ![15808] ![0] x v hp hu) hc)
        (ix3 (0 : Fin 1) R l)
      = if h : 128 * R.val + l.val < 1000000 then x (ix1 ⟨128 * R.val + l.val, h⟩) else 0 := by
  have hR := R.isLt
  have hl := l.isLt
  have hn : 128 * R.val + l.val < 1015808 := by omega
  refine (broadcastInDim_apply (![1, 2] : Fin 2 → Fin 3) hb _ (ix3 (0 : Fin 1) R l) (ix2 R l) ?_).trans ?_
  · intro a
    match a with
    | ⟨0, _⟩ => show R.val = if (7936 : ℕ) = 1 then 0 else R.val; rw [if_neg (by decide)]
    | ⟨1, _⟩ => show l.val = if (128 : ℕ) = 1 then 0 else l.val; rw [if_neg (by decide)]
  refine (shapeCast_apply _ hc (ix2 R l) (ix1 (⟨128 * R.val + l.val, hn⟩ : Fin 1015808)) ?_).trans ?_
  · rw [Shape.rowMajor_val_one, Shape.rowMajor_val_two]
    show 128 * R.val + l.val = R.val * 128 + l.val
    omega
  by_cases h : 128 * R.val + l.val < 1000000
  · rw [dif_pos h]
    refine pad_apply_of_inside _ _ _ x v hp hu (ix1 (⟨128 * R.val + l.val, hn⟩ : Fin 1015808))
      (ix1 (⟨128 * R.val + l.val, h⟩ : Fin 1000000)) ?_
    intro a
    match a with
    | ⟨0, _⟩ => show 128 * R.val + l.val = 0 + (128 * R.val + l.val) * (0 + 1); omega
  · rw [dif_neg h]
    refine (pad_apply_of_not_inside _ _ _ x v hp hu (ix1 (⟨128 * R.val + l.val, hn⟩ : Fin 1015808)) (0 : Fin 1) ?_).trans (hv _)
    intro hh
    have h3 : (128 * R.val + l.val - 0) / (0 + 1) < 1000000 := hh.2.2
    omega

/-- Column d of a [1000000, 3] array, cut out as a [1000000, 1] slice and flattened: entry n is the array's (n, d). -/
theorem column_apply (a : (⟨2, ![1000000, 3]⟩ : Shape).Idx → EReal) (d : Fin 3) (off : Fin 2 → Nat)
    (h0 : off 0 = 0) (h1 : off 1 = d.val)
    (hs : (⟨2, ![1000000, 3]⟩ : Shape).Slices off ⟨2, ![1000000, 1]⟩)
    (hc : (⟨2, ![1000000, 1]⟩ : Shape).ShapeCasts ⟨1, ![1000000]⟩) (n : Fin 1000000) :
    shapeCast (⟨1, ![1000000]⟩ : Shape) (extractStridedSlice (⟨2, ![1000000, 1]⟩ : Shape) off a hs) hc (ix1 n) = a (ix2 n d) := by
  refine (shapeCast_apply _ hc (ix1 n) (ix2 n (0 : Fin 1)) ?_).trans ?_
  · rw [Shape.rowMajor_val_one, Shape.rowMajor_val_two]
    show n.val * 1 + 0 = n.val
    omega
  refine extractStridedSlice_apply off a hs (ix2 n (0 : Fin 1)) (ix2 n d) ?_
  intro b
  match b with
  | ⟨0, _⟩ => show n.val = off 0 + n.val; rw [h0]; omega
  | ⟨1, _⟩ => show d.val = off 1 + 0; rw [h1, Nat.add_zero]

/-- A column's slab: entry (0, R, l) is component d of particle 128·R + l, and 0 past the last particle. -/
theorem columnSlab_apply (a : (⟨2, ![1000000, 3]⟩ : Shape).Idx → EReal) (d : Fin 3) (off : Fin 2 → Nat)
    (h0 : off 0 = 0) (h1 : off 1 = d.val)
    (hs : (⟨2, ![1000000, 3]⟩ : Shape).Slices off ⟨2, ![1000000, 1]⟩)
    (hc1 : (⟨2, ![1000000, 1]⟩ : Shape).ShapeCasts ⟨1, ![1000000]⟩)
    (v : (⟨0, ![]⟩ : Shape).Idx → EReal) (hv : ∀ i, v i = 0)
    (hp : (⟨1, ![1000000]⟩ : Shape).Pads (![0] : Fin 1 → Nat) ![15808] ![0] ⟨1, ![1015808]⟩)
    (hu : 0 < (⟨0, ![]⟩ : Shape).numel)
    (hc : (⟨1, ![1015808]⟩ : Shape).ShapeCasts ⟨2, ![7936, 128]⟩)
    (hb : (⟨2, ![7936, 128]⟩ : Shape).BroadcastsInDim ⟨3, ![1, 7936, 128]⟩ (![1, 2] : Fin 2 → Fin 3))
    (R : Fin 7936) (l : Fin 128) :
    broadcastInDim (⟨3, ![1, 7936, 128]⟩ : Shape) (![1, 2] : Fin 2 → Fin 3) hb
        (shapeCast (⟨2, ![7936, 128]⟩ : Shape) (pad (⟨1, ![1015808]⟩ : Shape) (![0] : Fin 1 → Nat) ![15808] ![0]
          (shapeCast (⟨1, ![1000000]⟩ : Shape) (extractStridedSlice (⟨2, ![1000000, 1]⟩ : Shape) off a hs) hc1) v hp hu) hc)
        (ix3 (0 : Fin 1) R l)
      = Cert.Mpm.chan3 a d (128 * R.val + l.val) := by
  rw [slab_apply _ v hv hp hu hc hb R l]
  unfold Cert.Mpm.chan3
  by_cases h : 128 * R.val + l.val < 1000000
  · rw [dif_pos h, dif_pos h]
    exact column_apply a d off h0 h1 hs hc1 ⟨128 * R.val + l.val, h⟩
  · rw [dif_neg h, dif_neg h]

/-- The masses' slab: entry (0, R, l) is the mass of particle 128·R + l, and 0 past the last particle. -/
theorem vectorSlab_apply (a : (⟨1, ![1000000]⟩ : Shape).Idx → EReal)
    (v : (⟨0, ![]⟩ : Shape).Idx → EReal) (hv : ∀ i, v i = 0)
    (hp : (⟨1, ![1000000]⟩ : Shape).Pads (![0] : Fin 1 → Nat) ![15808] ![0] ⟨1, ![1015808]⟩)
    (hu : 0 < (⟨0, ![]⟩ : Shape).numel)
    (hc : (⟨1, ![1015808]⟩ : Shape).ShapeCasts ⟨2, ![7936, 128]⟩)
    (hb : (⟨2, ![7936, 128]⟩ : Shape).BroadcastsInDim ⟨3, ![1, 7936, 128]⟩ (![1, 2] : Fin 2 → Fin 3))
    (R : Fin 7936) (l : Fin 128) :
    broadcastInDim (⟨3, ![1, 7936, 128]⟩ : Shape) (![1, 2] : Fin 2 → Fin 3) hb
        (shapeCast (⟨2, ![7936, 128]⟩ : Shape) (pad (⟨1, ![1015808]⟩ : Shape) (![0] : Fin 1 → Nat) ![15808] ![0] a v hp hu) hc)
        (ix3 (0 : Fin 1) R l)
      = Cert.Mpm.chan1 a (128 * R.val + l.val) := by
  rw [slab_apply a v hv hp hu hc hb R l]
  rfl

/-! ## Seven slabs stacked along a new leading axis -/

/-- Seven [1, 7936, 128] pieces joined along axis 0, read at (j, R, l): piece j at (0, R, l). -/
theorem stack7_apply {α : Type} (x0 x1 x2 x3 x4 x5 x6 : (⟨3, ![1, 7936, 128]⟩ : Shape).Idx → α)
    (h : Shape.Concatenates (([⟨(⟨3, ![1, 7936, 128]⟩ : Shape), x0⟩, ⟨(⟨3, ![1, 7936, 128]⟩ : Shape), x1⟩,
        ⟨(⟨3, ![1, 7936, 128]⟩ : Shape), x2⟩, ⟨(⟨3, ![1, 7936, 128]⟩ : Shape), x3⟩, ⟨(⟨3, ![1, 7936, 128]⟩ : Shape), x4⟩,
        ⟨(⟨3, ![1, 7936, 128]⟩ : Shape), x5⟩, ⟨(⟨3, ![1, 7936, 128]⟩ : Shape), x6⟩] : List ((s : Shape) × (s.Idx → α))).map (·.1))
      (⟨3, ![7, 7936, 128]⟩ : Shape) (0 : Fin 3))
    (j : Fin 7) (R : Fin 7936) (l : Fin 128) :
    concatenate (⟨3, ![7, 7936, 128]⟩ : Shape) (0 : Fin 3)
        [⟨(⟨3, ![1, 7936, 128]⟩ : Shape), x0⟩, ⟨(⟨3, ![1, 7936, 128]⟩ : Shape), x1⟩, ⟨(⟨3, ![1, 7936, 128]⟩ : Shape), x2⟩,
          ⟨(⟨3, ![1, 7936, 128]⟩ : Shape), x3⟩, ⟨(⟨3, ![1, 7936, 128]⟩ : Shape), x4⟩, ⟨(⟨3, ![1, 7936, 128]⟩ : Shape), x5⟩,
          ⟨(⟨3, ![1, 7936, 128]⟩ : Shape), x6⟩] h (ix3 j R l)
      = (![x0, x1, x2, x3, x4, x5, x6] : Fin 7 → ((⟨3, ![1, 7936, 128]⟩ : Shape).Idx → α)) j (ix3 (0 : Fin 1) R l) := by
  have hi : ∀ b : Fin 3, b ≠ (0 : Fin 3) → ((ix3 (0 : Fin 1) R l) b).val = ((ix3 j R l) b).val := by
    intro b hb
    match b with
    | ⟨0, _⟩ => exact absurd rfl hb
    | ⟨1, _⟩ => rfl
    | ⟨2, _⟩ => rfl
  match j with
  | ⟨0, hj⟩ =>
    refine concatenate_apply_piece (t := (⟨3, ![7, 7936, 128]⟩ : Shape)) (0 : Fin 3) _ h (ix3 (⟨0, hj⟩ : Fin 7) R l) 0 ?_
      (⟨3, ![1, 7936, 128]⟩ : Shape) x0 rfl rfl 0 rfl (ix3 (0 : Fin 1) R l) hi rfl
    exact (by decide : (0 : ℕ) < 7)
  | ⟨1, hj⟩ =>
    refine concatenate_apply_piece (t := (⟨3, ![7, 7936, 128]⟩ : Shape)) (0 : Fin 3) _ h (ix3 (⟨1, hj⟩ : Fin 7) R l) 1 ?_
      (⟨3, ![1, 7936, 128]⟩ : Shape) x1 rfl rfl 1 rfl (ix3 (0 : Fin 1) R l) hi rfl
    exact (by decide : (1 : ℕ) < 7)
  | ⟨2, hj⟩ =>
    refine concatenate_apply_piece (t := (⟨3, ![7, 7936, 128]⟩ : Shape)) (0 : Fin 3) _ h (ix3 (⟨2, hj⟩ : Fin 7) R l) 2 ?_
      (⟨3, ![1, 7936, 128]⟩ : Shape) x2 rfl rfl 2 rfl (ix3 (0 : Fin 1) R l) hi rfl
    exact (by decide : (2 : ℕ) < 7)
  | ⟨3, hj⟩ =>
    refine concatenate_apply_piece (t := (⟨3, ![7, 7936, 128]⟩ : Shape)) (0 : Fin 3) _ h (ix3 (⟨3, hj⟩ : Fin 7) R l) 3 ?_
      (⟨3, ![1, 7936, 128]⟩ : Shape) x3 rfl rfl 3 rfl (ix3 (0 : Fin 1) R l) hi rfl
    exact (by decide : (3 : ℕ) < 7)
  | ⟨4, hj⟩ =>
    refine concatenate_apply_piece (t := (⟨3, ![7, 7936, 128]⟩ : Shape)) (0 : Fin 3) _ h (ix3 (⟨4, hj⟩ : Fin 7) R l) 4 ?_
      (⟨3, ![1, 7936, 128]⟩ : Shape) x4 rfl rfl 4 rfl (ix3 (0 : Fin 1) R l) hi rfl
    exact (by decide : (4 : ℕ) < 7)
  | ⟨5, hj⟩ =>
    refine concatenate_apply_piece (t := (⟨3, ![7, 7936, 128]⟩ : Shape)) (0 : Fin 3) _ h (ix3 (⟨5, hj⟩ : Fin 7) R l) 5 ?_
      (⟨3, ![1, 7936, 128]⟩ : Shape) x5 rfl rfl 5 rfl (ix3 (0 : Fin 1) R l) hi rfl
    exact (by decide : (5 : ℕ) < 7)
  | ⟨6, hj⟩ =>
    refine concatenate_apply_piece (t := (⟨3, ![7, 7936, 128]⟩ : Shape)) (0 : Fin 3) _ h (ix3 (⟨6, hj⟩ : Fin 7) R l) 6 ?_
      (⟨3, ![1, 7936, 128]⟩ : Shape) x6 rfl rfl 6 rfl (ix3 (0 : Fin 1) R l) hi rfl
    exact (by decide : (6 : ℕ) < 7)

/-! ## The stacked array the pipelined region reads -/

/-- Channel j of particle n: j = 0, 1, 2 the position's components, j = 3, 4, 5 the velocity's, j = 6 the mass;
    0 past the last particle. -/
def chan (a0 a1 : FVec Ideal ⟨2, ![1000000, 3]⟩ .f32) (a2 : FVec Ideal ⟨1, ![1000000]⟩ .f32) (j : Fin 7) (n : ℕ) : Cert.Mpm.R :=
  match j with
  | 0 => Cert.Mpm.chan3 a0 0 n
  | 1 => Cert.Mpm.chan3 a0 1 n
  | 2 => Cert.Mpm.chan3 a0 2 n
  | 3 => Cert.Mpm.chan3 a1 0 n
  | 4 => Cert.Mpm.chan3 a1 1 n
  | 5 => Cert.Mpm.chan3 a1 2 n
  | 6 => Cert.Mpm.chan1 a2 n

/-- The stacked [7, 7936, 128] array as the region finds it: entry (j, R, l) is channel j of particle 128·R + l. -/
theorem combined_apply (m : (ℓ : Loc nD τ sig) → Buf (Elt Ideal) ℓ) (c : Dev nD) (j : Fin 7) (R : Fin 7936) (l : Fin 128) :
    V (F := Ideal) m c main_v33 (ix3 j R l)
      = chan (m ((c : Thread nD τ).loc main_arg0)) (m ((c : Thread nD τ).loc main_arg1)) (m ((c : Thread nD τ).loc main_arg2))
          j (128 * R.val + l.val) := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append]
  simp (disch := decide) only [StableHlo.after_cons, StableHlo.after_nil,
    StableHlo.nullary_result', StableHlo.unary_result', StableHlo.binary_result', StableHlo.reshape_result', nary7_result',
    StableHlo.nullary_result_ne', StableHlo.unary_result_ne', StableHlo.binary_result_ne', StableHlo.reshape_result_ne',
    StableHlo.nary_result_ne']
  refine (stack7_apply _ _ _ _ _ _ _ _ j R l).trans ?_
  match j with
  | 0 =>
    exact columnSlab_apply (m ((c : Thread nD τ).loc main_arg0)) 0 ![0, 0] rfl rfl slices_S1000000x3_S1000000x1_0_0
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 1 =>
    exact columnSlab_apply (m ((c : Thread nD τ).loc main_arg0)) 1 ![0, 1] rfl rfl slices_S1000000x3_S1000000x1_0_1
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 2 =>
    exact columnSlab_apply (m ((c : Thread nD τ).loc main_arg0)) 2 ![0, 2] rfl rfl slices_S1000000x3_S1000000x1_0_2
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 3 =>
    exact columnSlab_apply (m ((c : Thread nD τ).loc main_arg1)) 0 ![0, 0] rfl rfl slices_S1000000x3_S1000000x1_0_0
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 4 =>
    exact columnSlab_apply (m ((c : Thread nD τ).loc main_arg1)) 1 ![0, 1] rfl rfl slices_S1000000x3_S1000000x1_0_1
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 5 =>
    exact columnSlab_apply (m ((c : Thread nD τ).loc main_arg1)) 2 ![0, 2] rfl rfl slices_S1000000x3_S1000000x1_0_2
      shapeCasts_S1000000x1_S1000000 (sitofp .f32 (constantI S_ 32 0#32) : FVec Ideal S_ .f32) padValue_apply pads_S1000000_S1015808_0158080 h_S_
      shapeCasts_S1015808_S7936x128 bcast_S7936x128_S1x7936x128_1_2 R l
  | 6 =>
    exact vectorSlab_apply (m ((c : Thread nD τ).loc main_arg2)) (sitofp .f32 (constantI S_ 32 0#32) : FVec Ideal S_ .f32) padValue_apply
      pads_S1000000_S1015808_0158080 h_S_ shapeCasts_S1015808_S7936x128 bcast_S7936x128_S1x7936x128_1_2 R l

end Cert.KernelIdeal.Input

end
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.KernelIdealTail.lean ====
/- The kernel program's host operations after its region, at the ideal instance: the five region results (the
   clamped node indices and the four per-row quantities, each laid out corner-major over zero-padded particles) are
   flattened to rows, the four quantities set side by side as the columns of one table, and the table's rows added
   into a zero array at their node indices. Read at an element, the result is the specification's sum. -/
import proofs.«152410_j40132174414020_2_alg».proof.Proof.Gen.KernelIdeal.Launch
import proofs.«152410_j40132174414020_2_alg».proof.Proof.Spec
import proofs.«152410_j40132174414020_2_alg».proof.Proof.LibScatterRows2
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.StableHlo

/-- A [8, 7936, 128] array as a list of 8126464 rows. -/
def flat {α : Type} (x : S8x7936x128.Idx → α) : S8126464.Idx → α :=
  shapeCast S8126464 x shapeCasts_S8x7936x128_S8126464

/-- A list of rows as a one-column table. -/
def col {α : Type} (x : S8126464.Idx → α) : S8126464x1.Idx → α :=
  broadcastInDim S8126464x1 ![0] bcast_S8126464_S8126464x1_0 x

/-- The tail's result as one term of the five region results: the four float arrays flattened and set side by side
    as the columns of an [8126464, 4] table, whose rows are added into the zero [2097152, 4] array at the rows of the
    flattened integer array. -/
def tailTerm (A1 : IVec S8x7936x128 32) (A2 A3 A4 A5 : FVec Ideal S8x7936x128 .f32) : FVec Ideal S2097152x4 .f32 :=
  Host.scatterAdd scatter_S2097152x4_S8126464x1_S8126464x4_1_0_0_1
    (broadcastInDim S2097152x4 ![] bcast_S_S2097152x4 (constant S_ .f32 0x00000000#32))
    (col (flat A1))
    (concatenate S8126464x4 1 [⟨S8126464x1, col (flat A2)⟩, ⟨S8126464x1, col (flat A3)⟩, ⟨S8126464x1, col (flat A4)⟩, ⟨S8126464x1, col (flat A5)⟩]
      concatenates_S8126464x1_S8126464x1_S8126464x1_S8126464x1_S8126464x4_d1)

attribute [local irreducible] Host.scatterAdd concatenate in
set_option maxRecDepth 8192 in
set_option maxHeartbeats 1600000 in
/-- After the fourteen operations the result buffer holds `tailTerm` of what the five region-result buffers held. -/
theorem tail_after (W : Valuation τ sig (Elt Ideal)) :
    StableHlo.after (hostOps1 (F := Ideal)) W (Proc.devRef .tc main_v47)
      = tailTerm (W (Proc.devRef .tc main_v34_0)) (W (Proc.devRef .tc main_v34_1)) (W (Proc.devRef .tc main_v34_2))
          (W (Proc.devRef .tc main_v34_3)) (W (Proc.devRef .tc main_v34_4)) := by
  simp only [after_cons, after_nil]
  rfl

/-! ## The rows at an index -/

section Layout
variable {α : Type}

/-- Row t of the flattened array: corner t / 1015808, then within the corner's 1015808 padded particles, row
    (t % 1015808) / 128 and lane (t % 1015808) % 128. -/
theorem flat_apply (x : S8x7936x128.Idx → α) (t : Fin 8126464) :
    flat x (ix1 t)
      = x (ix3 (⟨t.val / 1015808, by have := t.isLt; omega⟩ : Fin 8)
            (⟨t.val % 1015808 / 128, by have := t.isLt; omega⟩ : Fin 7936)
            (⟨t.val % 1015808 % 128, Nat.mod_lt _ (by norm_num)⟩ : Fin 128)) := by
  unfold flat
  refine shapeCast_apply _ _ (ix1 t) _ ?_
  rw [Shape.rowMajor_val_three, Shape.rowMajor_val_one]
  show (t.val / 1015808 * 7936 + t.val % 1015808 / 128) * 128 + t.val % 1015808 % 128 = t.val
  omega

/-- A one-column table read at (t, 0). -/
theorem col_apply (x : S8126464.Idx → α) (t : Fin 8126464) : col x (ix2 t (0 : Fin 1)) = x (ix1 t) :=
  broadcastInDim_apply _ _ _ (ix2 t (0 : Fin 1)) (ix1 t) (fun a => by
    match a with
    | ⟨0, _⟩ => rfl)

/-- Four columns side by side, read at (t, k): column k at row t. -/
theorem cat4_apply (x0 x1 x2 x3 : S8126464x1.Idx → α) (t : Fin 8126464) (k : Fin 4) :
    concatenate S8126464x4 1 [⟨S8126464x1, x0⟩, ⟨S8126464x1, x1⟩, ⟨S8126464x1, x2⟩, ⟨S8126464x1, x3⟩]
        concatenates_S8126464x1_S8126464x1_S8126464x1_S8126464x1_S8126464x4_d1 (ix2 t k)
      = (![x0, x1, x2, x3] k) (ix2 t (0 : Fin 1)) := by
  have hi : ∀ (j : S8126464x4.Idx), (j 0).val = t.val →
      ∀ b : Fin S8126464x1.rank, b.cast (rfl : S8126464x1.rank = S8126464x4.rank) ≠ (1 : Fin S8126464x4.rank) →
        ((ix2 t (0 : Fin 1) : S8126464x1.Idx) b).val = (j (b.cast rfl)).val := by
    intro j hj b hb
    match b with
    | ⟨0, _⟩ => exact hj.symm
    | ⟨1, _⟩ => exact absurd rfl hb
  match k with
  | ⟨0, _⟩ =>
    exact concatenate_apply_piece (t := S8126464x4) 1 _ _ (ix2 t (⟨0, by norm_num⟩ : Fin 4)) 0 (by show (0 : ℕ) < 4; omega) S8126464x1 x0 rfl rfl 0 rfl
      (ix2 t (0 : Fin 1)) (hi _ rfl) rfl
  | ⟨1, _⟩ =>
    exact concatenate_apply_piece (t := S8126464x4) 1 _ _ (ix2 t (⟨1, by norm_num⟩ : Fin 4)) 1 (by show (1 : ℕ) < 4; omega) S8126464x1 x1 rfl rfl 1 rfl
      (ix2 t (0 : Fin 1)) (hi _ rfl) rfl
  | ⟨2, _⟩ =>
    exact concatenate_apply_piece (t := S8126464x4) 1 _ _ (ix2 t (⟨2, by norm_num⟩ : Fin 4)) 2 (by show (2 : ℕ) < 4; omega) S8126464x1 x2 rfl rfl 2 rfl
      (ix2 t (0 : Fin 1)) (hi _ rfl) rfl
  | ⟨3, _⟩ =>
    exact concatenate_apply_piece (t := S8126464x4) 1 _ _ (ix2 t (⟨3, by norm_num⟩ : Fin 4)) 3 (by show (3 : ℕ) < 4; omega) S8126464x1 x3 rfl rfl 3 rfl
      (ix2 t (0 : Fin 1)) (hi _ rfl) rfl

end Layout

/-! ## The result at an element -/

/-- Given that the five region results hold, at corner k and padded particle 128·R + l, the specification's node index
    and four quantities, the tail's result is the specification's array: each element is the sum over the 8126464
    corner-major rows, and the padding rows add zero. -/
theorem tail_eq_G (a0 a1 : FVec Ideal ⟨2, ![1000000, 3]⟩ .f32) (a2 : FVec Ideal ⟨1, ![1000000]⟩ .f32)
    (A1 : IVec S8x7936x128 32) (A2 A3 A4 A5 : FVec Ideal S8x7936x128 .f32)
    (h1 : ∀ (k : Fin 8) (R : Fin 7936) (l : Fin 128), A1 (ix3 k R l) = Cert.Mpm.rowCell a0 k.val (128 * R.val + l.val))
    (h2 : ∀ (k : Fin 8) (R : Fin 7936) (l : Fin 128), A2 (ix3 k R l) = Cert.Mpm.rowMass a0 a2 k.val (128 * R.val + l.val))
    (h3 : ∀ (k : Fin 8) (R : Fin 7936) (l : Fin 128), A3 (ix3 k R l)
      = FloatOps.mulf (F := Ideal) (φ := .f32) (Cert.Mpm.rowMass a0 a2 k.val (128 * R.val + l.val)) (Cert.Mpm.chan3 a1 0 (128 * R.val + l.val)))
    (h4 : ∀ (k : Fin 8) (R : Fin 7936) (l : Fin 128), A4 (ix3 k R l)
      = FloatOps.mulf (F := Ideal) (φ := .f32) (Cert.Mpm.rowMass a0 a2 k.val (128 * R.val + l.val)) (Cert.Mpm.chan3 a1 1 (128 * R.val + l.val)))
    (h5 : ∀ (k : Fin 8) (R : Fin 7936) (l : Fin 128), A5 (ix3 k R l)
      = FloatOps.mulf (F := Ideal) (φ := .f32) (Cert.Mpm.rowMass a0 a2 k.val (128 * R.val + l.val)) (Cert.Mpm.chan3 a1 2 (128 * R.val + l.val))) :
    tailTerm A1 A2 A3 A4 A5 = Cert.Mpm.G a0 a1 a2 := by
  -- the padded particle of row t, recomposed from its row and lane
  have hn : ∀ t : Fin 8126464, 128 * (t.val % 1015808 / 128) + t.val % 1015808 % 128 = t.val % 1015808 :=
    fun t => Nat.div_add_mod _ _
  -- the index column and the four quantity columns at row t
  have hidx : ∀ t : Fin 8126464, col (flat A1) (ix2 t (0 : Fin 1)) = Cert.Mpm.rowCell a0 (t.val / 1015808) (t.val % 1015808) := by
    intro t
    rw [col_apply, flat_apply, h1]
    exact congrArg (Cert.Mpm.rowCell a0 (t.val / 1015808)) (hn t)
  have hupd : ∀ (t : Fin 8126464) (k : Fin 4),
      (![col (flat A2), col (flat A3), col (flat A4), col (flat A5)] k) (ix2 t (0 : Fin 1))
        = Cert.Mpm.rowPay a0 a1 a2 (t.val / 1015808) (t.val % 1015808) k := by
    intro t k
    match k with
    | ⟨0, _⟩ =>
      show col (flat A2) (ix2 t (0 : Fin 1)) = Cert.Mpm.rowMass a0 a2 (t.val / 1015808) (t.val % 1015808)
      rw [col_apply, flat_apply, h2]
      exact congrArg (Cert.Mpm.rowMass a0 a2 (t.val / 1015808)) (hn t)
    | ⟨1, _⟩ =>
      show col (flat A3) (ix2 t (0 : Fin 1))
        = FloatOps.mulf (Cert.Mpm.rowMass a0 a2 (t.val / 1015808) (t.val % 1015808)) (Cert.Mpm.chan3 a1 0 (t.val % 1015808))
      rw [col_apply, flat_apply, h3]
      exact congrArg (fun n => FloatOps.mulf (F := Ideal) (φ := .f32) (Cert.Mpm.rowMass a0 a2 (t.val / 1015808) n) (Cert.Mpm.chan3 a1 0 n)) (hn t)
    | ⟨2, _⟩ =>
      show col (flat A4) (ix2 t (0 : Fin 1))
        = FloatOps.mulf (Cert.Mpm.rowMass a0 a2 (t.val / 1015808) (t.val % 1015808)) (Cert.Mpm.chan3 a1 1 (t.val % 1015808))
      rw [col_apply, flat_apply, h4]
      exact congrArg (fun n => FloatOps.mulf (F := Ideal) (φ := .f32) (Cert.Mpm.rowMass a0 a2 (t.val / 1015808) n) (Cert.Mpm.chan3 a1 1 n)) (hn t)
    | ⟨3, _⟩ =>
      show col (flat A5) (ix2 t (0 : Fin 1))
        = FloatOps.mulf (Cert.Mpm.rowMass a0 a2 (t.val / 1015808) (t.val % 1015808)) (Cert.Mpm.chan3 a1 2 (t.val % 1015808))
      rw [col_apply, flat_apply, h5]
      exact congrArg (fun n => FloatOps.mulf (F := Ideal) (φ := .f32) (Cert.Mpm.rowMass a0 a2 (t.val / 1015808) n) (Cert.Mpm.chan3 a1 2 n)) (hn t)
  have key : ∀ (m : Fin 2097152) (k : Fin 4), tailTerm A1 A2 A3 A4 A5 (ix2 m k) = Cert.Mpm.G a0 a1 a2 (ix2 m k) := by
    intro m k
    rw [Cert.Mpm.G_ix2, ← Cert.Mpm.Gat_eq_cornerMajor a0 a1 a2 m k]
    unfold tailTerm
    refine (Cert.Lib.ScatterRows2.scatterAdd_rows_apply (M := 2097152) (T := 8126464) (C := 4)
      scatter_S2097152x4_S8126464x1_S8126464x4_1_0_0_1_wf _ _ _ m k).trans ?_
    rw [show broadcastInDim S2097152x4 ![] bcast_S_S2097152x4 (constant (F := Ideal) S_ .f32 0x00000000#32) (ix2 m k) = 0
      from Ideal.ofBits_zero_f32, zero_add]
    refine Finset.sum_congr rfl fun t _ => ?_
    rw [hidx t, cat4_apply, hupd t k]
    rfl
  funext i
  rw [eq_ix2 i]
  exact key (i 0) (i 1)

end Cert.KernelIdeal.Tail

end
-- ==== Proof.KernelIdealResult.lean ====
/-
  The idealized kernel program's result. After the region the five output arrays are whole-array functions of the
  stacked input array, and that array at (channel j, row R, lane l) is channel j of particle 128·R + l (0 past the
  1000000th). So the clipped cell numbers and the four payload columns, flattened corner-major, are the
  specification's per-(corner, particle) quantities, and the host's scatter-add of them into the zero array is the
  specification's result: the tail's term read at (cell, component) is the indicator sum over the 8 · 1015808 rows,
  which regroups into the sum over the 1000000 · 8 (particle, corner) pairs.
-/
import proofs.«152410_j40132174414020_2_alg».proof.Proof.KernelIdealArrays
import proofs.«152410_j40132174414020_2_alg».proof.Proof.KernelIdealInput
import proofs.«152410_j40132174414020_2_alg».proof.Proof.KernelIdealTail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

set_option maxHeartbeats 1600000 in
/-- What the host lines after the region leave in the result buffer: the specification's function of the three
    argument arrays. -/
theorem result_eq (c : Dev nD) :
    Pipeline.afterTail₀ cfgs (dats m) 0 (V0 m) [hostOps1] c main_v47
      = Cert.Mpm.G (m ((c : Thread nD τ).loc main_arg0)) (m ((c : Thread nD τ).loc main_arg1)) (m ((c : Thread nD τ).loc main_arg2)) := by
  unfold Pipeline.afterTail₀
  show StableHlo.after (hostOps1 (F := Ideal)) (Pipeline.withArrays spec0 c (V0 m c) fun w => (dats m 0 c).arrAt w cfg0.N) (Proc.devRef .tc main_v47) = _
  rw [Cert.KernelIdeal.Tail.tail_after]
  have w1 : Pipeline.withArrays spec0 c (V0 m c) (fun w => (dats m 0 c).arrAt w cfg0.N) (Proc.devRef .tc main_v34_0) = H1 (V m c main_v33) :=
    (Pipeline.withArrays_arr spec0 launch0.win.arr_inj c (V0 m c) (fun w => (dats m 0 c).arrAt w cfg0.N) 1).trans (final1 m c)
  have w2 : Pipeline.withArrays spec0 c (V0 m c) (fun w => (dats m 0 c).arrAt w cfg0.N) (Proc.devRef .tc main_v34_1) = H2 (V m c main_v33) :=
    (Pipeline.withArrays_arr spec0 launch0.win.arr_inj c (V0 m c) (fun w => (dats m 0 c).arrAt w cfg0.N) 2).trans (final2 m c)
  have w3 : Pipeline.withArrays spec0 c (V0 m c) (fun w => (dats m 0 c).arrAt w cfg0.N) (Proc.devRef .tc main_v34_2) = H3 (V m c main_v33) :=
    (Pipeline.withArrays_arr spec0 launch0.win.arr_inj c (V0 m c) (fun w => (dats m 0 c).arrAt w cfg0.N) 3).trans (final3 m c)
  have w4 : Pipeline.withArrays spec0 c (V0 m c) (fun w => (dats m 0 c).arrAt w cfg0.N) (Proc.devRef .tc main_v34_3) = H4 (V m c main_v33) :=
    (Pipeline.withArrays_arr spec0 launch0.win.arr_inj c (V0 m c) (fun w => (dats m 0 c).arrAt w cfg0.N) 4).trans (final4 m c)
  have w5 : Pipeline.withArrays spec0 c (V0 m c) (fun w => (dats m 0 c).arrAt w cfg0.N) (Proc.devRef .tc main_v34_4) = H5 (V m c main_v33) :=
    (Pipeline.withArrays_arr spec0 launch0.win.arr_inj c (V0 m c) (fun w => (dats m 0 c).arrAt w cfg0.N) 5).trans (final5 m c)
  rw [w1, w2, w3, w4, w5]
  refine Cert.KernelIdeal.Tail.tail_eq_G _ _ _ _ _ _ _ _ ?_ ?_ ?_ ?_ ?_
  · intro k R l
    show Cert.Mpm.cell ((V m c main_v33 : S7x7936x128.Idx → Cert.Mpm.R) (ix3 (0 : Fin 7) R l)) ((V m c main_v33 : S7x7936x128.Idx → Cert.Mpm.R) (ix3 (1 : Fin 7) R l)) ((V m c main_v33 : S7x7936x128.Idx → Cert.Mpm.R) (ix3 (2 : Fin 7) R l)) (Cert.Mpm.offs k.val 0) (Cert.Mpm.offs k.val 1) (Cert.Mpm.offs k.val 2) = _
    rw [Cert.KernelIdeal.Input.combined_apply m c (0 : Fin 7) R l, Cert.KernelIdeal.Input.combined_apply m c (1 : Fin 7) R l, Cert.KernelIdeal.Input.combined_apply m c (2 : Fin 7) R l]
    rfl
  · intro k R l
    show Cert.Mpm.smass ((V m c main_v33 : S7x7936x128.Idx → Cert.Mpm.R) (ix3 (0 : Fin 7) R l)) ((V m c main_v33 : S7x7936x128.Idx → Cert.Mpm.R) (ix3 (1 : Fin 7) R l)) ((V m c main_v33 : S7x7936x128.Idx → Cert.Mpm.R) (ix3 (2 : Fin 7) R l)) (Cert.Mpm.offs k.val 0) (Cert.Mpm.offs k.val 1) (Cert.Mpm.offs k.val 2) ((V m c main_v33 : S7x7936x128.Idx → Cert.Mpm.R) (ix3 (6 : Fin 7) R l)) = _
    rw [Cert.KernelIdeal.Input.combined_apply m c (0 : Fin 7) R l, Cert.KernelIdeal.Input.combined_apply m c (1 : Fin 7) R l, Cert.KernelIdeal.Input.combined_apply m c (2 : Fin 7) R l, Cert.KernelIdeal.Input.combined_apply m c (6 : Fin 7) R l]
    rfl
  · intro k R l
    show FloatOps.mulf (F := Ideal) (φ := .f32) (Cert.Mpm.smass ((V m c main_v33 : S7x7936x128.Idx → Cert.Mpm.R) (ix3 (0 : Fin 7) R l)) ((V m c main_v33 : S7x7936x128.Idx → Cert.Mpm.R) (ix3 (1 : Fin 7) R l)) ((V m c main_v33 : S7x7936x128.Idx → Cert.Mpm.R) (ix3 (2 : Fin 7) R l)) (Cert.Mpm.offs k.val 0) (Cert.Mpm.offs k.val 1) (Cert.Mpm.offs k.val 2) ((V m c main_v33 : S7x7936x128.Idx → Cert.Mpm.R) (ix3 (6 : Fin 7) R l))) ((V m c main_v33 : S7x7936x128.Idx → Cert.Mpm.R) (ix3 (3 : Fin 7) R l)) = _
    rw [Cert.KernelIdeal.Input.combined_apply m c (0 : Fin 7) R l, Cert.KernelIdeal.Input.combined_apply m c (1 : Fin 7) R l, Cert.KernelIdeal.Input.combined_apply m c (2 : Fin 7) R l, Cert.KernelIdeal.Input.combined_apply m c (6 : Fin 7) R l, Cert.KernelIdeal.Input.combined_apply m c (3 : Fin 7) R l]
    rfl
  · intro k R l
    show FloatOps.mulf (F := Ideal) (φ := .f32) (Cert.Mpm.smass ((V m c main_v33 : S7x7936x128.Idx → Cert.Mpm.R) (ix3 (0 : Fin 7) R l)) ((V m c main_v33 : S7x7936x128.Idx → Cert.Mpm.R) (ix3 (1 : Fin 7) R l)) ((V m c main_v33 : S7x7936x128.Idx → Cert.Mpm.R) (ix3 (2 : Fin 7) R l)) (Cert.Mpm.offs k.val 0) (Cert.Mpm.offs k.val 1) (Cert.Mpm.offs k.val 2) ((V m c main_v33 : S7x7936x128.Idx → Cert.Mpm.R) (ix3 (6 : Fin 7) R l))) ((V m c main_v33 : S7x7936x128.Idx → Cert.Mpm.R) (ix3 (4 : Fin 7) R l)) = _
    rw [Cert.KernelIdeal.Input.combined_apply m c (0 : Fin 7) R l, Cert.KernelIdeal.Input.combined_apply m c (1 : Fin 7) R l, Cert.KernelIdeal.Input.combined_apply m c (2 : Fin 7) R l, Cert.KernelIdeal.Input.combined_apply m c (6 : Fin 7) R l, Cert.KernelIdeal.Input.combined_apply m c (4 : Fin 7) R l]
    rfl
  · intro k R l
    show FloatOps.mulf (F := Ideal) (φ := .f32) (Cert.Mpm.smass ((V m c main_v33 : S7x7936x128.Idx → Cert.Mpm.R) (ix3 (0 : Fin 7) R l)) ((V m c main_v33 : S7x7936x128.Idx → Cert.Mpm.R) (ix3 (1 : Fin 7) R l)) ((V m c main_v33 : S7x7936x128.Idx → Cert.Mpm.R) (ix3 (2 : Fin 7) R l)) (Cert.Mpm.offs k.val 0) (Cert.Mpm.offs k.val 1) (Cert.Mpm.offs k.val 2) ((V m c main_v33 : S7x7936x128.Idx → Cert.Mpm.R) (ix3 (6 : Fin 7) R l))) ((V m c main_v33 : S7x7936x128.Idx → Cert.Mpm.R) (ix3 (5 : Fin 7) R l)) = _
    rw [Cert.KernelIdeal.Input.combined_apply m c (0 : Fin 7) R l, Cert.KernelIdeal.Input.combined_apply m c (1 : Fin 7) R l, Cert.KernelIdeal.Input.combined_apply m c (2 : Fin 7) R l, Cert.KernelIdeal.Input.combined_apply m c (6 : Fin 7) R l, Cert.KernelIdeal.Input.combined_apply m c (5 : Fin 7) R l]
    rfl

/-- The idealized kernel program's run, read: the result buffer at the specification's function of the launch
    contents of the three arguments, the arguments unchanged. -/
theorem run_value : θ_run defs (onTc (τ := τ) (main (F := Ideal))) ⟨m, fun _ => 0, ρ⟩ (fun r => ∀ c : Dev nD,
      r.2.mem ((c.tc : Thread nD τ).loc main_v47)
        = Cert.Mpm.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v47 (Pipeline.mem_restRefs_of main_v47 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefRun.lean ====
/- The reference program's @main as a straight line of host operations, and its run read back.
   The three module-local functions the reference calls (a masked select at two shapes, and a clamp) are
   written inline at their call sites, over the buffers each call names. -/
import proofs.«152410_j40132174414020_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of @main: the position in cell units, the eight corner nodes of the enclosing cell, the
    distance to each, the node index of each corner, the trilinear weight, the in-range mask and the masked
    weight (the masked select's three operations inline), then the first lines of the weight's gradient. -/
abbrev ops0 : List (HloOp τ sig (Elt F)) :=
  [ StableHlo.nullary main_cst (constant S3 .f32 0x00000000#32),
    StableHlo.nullary main_c (fun i => lit0 (S8x3.rowMajor i)),
    StableHlo.unary main_cst main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S1000000x3 ![0, 1] bcast_S1x3_S1000000x3_0_1 : (⟨S1x3, .f32⟩ : BufTy).Contents (Elt F) → (⟨S1000000x3, .f32⟩ : BufTy).Contents (Elt F)),
    StableHlo.binary main_arg0 main_v1 main_v2 (subf : (⟨S1000000x3, .f32⟩ : BufTy).Contents (Elt F) → (⟨S1000000x3, .f32⟩ : BufTy).Contents (Elt F) → (⟨S1000000x3, .f32⟩ : BufTy).Contents (Elt F)),
    StableHlo.nullary main_cst_0 (constant S_ .f32 0x42800000#32),
    StableHlo.unary main_cst_0 main_v3 (broadcastInDim S1000000x3 ![] bcast_S_S1000000x3 : (⟨S_, .f32⟩ : BufTy).Contents (Elt F) → (⟨S1000000x3, .f32⟩ : BufTy).Contents (Elt F)),
    StableHlo.binary main_v2 main_v3 main_v4 (mulf : (⟨S1000000x3, .f32⟩ : BufTy).Contents (Elt F) → (⟨S1000000x3, .f32⟩ : BufTy).Contents (Elt F) → (⟨S1000000x3, .f32⟩ : BufTy).Contents (Elt F)),
    StableHlo.unary main_v4 main_v5 (Host.floor : (⟨S1000000x3, .f32⟩ : BufTy).Contents (Elt F) → (⟨S1000000x3, .f32⟩ : BufTy).Contents (Elt F)),
    StableHlo.unary main_v5 main_v6 (broadcastInDim S1000000x1x3 ![0, 2] bcast_S1000000x3_S1000000x1x3_0_2 : (⟨S1000000x3, .f32⟩ : BufTy).Contents (Elt F) → (⟨S1000000x1x3, .f32⟩ : BufTy).Contents (Elt F)),
    StableHlo.unary main_c main_v7 (broadcastInDim S1x8x3 ![1, 2] bcast_S8x3_S1x8x3_1_2 : (⟨S8x3, .i32⟩ : BufTy).Contents (Elt F) → (⟨S1x8x3, .i32⟩ : BufTy).Contents (Elt F)),
    StableHlo.unary main_v7 main_v8 (sitofp .f32 : (⟨S1x8x3, .i32⟩ : BufTy).Contents (Elt F) → (⟨S1x8x3, .f32⟩ : BufTy).Contents (Elt F)),
    StableHlo.unary main_v6 main_v9 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    StableHlo.unary main_v8 main_v10 (broadcastInDim S1000000x8x3 ![0, 1, 2] bcast_S1x8x3_S1000000x8x3_0_1_2 : (⟨S1x8x3, .f32⟩ : BufTy).Contents (Elt F) → (⟨S1000000x8x3, .f32⟩ : BufTy).Contents (Elt F)),
    StableHlo.binary main_v9 main_v10 main_v11 (addf : (⟨S1000000x8x3, .f32⟩ : BufTy).Contents (Elt F) → (⟨S1000000x8x3, .f32⟩ : BufTy).Contents (Elt F) → (⟨S1000000x8x3, .f32⟩ : BufTy).Contents (Elt F)),
    StableHlo.unary main_v4 main_v12 (broadcastInDim S1000000x1x3 ![0, 2] bcast_S1000000x3_S1000000x1x3_0_2 : (⟨S1000000x3, .f32⟩ : BufTy).Contents (Elt F) → (⟨S1000000x1x3, .f32⟩ : BufTy).Contents (Elt F)),
    StableHlo.unary main_v12 main_v13 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    StableHlo.binary main_v13 main_v11 main_v14 (subf : (⟨S1000000x8x3, .f32⟩ : BufTy).Contents (Elt F) → (⟨S1000000x8x3, .f32⟩ : BufTy).Contents (Elt F) → (⟨S1000000x8x3, .f32⟩ : BufTy).Contents (Elt F)),
    StableHlo.unary main_v11 main_v15 (fptosi 32 : (⟨S1000000x8x3, .f32⟩ : BufTy).Contents (Elt F) → (⟨S1000000x8x3, .i32⟩ : BufTy).Contents (Elt F)),
    StableHlo.unary main_v15 main_v16 ((extractStridedSlice S1000000x8x1 ![0, 0, 2] · slices_S1000000x8x3_S1000000x8x1_0_0_2) : (⟨S1000000x8x3, .i32⟩ : BufTy).Contents (Elt F) → (⟨S1000000x8x1, .i32⟩ : BufTy).Contents (Elt F)),
    StableHlo.reshape main_v16 main_v17 rfl shapeCasts_S1000000x8x1_S1000000x8,
    StableHlo.unary main_v15 main_v18 ((extractStridedSlice S1000000x8x1 ![0, 0, 0] · slices_S1000000x8x3_S1000000x8x1_0_0_0) : (⟨S1000000x8x3, .i32⟩ : BufTy).Contents (Elt F) → (⟨S1000000x8x1, .i32⟩ : BufTy).Contents (Elt F)),
    StableHlo.reshape main_v18 main_v19 rfl shapeCasts_S1000000x8x1_S1000000x8,
    StableHlo.nullary main_c_1 (constantI S_ 32 128#32),
    StableHlo.unary main_c_1 main_v20 (broadcastInDim S1000000x8 ![] bcast_S_S1000000x8 : (⟨S_, .i32⟩ : BufTy).Contents (Elt F) → (⟨S1000000x8, .i32⟩ : BufTy).Contents (Elt F)),
    StableHlo.binary main_v19 main_v20 main_v21 (muli : (⟨S1000000x8, .i32⟩ : BufTy).Contents (Elt F) → (⟨S1000000x8, .i32⟩ : BufTy).Contents (Elt F) → (⟨S1000000x8, .i32⟩ : BufTy).Contents (Elt F)),
    StableHlo.binary main_v17 main_v21 main_v22 (addi : (⟨S1000000x8, .i32⟩ : BufTy).Contents (Elt F) → (⟨S1000000x8, .i32⟩ : BufTy).Contents (Elt F) → (⟨S1000000x8, .i32⟩ : BufTy).Contents (Elt F)),
    StableHlo.unary main_v15 main_v23 ((extractStridedSlice S1000000x8x1 ![0, 0, 1] · slices_S1000000x8x3_S1000000x8x1_0_0_1) : (⟨S1000000x8x3, .i32⟩ : BufTy).Contents (Elt F) → (⟨S1000000x8x1, .i32⟩ : BufTy).Contents (Elt F)),
    StableHlo.reshape main_v23 main_v24 rfl shapeCasts_S1000000x8x1_S1000000x8,
    StableHlo.nullary main_c_2 (constantI S_ 32 16384#32),
    StableHlo.unary main_c_2 main_v25 (broadcastInDim S1000000x8 ![] bcast_S_S1000000x8 : (⟨S_, .i32⟩ : BufTy).Contents (Elt F) → (⟨S1000000x8, .i32⟩ : BufTy).Contents (Elt F)),
    StableHlo.binary main_v24 main_v25 main_v26 (muli : (⟨S1000000x8, .i32⟩ : BufTy).Contents (Elt F) → (⟨S1000000x8, .i32⟩ : BufTy).Contents (Elt F) → (⟨S1000000x8, .i32⟩ : BufTy).Contents (Elt F)),
    StableHlo.binary main_v22 main_v26 main_v27 (addi : (⟨S1000000x8, .i32⟩ : BufTy).Contents (Elt F) → (⟨S1000000x8, .i32⟩ : BufTy).Contents (Elt F) → (⟨S1000000x8, .i32⟩ : BufTy).Contents (Elt F)),
    StableHlo.unary main_v14 main_v28 (Host.absf : (⟨S1000000x8x3, .f32⟩ : BufTy).Contents (Elt F) → (⟨S1000000x8x3, .f32⟩ : BufTy).Contents (Elt F)),
    StableHlo.nullary main_cst_3 (constant S_ .f32 0x3F800000#32),
    StableHlo.unary main_cst_3 main_v29 (broadcastInDim S1000000x8x3 ![] bcast_S_S1000000x8x3 : (⟨S_, .f32⟩ : BufTy).Contents (Elt F) → (⟨S1000000x8x3, .f32⟩ : BufTy).Contents (Elt F)),
    StableHlo.binary main_v29 main_v28 main_v30 (subf : (⟨S1000000x8x3, .f32⟩ : BufTy).Contents (Elt F) → (⟨S1000000x8x3, .f32⟩ : BufTy).Contents (Elt F) → (⟨S1000000x8x3, .f32⟩ : BufTy).Contents (Elt F)),
    StableHlo.unary main_v30 main_v31 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    StableHlo.reshape main_v31 main_v32 rfl shapeCasts_S1000000x8x1_S1000000x8,
    StableHlo.unary main_v30 main_v33 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    StableHlo.reshape main_v33 main_v34 rfl shapeCasts_S1000000x8x1_S1000000x8,
    StableHlo.binary main_v32 main_v34 main_v35 (mulf : (⟨S1000000x8, .f32⟩ : BufTy).Contents (Elt F) → (⟨S1000000x8, .f32⟩ : BufTy).Contents (Elt F) → (⟨S1000000x8, .f32⟩ : BufTy).Contents (Elt F)),
    StableHlo.unary main_v30 main_v36 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    StableHlo.reshape main_v36 main_v37 rfl shapeCasts_S1000000x8x1_S1000000x8,
    StableHlo.binary main_v35 main_v37 main_v38 (mulf : (⟨S1000000x8, .f32⟩ : BufTy).Contents (Elt F) → (⟨S1000000x8, .f32⟩ : BufTy).Contents (Elt F) → (⟨S1000000x8, .f32⟩ : BufTy).Contents (Elt F)),
    StableHlo.nullary main_c_4 (constantI S_ 32 0#32),
    StableHlo.unary main_c_4 main_v39 (broadcastInDim S1000000x8 ![] bcast_S_S1000000x8 : (⟨S_, .i32⟩ : BufTy).Contents (Elt F) → (⟨S1000000x8, .i32⟩ : BufTy).Contents (Elt F)),
    StableHlo.binary main_v27 main_v39 main_v40 (cmpi .sge : (⟨S1000000x8, .i32⟩ : BufTy).Contents (Elt F) → (⟨S1000000x8, .i32⟩ : BufTy).Contents (Elt F) → (⟨S1000000x8, .i1⟩ : BufTy).Contents (Elt F)),
    StableHlo.nullary main_c_5 (constantI S_ 32 2097152#32),
    StableHlo.unary main_c_5 main_v41 (broadcastInDim S1000000x8 ![] bcast_S_S1000000x8 : (⟨S_, .i32⟩ : BufTy).Contents (Elt F) → (⟨S1000000x8, .i32⟩ : BufTy).Contents (Elt F)),
    StableHlo.binary main_v27 main_v41 main_v42 (cmpi .slt : (⟨S1000000x8, .i32⟩ : BufTy).Contents (Elt F) → (⟨S1000000x8, .i32⟩ : BufTy).Contents (Elt F) → (⟨S1000000x8, .i1⟩ : BufTy).Contents (Elt F)),
    StableHlo.binary main_v40 main_v42 main_v43 (andi : (⟨S1000000x8, .i1⟩ : BufTy).Contents (Elt F) → (⟨S1000000x8, .i1⟩ : BufTy).Contents (Elt F) → (⟨S1000000x8, .i1⟩ : BufTy).Contents (Elt F)),
    StableHlo.nullary main_cst_6 (constant S_ .f32 0x00000000#32),
    StableHlo.TRef.unary (.of main_cst_6 : TRef sig ⟨S_, .f32⟩) main_call0.v0 id,
    StableHlo.TRef.unary main_call0.v0 main_call0.v1 (broadcastInDim S1000000x8 ![] bcast_S_S1000000x8),
    StableHlo.TRef.ternary (.of main_v43 : TRef sig ⟨S1000000x8, .i1⟩) (.of main_v38 : TRef sig ⟨S1000000x8, .f32⟩) main_call0.v1 main_call0.v2 select,
    StableHlo.unary main_v14 main_v45 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    StableHlo.reshape main_v45 main_v46 rfl shapeCasts_S1000000x8x1_S1000000x8,
    StableHlo.unary main_v46 main_v47 (Host.sign : (⟨S1000000x8, .f32⟩ : BufTy).Contents (Elt F) → (⟨S1000000x8, .f32⟩ : BufTy).Contents (Elt F)),
    StableHlo.unary main_v47 main_v48 (Host.negf : (⟨S1000000x8, .f32⟩ : BufTy).Contents (Elt F) → (⟨S1000000x8, .f32⟩ : BufTy).Contents (Elt F)),
    StableHlo.unary main_v30 main_v49 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    StableHlo.reshape main_v49 main_v50 rfl shapeCasts_S1000000x8x1_S1000000x8 ]

/-- The second window of @main: the rest of the weight's gradient (its masked select's four operations inline),
    the node index clamped to the grid (the clamp's six operations inline), the weight times the mass, the two
    scatter-additions over the eight million (point, corner) rows and their concatenation. -/
abbrev ops1 : List (HloOp τ sig (Elt F)) :=
  [ StableHlo.binary main_v48 main_v50 main_v51 (mulf : (⟨S1000000x8, .f32⟩ : BufTy).Contents (Elt F) → (⟨S1000000x8, .f32⟩ : BufTy).Contents (Elt F) → (⟨S1000000x8, .f32⟩ : BufTy).Contents (Elt F)),
    StableHlo.unary main_v30 main_v52 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    StableHlo.reshape main_v52 main_v53 rfl shapeCasts_S1000000x8x1_S1000000x8,
    StableHlo.binary main_v51 main_v53 main_v54 (mulf : (⟨S1000000x8, .f32⟩ : BufTy).Contents (Elt F) → (⟨S1000000x8, .f32⟩ : BufTy).Contents (Elt F) → (⟨S1000000x8, .f32⟩ : BufTy).Contents (Elt F)),
    StableHlo.unary main_v14 main_v55 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    StableHlo.reshape main_v55 main_v56 rfl shapeCasts_S1000000x8x1_S1000000x8,
    StableHlo.unary main_v56 main_v57 (Host.sign : (⟨S1000000x8, .f32⟩ : BufTy).Contents (Elt F) → (⟨S1000000x8, .f32⟩ : BufTy).Contents (Elt F)),
    StableHlo.unary main_v57 main_v58 (Host.negf : (⟨S1000000x8, .f32⟩ : BufTy).Contents (Elt F) → (⟨S1000000x8, .f32⟩ : BufTy).Contents (Elt F)),
    StableHlo.unary main_v30 main_v59 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    StableHlo.reshape main_v59 main_v60 rfl shapeCasts_S1000000x8x1_S1000000x8,
    StableHlo.binary main_v58 main_v60 main_v61 (mulf : (⟨S1000000x8, .f32⟩ : BufTy).Contents (Elt F) → (⟨S1000000x8, .f32⟩ : BufTy).Contents (Elt F) → (⟨S1000000x8, .f32⟩ : BufTy).Contents (Elt F)),
    StableHlo.unary main_v30 main_v62 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    StableHlo.reshape main_v62 main_v63 rfl shapeCasts_S1000000x8x1_S1000000x8,
    StableHlo.binary main_v61 main_v63 main_v64 (mulf : (⟨S1000000x8, .f32⟩ : BufTy).Contents (Elt F) → (⟨S1000000x8, .f32⟩ : BufTy).Contents (Elt F) → (⟨S1000000x8, .f32⟩ : BufTy).Contents (Elt F)),
    StableHlo.unary main_v14 main_v65 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    StableHlo.reshape main_v65 main_v66 rfl shapeCasts_S1000000x8x1_S1000000x8,
    StableHlo.unary main_v66 main_v67 (Host.sign : (⟨S1000000x8, .f32⟩ : BufTy).Contents (Elt F) → (⟨S1000000x8, .f32⟩ : BufTy).Contents (Elt F)),
    StableHlo.unary main_v67 main_v68 (Host.negf : (⟨S1000000x8, .f32⟩ : BufTy).Contents (Elt F) → (⟨S1000000x8, .f32⟩ : BufTy).Contents (Elt F)),
    StableHlo.unary main_v30 main_v69 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    StableHlo.reshape main_v69 main_v70 rfl shapeCasts_S1000000x8x1_S1000000x8,
    StableHlo.binary main_v68 main_v70 main_v71 (mulf : (⟨S1000000x8, .f32⟩ : BufTy).Contents (Elt F) → (⟨S1000000x8, .f32⟩ : BufTy).Contents (Elt F) → (⟨S1000000x8, .f32⟩ : BufTy).Contents (Elt F)),
    StableHlo.unary main_v30 main_v72 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    StableHlo.reshape main_v72 main_v73 rfl shapeCasts_S1000000x8x1_S1000000x8,
    StableHlo.binary main_v71 main_v73 main_v74 (mulf : (⟨S1000000x8, .f32⟩ : BufTy).Contents (Elt F) → (⟨S1000000x8, .f32⟩ : BufTy).Contents (Elt F) → (⟨S1000000x8, .f32⟩ : BufTy).Contents (Elt F)),
    StableHlo.unary main_v54 main_v75 (broadcastInDim S1000000x8x1 ![0, 1] bcast_S1000000x8_S1000000x8x1_0_1 : (⟨S1000000x8, .f32⟩ : BufTy).Contents (Elt F) → (⟨S1000000x8x1, .f32⟩ : BufTy).Contents (Elt F)),
    StableHlo.unary main_v64 main_v76 (broadcastInDim S1000000x8x1 ![0, 1] bcast_S1000000x8_S1000000x8x1_0_1 : (⟨S1000000x8, .f32⟩ : BufTy).Contents (Elt F) → (⟨S1000000x8x1, .f32⟩ : BufTy).Contents (Elt F)),
    StableHlo.unary main_v74 main_v77 (broadcastInDim S1000000x8x1 ![0, 1] bcast_S1000000x8_S1000000x8x1_0_1 : (⟨S1000000x8, .f32⟩ : BufTy).Contents (Elt F) → (⟨S1000000x8x1, .f32⟩ : BufTy).Contents (Elt F)),
    StableHlo.nary ![main_v75, main_v76, main_v77] main_v78 (fun u => concatenate S1000000x8x3 2 [⟨S1000000x8x1, u 0⟩, ⟨S1000000x8x1, u 1⟩, ⟨S1000000x8x1, u 2⟩] concatenates_S1000000x8x1_S1000000x8x1_S1000000x8x1_S1000000x8x3_d2),
    StableHlo.nullary main_cst_7 (constant S_ .f32 0x42800000#32),
    StableHlo.unary main_cst_7 main_v79 (broadcastInDim S1000000x8x3 ![] bcast_S_S1000000x8x3 : (⟨S_, .f32⟩ : BufTy).Contents (Elt F) → (⟨S1000000x8x3, .f32⟩ : BufTy).Contents (Elt F)),
    StableHlo.binary main_v78 main_v79 main_v80 (mulf : (⟨S1000000x8x3, .f32⟩ : BufTy).Contents (Elt F) → (⟨S1000000x8x3, .f32⟩ : BufTy).Contents (Elt F) → (⟨S1000000x8x3, .f32⟩ : BufTy).Contents (Elt F)),
    StableHlo.unary main_v43 main_v81 (broadcastInDim S1000000x8x1 ![0, 1] bcast_S1000000x8_S1000000x8x1_0_1 : (⟨S1000000x8, .i1⟩ : BufTy).Contents (Elt F) → (⟨S1000000x8x1, .i1⟩ : BufTy).Contents (Elt F)),
    StableHlo.nullary main_cst_8 (constant S_ .f32 0x00000000#32),
    StableHlo.TRef.unary (.of main_cst_8 : TRef sig ⟨S_, .f32⟩) main_call1.v0 id,
    StableHlo.TRef.unary (.of main_v81 : TRef sig ⟨S1000000x8x1, .i1⟩) main_call1.v1 (broadcastInDim S1000000x8x3 ![0, 1, 2] bcast_S1000000x8x1_S1000000x8x3_0_1_2),
    StableHlo.TRef.unary main_call1.v0 main_call1.v2 (broadcastInDim S1000000x8x3 ![] bcast_S_S1000000x8x3),
    StableHlo.TRef.ternary main_call1.v1 (.of main_v80 : TRef sig ⟨S1000000x8x3, .f32⟩) main_call1.v2 main_call1.v3 select,
    StableHlo.nullary main_c_9 (constantI S_ 32 0#32),
    StableHlo.nullary main_c_10 (constantI S_ 32 2097151#32),
    StableHlo.TRef.unary (.of main_c_9 : TRef sig ⟨S_, .i32⟩) main_call2.v0 id,
    StableHlo.TRef.unary main_call2.v0 main_call2.v1 (broadcastInDim S1000000x8 ![] bcast_S_S1000000x8),
    StableHlo.TRef.binary main_call2.v1 (.of main_v27 : TRef sig ⟨S1000000x8, .i32⟩) main_call2.v2 maxsi,
    StableHlo.TRef.unary (.of main_c_10 : TRef sig ⟨S_, .i32⟩) main_call2.v3 id,
    StableHlo.TRef.unary main_call2.v3 main_call2.v4 (broadcastInDim S1000000x8 ![] bcast_S_S1000000x8),
    StableHlo.TRef.binary main_call2.v4 main_call2.v2 main_call2.v5 minsi,
    StableHlo.reshape main_v83 main_v84 rfl shapeCasts_S1000000x8_S8000000,
    StableHlo.unary main_arg2 main_v85 (broadcastInDim S1000000x1 ![0] bcast_S1000000_S1000000x1_0 : (⟨S1000000, .f32⟩ : BufTy).Contents (Elt F) → (⟨S1000000x1, .f32⟩ : BufTy).Contents (Elt F)),
    StableHlo.unary main_v85 main_v86 (broadcastInDim S1000000x8 ![0, 1] bcast_S1000000x1_S1000000x8_0_1 : (⟨S1000000x1, .f32⟩ : BufTy).Contents (Elt F) → (⟨S1000000x8, .f32⟩ : BufTy).Contents (Elt F)),
    StableHlo.binary main_v44 main_v86 main_v87 (mulf : (⟨S1000000x8, .f32⟩ : BufTy).Contents (Elt F) → (⟨S1000000x8, .f32⟩ : BufTy).Contents (Elt F) → (⟨S1000000x8, .f32⟩ : BufTy).Contents (Elt F)),
    StableHlo.reshape main_v87 main_v88 rfl shapeCasts_S1000000x8_S8000000,
    StableHlo.nullary main_cst_11 (constant S_ .f32 0x00000000#32),
    StableHlo.unary main_cst_11 main_v89 (broadcastInDim S2097152 ![] bcast_S_S2097152 : (⟨S_, .f32⟩ : BufTy).Contents (Elt F) → (⟨S2097152, .f32⟩ : BufTy).Contents (Elt F)),
    StableHlo.unary main_v84 main_v90 (broadcastInDim S8000000x1 ![0] bcast_S8000000_S8000000x1_0 : (⟨S8000000, .i32⟩ : BufTy).Contents (Elt F) → (⟨S8000000x1, .i32⟩ : BufTy).Contents (Elt F)),
    StableHlo.ternary main_v89 main_v90 main_v88 main_v91 ((fun x i u => Host.scatterAdd scatter_S2097152_S8000000x1_S8000000_n_0_0_1 x i u) : (⟨S2097152, .f32⟩ : BufTy).Contents (Elt F) → (⟨S8000000x1, .i32⟩ : BufTy).Contents (Elt F) → (⟨S8000000, .f32⟩ : BufTy).Contents (Elt F) → (⟨S2097152, .f32⟩ : BufTy).Contents (Elt F)),
    StableHlo.unary main_v87 main_v92 (broadcastInDim S1000000x8x1 ![0, 1] bcast_S1000000x8_S1000000x8x1_0_1 : (⟨S1000000x8, .f32⟩ : BufTy).Contents (Elt F) → (⟨S1000000x8x1, .f32⟩ : BufTy).Contents (Elt F)),
    StableHlo.unary main_arg1 main_v93 (broadcastInDim S1000000x1x3 ![0, 2] bcast_S1000000x3_S1000000x1x3_0_2 : (⟨S1000000x3, .f32⟩ : BufTy).Contents (Elt F) → (⟨S1000000x1x3, .f32⟩ : BufTy).Contents (Elt F)),
    StableHlo.unary main_v92 main_v94 (broadcastInDim S1000000x8x3 ![0, 1, 2] bcast_S1000000x8x1_S1000000x8x3_0_1_2 : (⟨S1000000x8x1, .f32⟩ : BufTy).Contents (Elt F) → (⟨S1000000x8x3, .f32⟩ : BufTy).Contents (Elt F)),
    StableHlo.unary main_v93 main_v95 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    StableHlo.binary main_v94 main_v95 main_v96 (mulf : (⟨S1000000x8x3, .f32⟩ : BufTy).Contents (Elt F) → (⟨S1000000x8x3, .f32⟩ : BufTy).Contents (Elt F) → (⟨S1000000x8x3, .f32⟩ : BufTy).Contents (Elt F)),
    StableHlo.reshape main_v96 main_v97 rfl shapeCasts_S1000000x8x3_S8000000x3,
    StableHlo.nullary main_cst_12 (constant S_ .f32 0x00000000#32),
    StableHlo.unary main_cst_12 main_v98 (broadcastInDim S2097152x3 ![] bcast_S_S2097152x3 : (⟨S_, .f32⟩ : BufTy).Contents (Elt F) → (⟨S2097152x3, .f32⟩ : BufTy).Contents (Elt F)),
    StableHlo.unary main_v84 main_v99 (broadcastInDim S8000000x1 ![0] bcast_S8000000_S8000000x1_0 : (⟨S8000000, .i32⟩ : BufTy).Contents (Elt F) → (⟨S8000000x1, .i32⟩ : BufTy).Contents (Elt F)),
    StableHlo.ternary main_v98 main_v99 main_v97 main_v100 ((fun x i u => Host.scatterAdd scatter_S2097152x3_S8000000x1_S8000000x3_1_0_0_1 x i u) : (⟨S2097152x3, .f32⟩ : BufTy).Contents (Elt F) → (⟨S8000000x1, .i32⟩ : BufTy).Contents (Elt F) → (⟨S8000000x3, .f32⟩ : BufTy).Contents (Elt F) → (⟨S2097152x3, .f32⟩ : BufTy).Contents (Elt F)),
    StableHlo.unary main_v91 main_v101 (broadcastInDim S2097152x1 ![0] bcast_S2097152_S2097152x1_0 : (⟨S2097152, .f32⟩ : BufTy).Contents (Elt F) → (⟨S2097152x1, .f32⟩ : BufTy).Contents (Elt F)),
    StableHlo.binary main_v101 main_v100 main_v102 ((fun a b => concatenate S2097152x4 1 [⟨S2097152x1, a⟩, ⟨S2097152x3, b⟩] concatenates_S2097152x1_S2097152x3_S2097152x4_d1) : (⟨S2097152x1, .f32⟩ : BufTy).Contents (Elt F) → (⟨S2097152x3, .f32⟩ : BufTy).Contents (Elt F) → (⟨S2097152x4, .f32⟩ : BufTy).Contents (Elt F)) ]

/-- @main's 128 operations, in order. -/
abbrev ops : List (HloOp τ sig (Elt F)) := ops0 ++ ops1

/-- The fold over two lines one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = after ops1 (after ops0 V) := after_append ops0 ops1 V

set_option maxRecDepth 4096 in
/-- The first window is its straight line: the select's definition unfolded at its call, sequencing reassociated. -/
theorem part0_eq (c : Dev nD) : main_part0 (F := F) c = seq ops0 := by
  simp only [main_part0, fn_where.body, seq, bind_assoc, pure_bind]
  rfl

set_option maxRecDepth 4096 in
/-- The second window is its straight line: the two callees unfolded at their calls, sequencing reassociated. -/
theorem part1_eq (c : Dev nD) : main_part1 (F := F) c = seq ops1 := by
  simp only [main_part1, fn_where_0.body, fn_clip.body, seq, bind_assoc, pure_bind]

/-- @main is the two windows in order, hence the one line. -/
theorem main_eq (c : Dev nD) : main (F := F) c = seq ops := by
  rw [show (ops : List (HloOp τ sig (Elt F))) = ops0 ++ ops1 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., unary_bufs_sub .., binary_bufs_sub .., nullary_bufs_sub ..,
    unary_bufs_sub .., binary_bufs_sub .., unary_bufs_sub .., unary_bufs_sub .., unary_bufs_sub .., unary_bufs_sub ..,
    unary_bufs_sub .., unary_bufs_sub .., binary_bufs_sub .., unary_bufs_sub .., unary_bufs_sub .., binary_bufs_sub ..,
    unary_bufs_sub .., unary_bufs_sub .., reshape_bufs_sub .., unary_bufs_sub .., reshape_bufs_sub .., nullary_bufs_sub ..,
    unary_bufs_sub .., binary_bufs_sub .., binary_bufs_sub .., unary_bufs_sub .., reshape_bufs_sub .., nullary_bufs_sub ..,
    unary_bufs_sub .., binary_bufs_sub .., binary_bufs_sub .., unary_bufs_sub .., nullary_bufs_sub .., unary_bufs_sub ..,
    binary_bufs_sub .., unary_bufs_sub .., reshape_bufs_sub .., unary_bufs_sub .., reshape_bufs_sub .., binary_bufs_sub ..,
    unary_bufs_sub .., reshape_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    unary_bufs_sub .., ternary_bufs_sub .., unary_bufs_sub .., reshape_bufs_sub .., unary_bufs_sub .., unary_bufs_sub ..,
    unary_bufs_sub .., reshape_bufs_sub ..⟩

theorem ops1_sub : (ops1 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., unary_bufs_sub .., reshape_bufs_sub .., binary_bufs_sub .., unary_bufs_sub ..,
    reshape_bufs_sub .., binary_bufs_sub .., unary_bufs_sub .., reshape_bufs_sub .., unary_bufs_sub .., unary_bufs_sub ..,
    unary_bufs_sub .., reshape_bufs_sub .., binary_bufs_sub .., unary_bufs_sub .., reshape_bufs_sub .., binary_bufs_sub ..,
    unary_bufs_sub .., unary_bufs_sub .., unary_bufs_sub .., nary_bufs_sub .., nullary_bufs_sub .., unary_bufs_sub ..,
    binary_bufs_sub .., unary_bufs_sub .., nullary_bufs_sub .., unary_bufs_sub .., unary_bufs_sub .., unary_bufs_sub ..,
    ternary_bufs_sub .., nullary_bufs_sub .., nullary_bufs_sub .., unary_bufs_sub .., unary_bufs_sub .., binary_bufs_sub ..,
    unary_bufs_sub .., unary_bufs_sub .., binary_bufs_sub .., reshape_bufs_sub .., unary_bufs_sub .., unary_bufs_sub ..,
    binary_bufs_sub .., reshape_bufs_sub .., nullary_bufs_sub .., unary_bufs_sub .., unary_bufs_sub .., ternary_bufs_sub ..,
    unary_bufs_sub .., unary_bufs_sub .., unary_bufs_sub .., unary_bufs_sub .., binary_bufs_sub .., reshape_bufs_sub ..,
    nullary_bufs_sub .., unary_bufs_sub .., unary_bufs_sub .., ternary_bufs_sub .., unary_bufs_sub .., binary_bufs_sub ..⟩

theorem ops_sub : (ops : List (HloOp τ sig (Elt F))).Forall fun op => op.bufs ⊆ tcRefs τ sig := by
  rw [List.forall_iff_forall_mem]
  intro op hop
  rcases List.mem_append.mp hop with h | h
  · exact (List.forall_iff_forall_mem.mp ops0_sub) op h
  · exact (List.forall_iff_forall_mem.mp ops1_sub) op h

/-- At the compiled mesh, for any float values, from any memory with zero counters: every weakly fair execution of
    @main on the TensorCore terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as named stages

Each stage is one or a few of @main's operations applied to earlier stages, over the three argument arrays:
`a0` the positions, `a1` the velocities, `a2` the masses. The values the reference computes and never uses
for its result (the gradient of the weight) do not occur. -/

/-- The position in cell units: the position minus the origin (zero), times 64. -/
def rel (a0 : FVec F S1000000x3 .f32) : FVec F S1000000x3 .f32 :=
  mulf (subf a0 (broadcastInDim S1000000x3 ![0, 1] bcast_S1x3_S1000000x3_0_1 (broadcastInDim S1x3 ![1] bcast_S3_S1x3_1 (constant S3 .f32 0x00000000#32))))
    (broadcastInDim S1000000x3 ![] bcast_S_S1000000x3 (constant S_ .f32 0x42800000#32))

/-- The eight corner offsets (0 or 1 on each axis) as floats, repeated at every point. -/
def corners : FVec F S1000000x8x3 .f32 :=
  broadcastInDim S1000000x8x3 ![0, 1, 2] bcast_S1x8x3_S1000000x8x3_0_1_2
    (sitofp .f32 (broadcastInDim S1x8x3 ![1, 2] bcast_S8x3_S1x8x3_1_2 (fun i => lit0 (S8x3.rowMajor i) : IVec S8x3 32)))

/-- A per-point triple repeated at each of the eight corners. -/
def perCorner {α : Type} (x : S1000000x3.Idx → α) : S1000000x8x3.Idx → α :=
  broadcastInDim S1000000x8x3 ![0, 1, 2] bcast_S1000000x1x3_S1000000x8x3_0_1_2
    (broadcastInDim S1000000x1x3 ![0, 2] bcast_S1000000x3_S1000000x1x3_0_2 x)

/-- The grid node at each corner of the enclosing cell: the floor of the position plus the corner offset. -/
def gridPos (a0 : FVec F S1000000x3 .f32) : FVec F S1000000x8x3 .f32 :=
  addf (perCorner (Host.floor (rel a0))) corners

/-- The signed distance, per axis, from each corner node to the point. -/
def dist (a0 : FVec F S1000000x3 .f32) : FVec F S1000000x8x3 .f32 :=
  subf (perCorner (rel a0)) (gridPos a0)

/-- The corner nodes as integers. -/
def gridInt (a0 : FVec F S1000000x3 .f32) : IVec S1000000x8x3 32 :=
  fptosi 32 (gridPos a0)

/-- Axis 0 of a per-corner triple. -/
def comp0 {α : Type} (x : S1000000x8x3.Idx → α) : S1000000x8.Idx → α :=
  shapeCast S1000000x8 (extractStridedSlice S1000000x8x1 ![0, 0, 0] x slices_S1000000x8x3_S1000000x8x1_0_0_0) shapeCasts_S1000000x8x1_S1000000x8
/-- Axis 1 of a per-corner triple. -/
def comp1 {α : Type} (x : S1000000x8x3.Idx → α) : S1000000x8.Idx → α :=
  shapeCast S1000000x8 (extractStridedSlice S1000000x8x1 ![0, 0, 1] x slices_S1000000x8x3_S1000000x8x1_0_0_1) shapeCasts_S1000000x8x1_S1000000x8
/-- Axis 2 of a per-corner triple. -/
def comp2 {α : Type} (x : S1000000x8x3.Idx → α) : S1000000x8.Idx → α :=
  shapeCast S1000000x8 (extractStridedSlice S1000000x8x1 ![0, 0, 2] x slices_S1000000x8x3_S1000000x8x1_0_0_2) shapeCasts_S1000000x8x1_S1000000x8

/-- A scalar integer repeated at every (point, corner). -/
def allI (b : BitVec 32) : IVec S1000000x8 32 :=
  broadcastInDim S1000000x8 ![] bcast_S_S1000000x8 (constantI S_ 32 b)

/-- The node index of each corner: z + 128·x + 16384·y. -/
def hash (a0 : FVec F S1000000x3 .f32) : IVec S1000000x8 32 :=
  addi (addi (comp2 (gridInt a0)) (muli (comp0 (gridInt a0)) (allI 128#32))) (muli (comp1 (gridInt a0)) (allI 16384#32))

/-- One minus the absolute distance, per axis. -/
def wgt (a0 : FVec F S1000000x3 .f32) : FVec F S1000000x8x3 .f32 :=
  subf (broadcastInDim S1000000x8x3 ![] bcast_S_S1000000x8x3 (constant S_ .f32 0x3F800000#32)) (Host.absf (dist a0))

/-- The trilinear weight: the product of the three per-axis weights. -/
def shapeRaw (a0 : FVec F S1000000x3 .f32) : FVec F S1000000x8 .f32 :=
  mulf (mulf (comp0 (wgt a0)) (comp1 (wgt a0))) (comp2 (wgt a0))

/-- The node index is on the grid: at least 0 and below 2097152. -/
def valid (a0 : FVec F S1000000x3 .f32) : IVec S1000000x8 1 :=
  andi (cmpi .sge (hash a0) (allI 0#32)) (cmpi .slt (hash a0) (allI 2097152#32))

/-- The weight where the node is on the grid, zero elsewhere. -/
def shape (a0 : FVec F S1000000x3 .f32) : FVec F S1000000x8 .f32 :=
  select (valid a0) (shapeRaw a0) (broadcastInDim S1000000x8 ![] bcast_S_S1000000x8 (constant S_ .f32 0x00000000#32))

/-- The node index clamped to the grid. -/
def hashClip (a0 : FVec F S1000000x3 .f32) : IVec S1000000x8 32 :=
  minsi (allI 2097151#32) (maxsi (allI 0#32) (hash a0))

/-- The clamped node indices as one list of eight million (point, corner) rows. -/
def hashFlat (a0 : FVec F S1000000x3 .f32) : IVec S8000000 32 :=
  shapeCast S8000000 (hashClip a0) shapeCasts_S1000000x8_S8000000

/-- The masked weight times the point's mass. -/
def sm (a0 : FVec F S1000000x3 .f32) (a2 : FVec F S1000000 .f32) : FVec F S1000000x8 .f32 :=
  mulf (shape a0) (broadcastInDim S1000000x8 ![0, 1] bcast_S1000000x1_S1000000x8_0_1 (broadcastInDim S1000000x1 ![0] bcast_S1000000_S1000000x1_0 a2))

/-- The same as a list of eight million rows. -/
def smFlat (a0 : FVec F S1000000x3 .f32) (a2 : FVec F S1000000 .f32) : FVec F S8000000 .f32 :=
  shapeCast S8000000 (sm a0 a2) shapeCasts_S1000000x8_S8000000

/-- The mass of each grid node: the rows' weighted masses added at their node indices, from zero. -/
def nodeMass (a0 : FVec F S1000000x3 .f32) (a2 : FVec F S1000000 .f32) : FVec F S2097152 .f32 :=
  Host.scatterAdd scatter_S2097152_S8000000x1_S8000000_n_0_0_1
    (broadcastInDim S2097152 ![] bcast_S_S2097152 (constant S_ .f32 0x00000000#32))
    (broadcastInDim S8000000x1 ![0] bcast_S8000000_S8000000x1_0 (hashFlat a0)) (smFlat a0 a2)

/-- The rows' weighted masses times the point's velocity, as eight million rows of three. -/
def momFlat (a0 a1 : FVec F S1000000x3 .f32) (a2 : FVec F S1000000 .f32) : FVec F S8000000x3 .f32 :=
  shapeCast S8000000x3
    (mulf (broadcastInDim S1000000x8x3 ![0, 1, 2] bcast_S1000000x8x1_S1000000x8x3_0_1_2 (broadcastInDim S1000000x8x1 ![0, 1] bcast_S1000000x8_S1000000x8x1_0_1 (sm a0 a2)))
      (perCorner a1))
    shapeCasts_S1000000x8x3_S8000000x3

/-- The momentum of each grid node: the rows' momenta added at their node indices, from zero. -/
def nodeMom (a0 a1 : FVec F S1000000x3 .f32) (a2 : FVec F S1000000 .f32) : FVec F S2097152x3 .f32 :=
  Host.scatterAdd scatter_S2097152x3_S8000000x1_S8000000x3_1_0_0_1
    (broadcastInDim S2097152x3 ![] bcast_S_S2097152x3 (constant S_ .f32 0x00000000#32))
    (broadcastInDim S8000000x1 ![0] bcast_S8000000_S8000000x1_0 (hashFlat a0)) (momFlat a0 a1 a2)

/-- The result: per grid node, its mass followed by its three momentum components. -/
def out (a0 a1 : FVec F S1000000x3 .f32) (a2 : FVec F S1000000 .f32) : FVec F S2097152x4 .f32 :=
  concatenate S2097152x4 1 [⟨S2097152x1, broadcastInDim S2097152x1 ![0] bcast_S2097152_S2097152x1_0 (nodeMass a0 a2)⟩, ⟨S2097152x3, nodeMom a0 a1 a2⟩]
    concatenates_S2097152x1_S2097152x3_S2097152x4_d1

/-! ## The fold read at the buffers the result depends on

The first window is read at the two values the second window uses — the node index and the masked weight — and at
the arguments; the second window is then read at the result over any contents, and the two compose. Each reading
rewrites every operation's result at its own buffer to its function's value and at any other buffer to what was
there; what is left is the stages' definitions unfolded, equal by computation. -/

set_option maxRecDepth 8192 in
set_option maxHeartbeats 1600000 in
/-- After the first window the node-index buffer holds the node index of the positions. -/
theorem v27_0 (V : Valuation τ sig (Elt F)) :
    after ops0 V (main_v27 : DevRef τ sig) = hash (V (main_arg0 : DevRef τ sig)) := by
  after_results_simp
  rfl

set_option maxRecDepth 8192 in
set_option maxHeartbeats 1600000 in
/-- After the first window the masked-weight buffer holds the masked weight of the positions. -/
theorem v44_0 (V : Valuation τ sig (Elt F)) :
    after ops0 V (main_v44 : DevRef τ sig) = shape (V (main_arg0 : DevRef τ sig)) := by
  after_results_simp
  rfl

set_option maxRecDepth 8192 in
set_option maxHeartbeats 1600000 in
theorem arg0_0 (V : Valuation τ sig (Elt F)) :
    after ops0 V (main_arg0 : DevRef τ sig) = V (main_arg0 : DevRef τ sig) := by
  after_results_simp

set_option maxRecDepth 8192 in
set_option maxHeartbeats 1600000 in
theorem arg1_0 (V : Valuation τ sig (Elt F)) :
    after ops0 V (main_arg1 : DevRef τ sig) = V (main_arg1 : DevRef τ sig) := by
  after_results_simp

set_option maxRecDepth 8192 in
set_option maxHeartbeats 1600000 in
theorem arg2_0 (V : Valuation τ sig (Elt F)) :
    after ops0 V (main_arg2 : DevRef τ sig) = V (main_arg2 : DevRef τ sig) := by
  after_results_simp

set_option maxRecDepth 8192 in
set_option maxHeartbeats 1600000 in
theorem arg0_1 (W : Valuation τ sig (Elt F)) :
    after ops1 W (main_arg0 : DevRef τ sig) = W (main_arg0 : DevRef τ sig) := by
  after_results_simp

set_option maxRecDepth 8192 in
set_option maxHeartbeats 1600000 in
theorem arg1_1 (W : Valuation τ sig (Elt F)) :
    after ops1 W (main_arg1 : DevRef τ sig) = W (main_arg1 : DevRef τ sig) := by
  after_results_simp

set_option maxRecDepth 8192 in
set_option maxHeartbeats 1600000 in
theorem arg2_1 (W : Valuation τ sig (Elt F)) :
    after ops1 W (main_arg2 : DevRef τ sig) = W (main_arg2 : DevRef τ sig) := by
  after_results_simp

/-- The arguments are unchanged by the run. -/
theorem arg0_eq (V : Valuation τ sig (Elt F)) :
    after ops V (main_arg0 : DevRef τ sig) = V (main_arg0 : DevRef τ sig) := by
  rw [after_ops, arg0_1, arg0_0]

theorem arg1_eq (V : Valuation τ sig (Elt F)) :
    after ops V (main_arg1 : DevRef τ sig) = V (main_arg1 : DevRef τ sig) := by
  rw [after_ops, arg1_1, arg1_0]

theorem arg2_eq (V : Valuation τ sig (Elt F)) :
    after ops V (main_arg2 : DevRef τ sig) = V (main_arg2 : DevRef τ sig) := by
  rw [after_ops, arg2_1, arg2_0]

/-- The concatenation of a column and three columns depends only on the two arrays. -/
theorem concat2_congr {α : Type} {a a' : S2097152x1.Idx → α} {b b' : S2097152x3.Idx → α} (ha : a = a') (hb : b = b') :
    concatenate S2097152x4 1 [⟨S2097152x1, a⟩, ⟨S2097152x3, b⟩] concatenates_S2097152x1_S2097152x3_S2097152x4_d1
      = concatenate S2097152x4 1 [⟨S2097152x1, a'⟩, ⟨S2097152x3, b'⟩] concatenates_S2097152x1_S2097152x3_S2097152x4_d1 := by
  subst ha hb; rfl

attribute [local irreducible] Host.scatterAdd concatenate in
set_option maxRecDepth 8192 in
set_option maxHeartbeats 1600000 in
/-- After the run the result buffer holds `out` of the three arguments' launch contents: the last operation
    concatenates the mass column and the momentum columns, and each of the two is read through the second window
    down to the node index, the masked weight and the arguments, which the first window's readings give. -/
theorem out_eq (V : Valuation τ sig (Elt F)) :
    after ops V (main_v102 : DevRef τ sig)
      = out (V (main_arg0 : DevRef τ sig)) (V (main_arg1 : DevRef τ sig)) (V (main_arg2 : DevRef τ sig)) := by
  rw [after_ops]
  have h27 := v27_0 V
  have h44 := v44_0 V
  have h1 := arg1_0 V
  have h2 := arg2_0 V
  generalize after ops0 V = W at h27 h44 h1 h2 ⊢
  simp only [after_cons, after_nil]
  rw [binary_result]
  unfold out
  refine concat2_congr ?_ ?_
  · after_results_simp
    rw [h27, h44, h2]
    rfl
  · after_results_simp
    rw [h27, h44, h1, h2]
    rfl

end Cert.ReferenceIdeal.RefRun

end
-- ==== Proof.RefReadRow.lean ====
/- The reference's per-row quantities read at an index, at the ideal instance: for particle n and corner c, the
   clamped node index, the weight times the mass, and the momentum components are the specification's scalar
   functions of the particle's coordinates, the corner's offsets, the mass and the velocity. -/
import proofs.«152410_j40132174414020_2_alg».proof.Proof.RefRun
import proofs.«152410_j40132174414020_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx

/-! ## Layout operations at an index -/

section Layout
variable {α : Type}

/-- A per-point triple repeated at the eight corners, read at (n, c, d), is the triple's component d at point n. -/
theorem perCorner_apply (x : S1000000x3.Idx → α) (n : Fin 1000000) (c : Fin 8) (d : Fin 3) :
    perCorner x (ix3 n c d) = x (ix2 n d) := by
  unfold perCorner
  refine (broadcastInDim_apply _ _ _ (ix3 n c d) (ix3 n (0 : Fin 1) d) (fun a => ?_)).trans ?_
  · match a with
    | ⟨0, _⟩ => rfl
    | ⟨1, _⟩ => rfl
    | ⟨2, _⟩ => rfl
  · exact broadcastInDim_apply _ _ _ (ix3 n (0 : Fin 1) d) (ix2 n d) (fun a => by
      match a with
      | ⟨0, _⟩ => rfl
      | ⟨1, _⟩ => rfl)

/-- Component 0 of a per-corner triple, read at (n, c). -/
theorem comp0_apply (x : S1000000x8x3.Idx → α) (n : Fin 1000000) (c : Fin 8) :
    comp0 x (ix2 n c) = x (ix3 n c 0) := by
  unfold comp0
  refine (shapeCast_apply _ _ (ix2 n c) (ix3 n c (0 : Fin 1)) ?_).trans ?_
  · rw [Shape.rowMajor_val_three, Shape.rowMajor_val_two]
    show (n.val * 8 + c.val) * 1 + 0 = n.val * 8 + c.val
    omega
  · exact extractStridedSlice_apply _ _ _ (ix3 n c (0 : Fin 1)) (ix3 n c (0 : Fin 3)) (fun a => by
      match a with
      | ⟨0, _⟩ => exact (Nat.zero_add _).symm
      | ⟨1, _⟩ => exact (Nat.zero_add _).symm
      | ⟨2, _⟩ => rfl)

/-- Component 1 of a per-corner triple, read at (n, c). -/
theorem comp1_apply (x : S1000000x8x3.Idx → α) (n : Fin 1000000) (c : Fin 8) :
    comp1 x (ix2 n c) = x (ix3 n c 1) := by
  unfold comp1
  refine (shapeCast_apply _ _ (ix2 n c) (ix3 n c (0 : Fin 1)) ?_).trans ?_
  · rw [Shape.rowMajor_val_three, Shape.rowMajor_val_two]
    show (n.val * 8 + c.val) * 1 + 0 = n.val * 8 + c.val
    omega
  · exact extractStridedSlice_apply _ _ _ (ix3 n c (0 : Fin 1)) (ix3 n c (1 : Fin 3)) (fun a => by
      match a with
      | ⟨0, _⟩ => exact (Nat.zero_add _).symm
      | ⟨1, _⟩ => exact (Nat.zero_add _).symm
      | ⟨2, _⟩ => rfl)

/-- Component 2 of a per-corner triple, read at (n, c). -/
theorem comp2_apply (x : S1000000x8x3.Idx → α) (n : Fin 1000000) (c : Fin 8) :
    comp2 x (ix2 n c) = x (ix3 n c 2) := by
  unfold comp2
  refine (shapeCast_apply _ _ (ix2 n c) (ix3 n c (0 : Fin 1)) ?_).trans ?_
  · rw [Shape.rowMajor_val_three, Shape.rowMajor_val_two]
    show (n.val * 8 + c.val) * 1 + 0 = n.val * 8 + c.val
    omega
  · exact extractStridedSlice_apply _ _ _ (ix3 n c (0 : Fin 1)) (ix3 n c (2 : Fin 3)) (fun a => by
      match a with
      | ⟨0, _⟩ => exact (Nat.zero_add _).symm
      | ⟨1, _⟩ => exact (Nat.zero_add _).symm
      | ⟨2, _⟩ => rfl)

/-- A per-point scalar repeated at the eight corners, read at (n, c). -/
theorem perPoint_apply (x : S1000000.Idx → α) (n : Fin 1000000) (c : Fin 8) :
    broadcastInDim S1000000x8 ![0, 1] bcast_S1000000x1_S1000000x8_0_1 (broadcastInDim S1000000x1 ![0] bcast_S1000000_S1000000x1_0 x) (ix2 n c)
      = x (ix1 n) := by
  refine (broadcastInDim_apply _ _ _ (ix2 n c) (ix2 n (0 : Fin 1)) (fun a => ?_)).trans ?_
  · match a with
    | ⟨0, _⟩ => rfl
    | ⟨1, _⟩ => rfl
  · exact broadcastInDim_apply _ _ _ (ix2 n (0 : Fin 1)) (ix1 n) (fun a => by
      match a with
      | ⟨0, _⟩ => rfl)

/-- A per-(point, corner) scalar repeated on the three axes, read at (n, c, d). -/
theorem perAxis_apply (x : S1000000x8.Idx → α) (n : Fin 1000000) (c : Fin 8) (d : Fin 3) :
    broadcastInDim S1000000x8x3 ![0, 1, 2] bcast_S1000000x8x1_S1000000x8x3_0_1_2 (broadcastInDim S1000000x8x1 ![0, 1] bcast_S1000000x8_S1000000x8x1_0_1 x) (ix3 n c d)
      = x (ix2 n c) := by
  refine (broadcastInDim_apply _ _ _ (ix3 n c d) (ix3 n c (0 : Fin 1)) (fun a => ?_)).trans ?_
  · match a with
    | ⟨0, _⟩ => rfl
    | ⟨1, _⟩ => rfl
    | ⟨2, _⟩ => rfl
  · exact broadcastInDim_apply _ _ _ (ix3 n c (0 : Fin 1)) (ix2 n c) (fun a => by
      match a with
      | ⟨0, _⟩ => rfl
      | ⟨1, _⟩ => rfl)

/-- The [1000000, 8] array as eight million rows: row t is (t / 8, t % 8). -/
theorem flat2_apply (x : S1000000x8.Idx → α) (t : Fin 8000000) :
    shapeCast S8000000 x shapeCasts_S1000000x8_S8000000 (ix1 t)
      = x (ix2 (⟨t.val / 8, by have := t.isLt; omega⟩ : Fin 1000000) (⟨t.val % 8, Nat.mod_lt _ (by norm_num)⟩ : Fin 8)) := by
  refine shapeCast_apply _ _ (ix1 t) _ ?_
  rw [Shape.rowMajor_val_two, Shape.rowMajor_val_one]
  show t.val / 8 * 8 + t.val % 8 = t.val
  omega

/-- The [1000000, 8, 3] array as eight million rows of three: row t is (t / 8, t % 8). -/
theorem flat3_apply (x : S1000000x8x3.Idx → α) (t : Fin 8000000) (d : Fin 3) :
    shapeCast S8000000x3 x shapeCasts_S1000000x8x3_S8000000x3 (ix2 t d)
      = x (ix3 (⟨t.val / 8, by have := t.isLt; omega⟩ : Fin 1000000) (⟨t.val % 8, Nat.mod_lt _ (by norm_num)⟩ : Fin 8) d) := by
  refine shapeCast_apply _ _ (ix2 t d) _ ?_
  rw [Shape.rowMajor_val_three, Shape.rowMajor_val_two]
  show (t.val / 8 * 8 + t.val % 8) * 3 + d.val = t.val * 3 + d.val
  omega

/-- A list as a one-column table, read at (t, 0). -/
theorem column_apply (x : S8000000.Idx → α) (t : Fin 8000000) :
    broadcastInDim S8000000x1 ![0] bcast_S8000000_S8000000x1_0 x (ix2 t (0 : Fin 1)) = x (ix1 t) :=
  broadcastInDim_apply _ _ _ (ix2 t (0 : Fin 1)) (ix1 t) (fun a => by
    match a with
    | ⟨0, _⟩ => rfl)

end Layout

/-! ## The corner offsets -/

/-- The offset table, row-major: entry 3·c + d is bit d of corner c (the bit of weight 4, 2, 1 for d = 0, 1, 2). -/
theorem lit0_corner : ∀ (c : Fin 8) (d : Fin 3),
    lit0 (⟨c.val * 3 + d.val, by have := c.isLt; have := d.isLt; omega⟩ : Fin 24)
      = if (c.val / (![4, 2, 1] d : ℕ)) % 2 = 1 then 1#32 else 0#32 := by decide

theorem ofBits_one_f32 : Ideal.ofBits .f32 0x3F800000#32 = 1 := by
  simp [Ideal.ofBits, Ideal.ieee, -EReal.coe_mul]; norm_num

theorem sitofp_one : FloatOps.sitofp (F := Ideal) .f32 (1#32 : BitVec 32) = 1 := by
  show (((1#32 : BitVec 32).toInt : ℝ) : EReal) = 1
  rw [show (1#32 : BitVec 32).toInt = 1 from by decide]
  simp

theorem sitofp_zero : FloatOps.sitofp (F := Ideal) .f32 (0#32 : BitVec 32) = 0 := by
  show (((0#32 : BitVec 32).toInt : ℝ) : EReal) = 0
  rw [show (0#32 : BitVec 32).toInt = 0 from by decide]
  simp

/-- The corner offsets as floats, read at (n, c, d): corner c's offset along axis d. -/
theorem corners_apply (n : Fin 1000000) (c : Fin 8) (d : Fin 3) :
    corners (F := Ideal) (ix3 n c d) = Cert.Mpm.offs c.val d := by
  unfold corners
  refine (broadcastInDim_apply _ _ _ (ix3 n c d) (ix3 (0 : Fin 1) c d) (fun a => ?_)).trans ?_
  · match a with
    | ⟨0, _⟩ => rfl
    | ⟨1, _⟩ => rfl
    | ⟨2, _⟩ => rfl
  show FloatOps.sitofp (F := Ideal) .f32
      (broadcastInDim S1x8x3 ![1, 2] bcast_S8x3_S1x8x3_1_2 (fun i => lit0 (S8x3.rowMajor i) : IVec S8x3 32) (ix3 (0 : Fin 1) c d)) = _
  rw [broadcastInDim_apply ![1, 2] bcast_S8x3_S1x8x3_1_2 (fun i => lit0 (S8x3.rowMajor i) : IVec S8x3 32) (ix3 (0 : Fin 1) c d) (ix2 c d) (fun a => by
      match a with
      | ⟨0, _⟩ => rfl
      | ⟨1, _⟩ => rfl)]
  have hk : S8x3.rowMajor (ix2 c d) = (⟨c.val * 3 + d.val, by have := c.isLt; have := d.isLt; omega⟩ : Fin 24) :=
    Fin.ext (by rw [Shape.rowMajor_val_two]; rfl)
  show FloatOps.sitofp (F := Ideal) .f32 (lit0 (S8x3.rowMajor (ix2 c d))) = _
  rw [hk, lit0_corner c d]
  unfold Cert.Mpm.offs
  by_cases h : (c.val / (![4, 2, 1] d : ℕ)) % 2 = 1
  · rw [if_pos h, if_pos h, sitofp_one]
    exact ofBits_one_f32.symm
  · rw [if_neg h, if_neg h, sitofp_zero]
    exact Ideal.ofBits_zero_f32.symm

/-! ## The arithmetic at an index -/

section Arith
variable (a0 a1 : FVec Ideal S1000000x3 .f32) (a2 : FVec Ideal S1000000 .f32)

/-- The position in cell units: the origin subtracted is zero. -/
theorem rel_apply (n : Fin 1000000) (d : Fin 3) : rel a0 (ix2 n d) = Cert.Mpm.rel (a0 (ix2 n d)) := by
  show (a0 (ix2 n d) - Ideal.ofBits .f32 0x00000000#32) * Ideal.ofBits .f32 0x42800000#32 = a0 (ix2 n d) * Ideal.ofBits .f32 0x42800000#32
  rw [Ideal.ofBits_zero_f32, sub_zero]

theorem gridPos_apply (n : Fin 1000000) (c : Fin 8) (d : Fin 3) :
    gridPos a0 (ix3 n c d) = Cert.Mpm.gpos (a0 (ix2 n d)) (Cert.Mpm.offs c.val d) := by
  show FloatOps.addf (perCorner (Host.floor (rel a0)) (ix3 n c d)) (corners (ix3 n c d)) = _
  rw [perCorner_apply, corners_apply]
  show FloatOps.addf (FloatOps.hostUnary .floor (rel a0 (ix2 n d))) _ = _
  rw [rel_apply]
  rfl

theorem dist_apply (n : Fin 1000000) (c : Fin 8) (d : Fin 3) :
    dist a0 (ix3 n c d) = Cert.Mpm.dst (a0 (ix2 n d)) (Cert.Mpm.offs c.val d) := by
  show FloatOps.subf (perCorner (rel a0) (ix3 n c d)) (gridPos a0 (ix3 n c d)) = _
  rw [perCorner_apply, gridPos_apply, rel_apply]
  rfl

theorem wgt_apply (n : Fin 1000000) (c : Fin 8) (d : Fin 3) :
    wgt a0 (ix3 n c d) = Cert.Mpm.wgt (a0 (ix2 n d)) (Cert.Mpm.offs c.val d) := by
  show FloatOps.subf (Ideal.ofBits .f32 0x3F800000#32) (FloatOps.hostAbsf (dist a0 (ix3 n c d))) = _
  rw [dist_apply]
  rfl

theorem gridInt_apply (n : Fin 1000000) (c : Fin 8) (d : Fin 3) :
    gridInt a0 (ix3 n c d) = Cert.Mpm.gint (a0 (ix2 n d)) (Cert.Mpm.offs c.val d) := by
  show FloatOps.fptosi 32 (gridPos a0 (ix3 n c d)) = _
  rw [gridPos_apply]
  rfl

theorem hash_apply (n : Fin 1000000) (c : Fin 8) :
    hash a0 (ix2 n c) = Cert.Mpm.hsh (a0 (ix2 n 0)) (a0 (ix2 n 1)) (a0 (ix2 n 2))
      (Cert.Mpm.offs c.val 0) (Cert.Mpm.offs c.val 1) (Cert.Mpm.offs c.val 2) := by
  show IntOp.addi (IntOp.addi (comp2 (gridInt a0) (ix2 n c)) (IntOp.muli (comp0 (gridInt a0) (ix2 n c)) 128#32))
      (IntOp.muli (comp1 (gridInt a0) (ix2 n c)) 16384#32) = _
  rw [comp0_apply, comp1_apply, comp2_apply, gridInt_apply, gridInt_apply, gridInt_apply]
  rfl

theorem valid_apply (n : Fin 1000000) (c : Fin 8) :
    valid a0 (ix2 n c) = Cert.Mpm.inGrid (Cert.Mpm.hsh (a0 (ix2 n 0)) (a0 (ix2 n 1)) (a0 (ix2 n 2))
      (Cert.Mpm.offs c.val 0) (Cert.Mpm.offs c.val 1) (Cert.Mpm.offs c.val 2)) := by
  show IntOp.andi (IntOp.cmpi .sge (hash a0 (ix2 n c)) 0#32) (IntOp.cmpi .slt (hash a0 (ix2 n c)) 2097152#32) = _
  rw [hash_apply]
  rfl

theorem shapeRaw_apply (n : Fin 1000000) (c : Fin 8) :
    shapeRaw a0 (ix2 n c) = FloatOps.mulf (FloatOps.mulf (Cert.Mpm.wgt (a0 (ix2 n 0)) (Cert.Mpm.offs c.val 0))
      (Cert.Mpm.wgt (a0 (ix2 n 1)) (Cert.Mpm.offs c.val 1))) (Cert.Mpm.wgt (a0 (ix2 n 2)) (Cert.Mpm.offs c.val 2)) := by
  show FloatOps.mulf (FloatOps.mulf (comp0 (wgt a0) (ix2 n c)) (comp1 (wgt a0) (ix2 n c))) (comp2 (wgt a0) (ix2 n c)) = _
  rw [comp0_apply, comp1_apply, comp2_apply, wgt_apply, wgt_apply, wgt_apply]

theorem shape_apply (n : Fin 1000000) (c : Fin 8) :
    shape a0 (ix2 n c) = Cert.Mpm.shp (a0 (ix2 n 0)) (a0 (ix2 n 1)) (a0 (ix2 n 2))
      (Cert.Mpm.offs c.val 0) (Cert.Mpm.offs c.val 1) (Cert.Mpm.offs c.val 2) := by
  show Scalar.select (valid a0 (ix2 n c)) (shapeRaw a0 (ix2 n c)) (Ideal.ofBits .f32 0x00000000#32) = _
  rw [valid_apply, shapeRaw_apply]
  rfl

theorem hashClip_apply (n : Fin 1000000) (c : Fin 8) :
    hashClip a0 (ix2 n c) = Cert.Mpm.cell (a0 (ix2 n 0)) (a0 (ix2 n 1)) (a0 (ix2 n 2))
      (Cert.Mpm.offs c.val 0) (Cert.Mpm.offs c.val 1) (Cert.Mpm.offs c.val 2) := by
  show IntOp.minsi 2097151#32 (IntOp.maxsi 0#32 (hash a0 (ix2 n c))) = _
  rw [hash_apply]
  rfl

theorem sm_apply (n : Fin 1000000) (c : Fin 8) :
    sm a0 a2 (ix2 n c) = Cert.Mpm.smass (a0 (ix2 n 0)) (a0 (ix2 n 1)) (a0 (ix2 n 2))
      (Cert.Mpm.offs c.val 0) (Cert.Mpm.offs c.val 1) (Cert.Mpm.offs c.val 2) (a2 (ix1 n)) := by
  show FloatOps.mulf (shape a0 (ix2 n c))
      (broadcastInDim S1000000x8 ![0, 1] bcast_S1000000x1_S1000000x8_0_1 (broadcastInDim S1000000x1 ![0] bcast_S1000000_S1000000x1_0 a2) (ix2 n c)) = _
  rw [shape_apply, perPoint_apply]
  rfl

/-- A component of a [1000000, 3] array at a particle below 1000000. -/
theorem chan3_eq (a : FVec Ideal S1000000x3 .f32) (d : Fin 3) (n : Fin 1000000) : Cert.Mpm.chan3 a d n.val = a (ix2 n d) := by
  unfold Cert.Mpm.chan3
  rw [dif_pos n.isLt]

theorem chan1_eq (a : FVec Ideal S1000000 .f32) (n : Fin 1000000) : Cert.Mpm.chan1 a n.val = a (ix1 n) := by
  unfold Cert.Mpm.chan1
  rw [dif_pos n.isLt]

/-- The clamped node index of corner c of particle n is the specification's. -/
theorem hashClip_eq_rowCell (n : Fin 1000000) (c : Fin 8) : hashClip a0 (ix2 n c) = Cert.Mpm.rowCell a0 c.val n.val := by
  rw [hashClip_apply]
  unfold Cert.Mpm.rowCell
  rw [chan3_eq, chan3_eq, chan3_eq]

/-- The weight times the mass of corner c of particle n is the specification's. -/
theorem sm_eq_rowMass (n : Fin 1000000) (c : Fin 8) : sm a0 a2 (ix2 n c) = Cert.Mpm.rowMass a0 a2 c.val n.val := by
  rw [sm_apply]
  unfold Cert.Mpm.rowMass
  rw [chan3_eq, chan3_eq, chan3_eq, chan1_eq]

/-- Momentum component d of corner c of particle n: the weighted mass times velocity component d. -/
theorem mom_apply (n : Fin 1000000) (c : Fin 8) (d : Fin 3) :
    mulf (broadcastInDim S1000000x8x3 ![0, 1, 2] bcast_S1000000x8x1_S1000000x8x3_0_1_2 (broadcastInDim S1000000x8x1 ![0, 1] bcast_S1000000x8_S1000000x8x1_0_1 (sm a0 a2)))
        (perCorner a1) (ix3 n c d)
      = FloatOps.mulf (Cert.Mpm.rowMass a0 a2 c.val n.val) (Cert.Mpm.chan3 a1 d n.val) := by
  show FloatOps.mulf (broadcastInDim S1000000x8x3 ![0, 1, 2] bcast_S1000000x8x1_S1000000x8x3_0_1_2 (broadcastInDim S1000000x8x1 ![0, 1] bcast_S1000000x8_S1000000x8x1_0_1 (sm a0 a2)) (ix3 n c d))
      (perCorner a1 (ix3 n c d)) = _
  rw [perAxis_apply, perCorner_apply, sm_eq_rowMass, chan3_eq]

end Arith

end Cert.ReferenceIdeal.RefRead

end
-- ==== Proof.LibScatterVec.lean ====
/-
  A scatter-add of single elements into a vector, read at an element.

  The operand is a vector [M], the updates are a vector [T], and the start indices are a column [T, 1] of integers:
  element t of the updates is added into element idx[t, 0] of the operand (no update window axis, inserted window
  axis [0], the one index component naming operand axis 0, index vector axis 1). The start index is read SIGNED and is
  not clamped: an update whose start index is negative or at least M is dropped. Read at element m the result is the
  operand's element plus the sum, over the positions t whose start index is m, of the update's element t. The sum is
  the exact one of the extended reals, an additive commutative monoid: nothing is asked of finiteness or cancellation.
-/
import Idealize.ShloMosaic.PureOps.Ideal
import Idealize.ShloMosaic.Lib.ValueIdx

noncomputable section

namespace Cert.Lib.ScatterVec

open Idealize.ShloMosaic Idealize.ShloMosaic.ValueIdx

/-- The dimension numbers of a scatter of single elements `[T]` into a vector `[M]` at a column `[T, 1]` of
    start indices; their conditions `wf` are decided on a program's literal shapes. -/
abbrev vecDims (M T : Nat)
    (wf : ScatterDims.WF ⟨1, ![M]⟩ ⟨2, ![T, 1]⟩ ⟨1, ![T]⟩ [] [0] [0] 1) :
    ScatterDims ⟨1, ![M]⟩ ⟨2, ![T, 1]⟩ ⟨1, ![T]⟩ where
  updateWindowDims := []
  insertedWindowDims := [0]
  scatterDimsToOperandDims := [0]
  indexVectorDim := 1
  wf := wf

variable {M T : Nat} (wf : ScatterDims.WF ⟨1, ![M]⟩ ⟨2, ![T, 1]⟩ ⟨1, ![T]⟩ [] [0] [0] 1) {w : Nat}

/-- On the operand's one axis the window of update element `t` starts at the start index `idx[t, 0]`, read signed. -/
theorem start_zero (t : Fin T) (idx : IVec ⟨2, ![T, 1]⟩ w) :
    (vecDims M T wf).start (ix1 t) idx 0 = (idx (ix2 t 0)).toInt := by
  unfold ScatterDims.start
  rw [dif_pos (show (0 : Fin 1) ∈ (vecDims M T wf).scatterDimsToOperandDims from List.mem_singleton.mpr rfl)]
  have hsi : (vecDims M T wf).siIdx (ix1 t) ⟨List.idxOf (0 : Fin 1) (vecDims M T wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- The operand's one axis is an inserted one: the window coordinate there is `0`. -/
theorem window_zero (t : Fin T) :
    (vecDims M T wf).window (ix1 t) 0 = 0 := by
  unfold ScatterDims.window
  have h : ¬ (0 : Fin 1) ∈ (vecDims M T wf).sKept := (show ¬ (0 : Fin 1) ∈ ([] : List (Fin 1)) from by decide)
  rw [dif_neg h]

/-- Where an update element lands: update element `t` lands on operand element `m` exactly when the start index
    of `t`, read signed, is `m`. -/
theorem resultIdx?_eq_some_iff (t : Fin T) (m : Fin M) (idx : IVec ⟨2, ![T, 1]⟩ w) :
    (vecDims M T wf).resultIdx? (ix1 t) idx = some (ix1 m) ↔ (idx (ix2 t 0)).toInt = (m.val : Int) := by
  unfold ScatterDims.resultIdx?
  constructor
  · intro h
    split at h
    · rename_i hh
      have e := Option.some.inj h
      have e0 : ((vecDims M T wf).start (ix1 t) idx 0 + (vecDims M T wf).window (ix1 t) 0).toNat = m.val :=
        congrArg (fun i : (⟨1, ![M]⟩ : Shape).Idx => (i 0).val) e
      have h0 := (hh 0).1
      rw [start_zero, window_zero] at e0 h0
      omega
    · cases h
  · intro h0
    have hh : ∀ a, 0 ≤ (vecDims M T wf).start (ix1 t) idx a + (vecDims M T wf).window (ix1 t) a ∧
        (vecDims M T wf).start (ix1 t) idx a + (vecDims M T wf).window (ix1 t) a <
          ((⟨1, ![M]⟩ : Shape).size a : Int) := by
      intro a
      match a with
      | ⟨0, _⟩ =>
        have := m.isLt
        show 0 ≤ (vecDims M T wf).start (ix1 t) idx 0 + (vecDims M T wf).window (ix1 t) 0 ∧
          (vecDims M T wf).start (ix1 t) idx 0 + (vecDims M T wf).window (ix1 t) 0 < (M : Int)
        rw [start_zero, window_zero, h0]; omega
    rw [dif_pos hh]
    refine congrArg some (funext fun a => Fin.ext ?_)
    match a with
    | ⟨0, _⟩ =>
      show ((vecDims M T wf).start (ix1 t) idx 0 + (vecDims M T wf).window (ix1 t) 0).toNat = m.val
      rw [start_zero, window_zero, h0]; omega

/-- A scatter-add of single elements into a vector read at an element: the operand's element plus the sum, over the
    update positions whose start index (read signed) is `m`, of the update's element. -/
theorem scatterAdd_vec_apply {φ : FTy} (x : FVec Ideal ⟨1, ![M]⟩ φ) (idx : IVec ⟨2, ![T, 1]⟩ w)
    (upd : FVec Ideal ⟨1, ![T]⟩ φ) (m : Fin M) :
    Host.scatterAdd (F := Ideal) (vecDims M T wf) x idx upd (ix1 m) =
      x (ix1 m) + ∑ t : Fin T, if (idx (ix2 t 0)).toInt = (m.val : Int) then upd (ix1 t) else 0 := by
  show Ideal.hostScatterAdd (vecDims M T wf) x idx upd (ix1 m) = _
  unfold Ideal.hostScatterAdd
  refine congrArg (x (ix1 m) + ·) ?_
  rw [← Finset.sum_filter]
  have key : ∀ j : (⟨1, ![T]⟩ : Shape).Idx,
      (vecDims M T wf).resultIdx? j idx = some (ix1 m) ↔ (idx (ix2 (j 0) 0)).toInt = (m.val : Int) := by
    intro j
    have e : (vecDims M T wf).resultIdx? j idx = (vecDims M T wf).resultIdx? (ix1 (j 0)) idx :=
      congrArg (fun q => (vecDims M T wf).resultIdx? q idx) (eq_ix1 j)
    rw [e]
    exact resultIdx?_eq_some_iff wf (j 0) m idx
  refine Finset.sum_bij' (fun j _ => j 0) (fun t _ => ix1 t) ?_ ?_ ?_ ?_ ?_
  · intro j hj
    rw [Finset.mem_filter] at hj
    exact Finset.mem_filter.2 ⟨Finset.mem_univ _, (key j).1 hj.2⟩
  · intro t ht
    rw [Finset.mem_filter] at ht
    exact Finset.mem_filter.2 ⟨Finset.mem_univ _, (key (ix1 t)).2 ht.2⟩
  · intro j _
    exact (eq_ix1 j).symm
  · intro t _
    rfl
  · intro j _
    exact congrArg upd (eq_ix1 j)

end Cert.Lib.ScatterVec

end
-- ==== Proof.RefRead.lean ====
/- The reference's result read at an index, at the ideal instance: component k of grid node m is the specification's
   sum over the eight million (particle, corner) rows. The result concatenates the mass column and the three
   momentum columns; each is a scatter-addition from zero, which read at an element is the sum of the rows whose
   node index is that element's; and row t is corner t % 8 of particle t / 8. -/
import proofs.«152410_j40132174414020_2_alg».proof.Proof.RefReadRow
import proofs.«152410_j40132174414020_2_alg».proof.Proof.LibScatterVec
import proofs.«152410_j40132174414020_2_alg».proof.Proof.LibScatterRows2

noncomputable section

namespace Cert.ReferenceIdeal.RefRead

open Cert.ReferenceIdeal Cert.ReferenceIdeal.Gen Cert.ReferenceIdeal.RefRun Idealize.ShloMosaic Idealize.ShloMosaic.ValueIdx

variable (a0 a1 : FVec Ideal S1000000x3 .f32) (a2 : FVec Ideal S1000000 .f32)

/-! ## The rows -/

/-- Row t's node index: corner t % 8 of particle t / 8. -/
theorem hashFlat_apply (t : Fin 8000000) : hashFlat a0 (ix1 t) = Cert.Mpm.rowCell a0 (t.val % 8) (t.val / 8) := by
  unfold hashFlat
  rw [flat2_apply]
  exact hashClip_eq_rowCell a0 _ _

/-- Row t's weighted mass. -/
theorem smFlat_apply (t : Fin 8000000) : smFlat a0 a2 (ix1 t) = Cert.Mpm.rowMass a0 a2 (t.val % 8) (t.val / 8) := by
  unfold smFlat
  rw [flat2_apply]
  exact sm_eq_rowMass a0 a2 _ _

/-- Row t's momentum component d. -/
theorem momFlat_apply (t : Fin 8000000) (d : Fin 3) :
    momFlat a0 a1 a2 (ix2 t d)
      = FloatOps.mulf (Cert.Mpm.rowMass a0 a2 (t.val % 8) (t.val / 8)) (Cert.Mpm.chan3 a1 d (t.val / 8)) := by
  unfold momFlat
  rw [flat3_apply]
  exact mom_apply a0 a1 a2 _ _ d

/-! ## The two scatter-additions at an element -/

/-- The mass of node m: the sum over the rows landing on m of their weighted masses. -/
theorem nodeMass_apply (m : Fin 2097152) : nodeMass a0 a2 (ix1 m) = Cert.Mpm.Gat a0 a1 a2 m 0 := by
  unfold nodeMass Cert.Mpm.Gat
  refine (Cert.Lib.ScatterVec.scatterAdd_vec_apply (M := 2097152) (T := 8000000)
    scatter_S2097152_S8000000x1_S8000000_n_0_0_1_wf _ _ _ m).trans ?_
  rw [show broadcastInDim S2097152 ![] bcast_S_S2097152 (constant (F := Ideal) S_ .f32 0x00000000#32) (ix1 m) = 0
    from Ideal.ofBits_zero_f32, zero_add]
  refine Finset.sum_congr rfl fun t _ => ?_
  rw [column_apply, hashFlat_apply, smFlat_apply]
  rfl

/-- Momentum component d of node m: the sum over the rows landing on m of their momentum component d. -/
theorem nodeMom_apply (m : Fin 2097152) (d : Fin 3) :
    nodeMom a0 a1 a2 (ix2 m d) = Cert.Mpm.Gat a0 a1 a2 m (⟨d.val + 1, by have := d.isLt; omega⟩ : Fin 4) := by
  unfold nodeMom Cert.Mpm.Gat
  refine (Cert.Lib.ScatterRows2.scatterAdd_rows_apply (M := 2097152) (T := 8000000) (C := 3)
    scatter_S2097152x3_S8000000x1_S8000000x3_1_0_0_1_wf _ _ _ m d).trans ?_
  rw [show broadcastInDim S2097152x3 ![] bcast_S_S2097152x3 (constant (F := Ideal) S_ .f32 0x00000000#32) (ix2 m d) = 0
    from Ideal.ofBits_zero_f32, zero_add]
  refine Finset.sum_congr rfl fun t _ => ?_
  rw [column_apply, hashFlat_apply, momFlat_apply]
  match d with
  | ⟨0, _⟩ => rfl
  | ⟨1, _⟩ => rfl
  | ⟨2, _⟩ => rfl

/-! ## The concatenation at an element -/

/-- Column 0 of the result is the mass. -/
theorem out_apply_mass (m : Fin 2097152) : out a0 a1 a2 (ix2 m (0 : Fin 4)) = nodeMass a0 a2 (ix1 m) := by
  unfold out
  refine (concatenate_pair_apply_left (t := S2097152x4) (s₁ := S2097152x1) (s₂ := S2097152x3) _ _ _ _ (ix2 m (0 : Fin 4)) rfl (ix2 m (0 : Fin 1)) (fun b => ?_)).trans ?_
  · match b with
    | ⟨0, _⟩ => rfl
    | ⟨1, _⟩ => rfl
  · exact broadcastInDim_apply _ _ _ (ix2 m (0 : Fin 1)) (ix1 m) (fun a => by
      match a with
      | ⟨0, _⟩ => rfl)

/-- Column d + 1 of the result is momentum component d. -/
theorem out_apply_mom (m : Fin 2097152) (d : Fin 3) :
    out a0 a1 a2 (ix2 m (⟨d.val + 1, by have := d.isLt; omega⟩ : Fin 4)) = nodeMom a0 a1 a2 (ix2 m d) := by
  unfold out
  refine concatenate_pair_apply_right (t := S2097152x4) (s₁ := S2097152x1) (s₂ := S2097152x3) _ _ _ _ (ix2 m (⟨d.val + 1, by have := d.isLt; omega⟩ : Fin 4)) rfl rfl (ix2 m d) (fun b hb => ?_) ?_
  · match b with
    | ⟨0, _⟩ => rfl
    | ⟨1, _⟩ => exact absurd rfl hb
  · rfl

/-- The reference's result is the specification's array. -/
theorem out_eq_G (a0 a1 : FVec Ideal S1000000x3 .f32) (a2 : FVec Ideal S1000000 .f32) :
    Cert.ReferenceIdeal.RefRun.out (F := Ideal) a0 a1 a2 = Cert.Mpm.G a0 a1 a2 := by
  have key : ∀ (m : Fin 2097152) (k : Fin 4), out a0 a1 a2 (ix2 m k) = Cert.Mpm.G a0 a1 a2 (ix2 m k) := by
    intro m k
    rw [Cert.Mpm.G_ix2]
    match k with
    | ⟨0, _⟩ => exact (out_apply_mass a0 a1 a2 m).trans (nodeMass_apply a0 a1 a2 m)
    | ⟨1, _⟩ => exact (out_apply_mom a0 a1 a2 m 0).trans (nodeMom_apply a0 a1 a2 m 0)
    | ⟨2, _⟩ => exact (out_apply_mom a0 a1 a2 m 1).trans (nodeMom_apply a0 a1 a2 m 1)
    | ⟨3, _⟩ => exact (out_apply_mom a0 a1 a2 m 2).trans (nodeMom_apply a0 a1 a2 m 2)
  funext i
  rw [eq_ix2 i]
  exact key (i 0) (i 1)

end Cert.ReferenceIdeal.RefRead

end
-- ==== Proof.lean ====
/-
  The certificate's claims.

  The kernel program scatters, for each of 1015808 zero-padded particles and each of the eight corners of the grid cell
  the particle lies in, the corner's weight · mass and weight · mass · velocity into the corner's cell; the reference
  does the same for the 1000000 particles with no padding, corner by corner within a particle instead of particle by
  particle within a corner. At the ideal instance every float operation is exact, a padded particle has mass 0 and so
  adds 0 to every cell, and a sum over the extended reals does not depend on its order: both results are one function
  of the three argument arrays (the specification). The three programs' frames: each runs to the end and leaves its
  argument arrays as launched — the two kernel programs by the pipeline's frame run over the body's run, the reference
  (host operations only) by its straight-line run. The idealization rewrote nothing, so there is nothing to preserve.
-/
import proofs.«152410_j40132174414020_2_alg».proof.Defs
import proofs.«152410_j40132174414020_2_alg».proof.Proof.Gen.Kernel
import proofs.«152410_j40132174414020_2_alg».proof.Proof.Gen.KernelIdeal
import proofs.«152410_j40132174414020_2_alg».proof.Proof.Gen.ReferenceIdeal
import proofs.«152410_j40132174414020_2_alg».proof.Proof.Gen.Pre_finite_inputs
import proofs.«152410_j40132174414020_2_alg».proof.Proof.KernelFrame
import proofs.«152410_j40132174414020_2_alg».proof.Proof.KernelIdealResult
import proofs.«152410_j40132174414020_2_alg».proof.Proof.RefRead

noncomputable section

namespace Cert.Proof

open Idealize.ShloMosaic Idealize.ShloMosaic.TcCoe Idealize.SL.Sem

/-- The word-level kernel program runs to the end with its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run leaves every buffer at the operations' fold over the launch
    contents, and no operation writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
    (Cert.ReferenceIdeal.RefRun.run_main (F := Ideal) m ρ)

/-- The idealization rewrote no operation. -/
theorem preserves : Cert.preserves_Kernel_KernelIdeal := trivial

/-- Both idealized programs end with the specification's function of the argument arrays in their result buffer. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c Cert.ReferenceIdeal.main_v102).trans ?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
    (Cert.ReferenceIdeal.RefRun.run_main (F := Ideal) m' ρ')
  rw [Cert.ReferenceIdeal.RefRun.out_eq, Cert.ReferenceIdeal.RefRead.out_eq_G]
  exact congr (congr (congrArg Cert.Mpm.G (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
